-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S256x128 .f32) (main_arg10 : FVec F S128 .f32) (main_arg11 : FVec F S256x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S256x128 .f32) (main_arg10 : FVec F S128 .f32) (main_arg11 : FVec F S256x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S50000x128 .f32) (main_arg2 : IVec S2x600000 32) (main_arg3 : FVec F S128x128 .f32) (main_arg4 : FVec F S128 .f32) (main_arg5 : FVec F S128x128 .f32) (main_arg6 : FVec F S128 .f32) (main_arg7 : FVec F S256x128 .f32) (main_arg8 : FVec F S128 .f32) (main_arg9 : FVec F S256x128 .f32) (main_arg10 : FVec F S128 .f32) (main_arg11 : FVec F S256x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩

abbrev nBuf : Space → Nat
  | .hbm => 69
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S50000, .i32⟩
  | .hbm, ⟨18, _⟩ => ⟨S650000, .i32⟩
  | .hbm, ⟨19, _⟩ => ⟨S650000, .i32⟩
  | .hbm, ⟨20, _⟩ => ⟨S_, .f32⟩
  | .hbm, ⟨21, _⟩ => ⟨S650000, .f32⟩
  | .hbm, ⟨22, _⟩ => ⟨S_, .f32⟩
  | .hbm, ⟨23, _⟩ => ⟨S50000, .f32⟩
  | .hbm, ⟨24, _⟩ => ⟨S650000x1, .i32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000x128, .f32⟩
  | .hbm, ⟨38, _⟩ => ⟨S_, .f32⟩
  | .hbm, ⟨39, _⟩ => ⟨S50000x128, .f32⟩
  | .hbm, ⟨40, _⟩ => ⟨S650000x1, .i32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000x128, .f32⟩
  | .hbm, ⟨54, _⟩ => ⟨S_, .f32⟩
  | .hbm, ⟨55, _⟩ => ⟨S50000x128, .f32⟩
  | .hbm, ⟨56, _⟩ => ⟨S650000x1, .i32⟩
  | .hbm, ⟨57, _⟩ => ⟨S50000x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg10_0 : Ref sig .tc := ⟨.vmem, 34, rfl⟩
abbrev cc3_stg11_0 : Ref sig .tc := ⟨.vmem, 35, rfl⟩
abbrev cc3_stg12_0 : Ref sig .tc := ⟨.vmem, 36, rfl⟩
abbrev cc3_stg13_0 : Ref sig .tc := ⟨.vmem, 37, rfl⟩
abbrev cc3_stg13_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem10_0 : DmaSem sig := 34
abbrev cc3_sem11_0 : DmaSem sig := 35
abbrev cc3_sem12_0 : DmaSem sig := 36
abbrev cc3_sem13_0 : DmaSem sig := 37
abbrev cc3_sem13_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S5000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S128x128_S128x128 : S128x128.ShapeCasts S128x128
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S5000x128.size a ≤ S50000x128.size a
  hwx3_13 : ∀ i : grid3.Coords, EltTy.bits .f32 = 32 ∨ (Rect.block (s := S50000x128) S5000x128.size (cc3_transform_13 i) (hinb3_13 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v40) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v41) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v42) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v44) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v45) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v46) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v47) S5000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x256 : Shape := ⟨2, ![50000, 256]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S50000x128, .f32⟩
  | 2 => ⟨S2x600000, .i32⟩
  | 3 => ⟨S128x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S256x128, .f32⟩
  | 10 => ⟨S128, .f32⟩
  | 11 => ⟨S256x128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S50000x128, .f32⟩
  | 18 => ⟨S50000, .i32⟩
  | 19 => ⟨S650000, .i32⟩
  | 20 => ⟨S650000, .i32⟩
  | 21 => ⟨S_, .f32⟩
  | 22 => ⟨S650000, .f32⟩
  | 23 => ⟨S_, .f32⟩
  | 24 => ⟨S50000, .f32⟩
  | 25 => ⟨S650000x1, .i32⟩
  | 26 => ⟨S50000, .f32⟩
  | 27 => ⟨S50000, .f32⟩
  | 28 => ⟨S_, .i32⟩
  | 29 => ⟨S650000, .i32⟩
  | 30 => ⟨S650000, .i1⟩
  | 31 => ⟨S_, .i32⟩
  | 32 => ⟨S650000, .i32⟩
  | 33 => ⟨S650000, .i32⟩
  | 34 => ⟨S650000, .i32⟩
  | 35 => ⟨S650000x1, .i32⟩
  | 36 => ⟨S650000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S650000, .f32⟩
  | 47 => ⟨S_, .i32⟩
  | 48 => ⟨S650000, .i32⟩
  | 49 => ⟨S650000, .i1⟩
  | 50 => ⟨S_, .i32⟩
  | 51 => ⟨S650000, .i32⟩
  | 52 => ⟨S650000, .i32⟩
  | 53 => ⟨S650000, .i32⟩
  | 54 => ⟨S650000x1, .i32⟩
  | 55 => ⟨S650000x128, .f32⟩
  | 56 => ⟨S650000x1, .f32⟩
  | 57 => ⟨S650000x128, .f32⟩
  | 58 => ⟨S650000x128, .f32⟩
  | 59 => ⟨S_, .f32⟩
  | 60 => ⟨S50000x128, .f32⟩
  | 61 => ⟨S650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000, .i32⟩
  | 71 => ⟨S650000, .i32⟩
  | 72 => ⟨S650000, .i32⟩
  | 73 => ⟨S_, .f32⟩
  | 74 => ⟨S650000, .f32⟩
  | 75 => ⟨S_, .f32⟩
  | 76 => ⟨S50000, .f32⟩
  | 77 => ⟨S650000x1, .i32⟩
  | 78 => ⟨S50000, .f32⟩
  | 79 => ⟨S50000, .f32⟩
  | 80 => ⟨S_, .i32⟩
  | 81 => ⟨S650000, .i32⟩
  | 82 => ⟨S650000, .i1⟩
  | 83 => ⟨S_, .i32⟩
  | 84 => ⟨S650000, .i32⟩
  | 85 => ⟨S650000, .i32⟩
  | 86 => ⟨S650000, .i32⟩
  | 87 => ⟨S650000x1, .i32⟩
  | 88 => ⟨S650000, .f32⟩
  | 89 => ⟨S_, .i32⟩
  | 90 => ⟨S650000, .i32⟩
  | 91 => ⟨S650000, .i1⟩
  | 92 => ⟨S_, .i32⟩
  | 93 => ⟨S650000, .i32⟩
  | 94 => ⟨S650000, .i32⟩
  | 95 => ⟨S650000, .i32⟩
  | 96 => ⟨S650000x1, .i32⟩
  | 97 => ⟨S650000, .f32⟩
  | 98 => ⟨S650000, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000x128, .f32⟩
  | 108 => ⟨S650000x1, .f32⟩
  | 109 => ⟨S650000x128, .f32⟩
  | 110 => ⟨S650000x128, .f32⟩
  | 111 => ⟨S_, .f32⟩
  | 112 => ⟨S50000x128, .f32⟩
  | 113 => ⟨S650000x1, .i32⟩
  | 114 => ⟨S50000x128, .f32⟩
  | 115 => ⟨S1x128, .f32⟩
  | 116 => ⟨S50000x128, .f32⟩
  | 117 => ⟨S50000x128, .f32⟩
  | 118 => ⟨S50000x256, .f32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S50000x256, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S50000x128, .f32⟩
  | 27 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_18 : Ref sig .tc := ⟨.hbm, 137, rfl⟩
abbrev main_v102 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program run from any launch memory: every weakly fair execution terminates without a fault,
  its argument arrays end as they were launched, and its result array ends at the contents the last region's
  write-backs leave — the last boundary of the fold of buffer contents through the program's three host stretches
  and four kernel regions. The argument is the frame's (the launch over the seven segments, the last thread state
  read against the final memory); the only addition is that the result buffer, being one of the buffers the last
  thread state holds, is read off that state as well.
-/
import proofs.«138680_j57123065037360_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array named: it ends at the last boundary's contents. -/
theorem run : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v47 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.KRun

end
-- ==== Proof.KernelCarry.lean ====
/-
  Which buffers the program leaves alone between the places where they are written and the places where they are read.

  The program is three stretches of host operations around four kernel regions. The two edge lists and the column of
  reciprocal square-root degrees are computed by the first stretch and read by later stretches and regions; the
  weights, biases and the previous state are arguments, read at various places. No stretch writes any of them and no
  region's output is one of them (a region only reads them through an input window), so at each place where one is
  read it still holds what it held when it was written — for an argument, what the program was launched with.
-/
import proofs.«138680_j57123065037360_2_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W1_arg0_from0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg0) := rfl

theorem W1_arg3_from0 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg3) := rfl

theorem W1_arg2_from0 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg2) := rfl

theorem W2_arg4_from0 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg4) := rfl

theorem W4_arg5_from0 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg5) := rfl

theorem W6_arg1_from0 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg1) := rfl

theorem W5_arg6_from0 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg6) := rfl

theorem W5_arg7_from0 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg7) := rfl

theorem W5_arg8_from0 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg8) := rfl

theorem W5_arg9_from0 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg9) := rfl

theorem W5_arg10_from0 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg10) := rfl

theorem W5_arg11_from0 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg11) := rfl

theorem W5_arg12_from0 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = m ((c : Thread nD τ).loc main_arg12) := rfl

theorem W2_v5_from1 (c : Dev nD) : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

theorem W2_v6_from1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem W5_v5_from1 (c : Dev nD) : W5 m ρ c (Proc.devRef .tc main_v5) = W1 m ρ c (Proc.devRef .tc main_v5) :=
  calc W5 m ρ c (Proc.devRef .tc main_v5)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v5) := W2_of_ne m ρ c main_v5 (by decide)

theorem W5_v6_from1 (c : Dev nD) : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v6) := W2_of_ne m ρ c main_v6 (by decide)

theorem W3_v12_from1 (c : Dev nD) : W3 m ρ c (Proc.devRef .tc main_v12) = W1 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem W4_v12_from1 (c : Dev nD) : W4 m ρ c (Proc.devRef .tc main_v12) = W1 m ρ c (Proc.devRef .tc main_v12) :=
  calc W4 m ρ c (Proc.devRef .tc main_v12)
    _ = W3 m ρ c (Proc.devRef .tc main_v12) := (W4_arr m ρ c 1).trans (((dat1 (V3 m ρ) c).arrAt_in 1 rfl _).trans (A_eq1 (V3 m ρ) c 1))
    _ = W2 m ρ c (Proc.devRef .tc main_v12) := StableHlo.after_of_forall_not_mem (b := Proc.devRef .tc main_v12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem W6_v12_from1 (c : Dev nD) : W6 m ρ c (Proc.devRef .tc main_v12) = W1 m ρ c (Proc.devRef .tc main_v12) :=
  calc W6 m ρ c (Proc.devRef .tc main_v12)
    _ = W5 m ρ c (Proc.devRef .tc main_v12) := StableHlo.after_of_forall_not_mem (b := Proc.devRef .tc main_v12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W4 m ρ c (Proc.devRef .tc main_v12) := (W5_arr m ρ c 2).trans (((dat2 (V4 m ρ) c).arrAt_in 2 rfl _).trans (A_eq2 (V4 m ρ) c 2))
    _ = W3 m ρ c (Proc.devRef .tc main_v12) := (W4_arr m ρ c 1).trans (((dat1 (V3 m ρ) c).arrAt_in 1 rfl _).trans (A_eq1 (V3 m ρ) c 1))
    _ = W2 m ρ c (Proc.devRef .tc main_v12) := StableHlo.after_of_forall_not_mem (b := Proc.devRef .tc main_v12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

end Cert.KernelIdeal.Carry

end
-- ==== Proof.LibTernary.lean ====
/-
  Ternary weights: the mathematics both programs compute, on the extended reals.

  A row w of the weight has the scale s(w) = max(ε, (0 + Σ_k |w_k|) / 4096), with |v| = max(v, −v), and the
  code of an entry v of that row is clamp(round-half-even(v / s), −1, 1).  The reference multiplies each
  code back by its row's scale and then contracts with x; the kernel contracts x with the bare codes and
  multiplies the sum by the scale afterwards.  The two agree because a row's scale is a nonnegative REAL
  number whenever the row's entries are real: multiplication by such a number distributes over every sum
  of extended reals (infinite terms included), and multiplication is associative.
-/
import Mathlib.Data.EReal.Operations
import Mathlib.Data.EReal.Inv
import Idealize.ShloMosaic.PureOps.Ideal
import Idealize.ShloMosaic.PureOps.Ideal.Laws

noncomputable section

open scoped BigOperators

namespace Cert.Ternary

open Idealize.ShloMosaic

/-- The floor ε of a scale, the additive start 0 of a sum, the row length 4096, and the clamp's bounds −1 and 1,
    each as the binary32 word the programs spell it with. -/
abbrev εw : EReal := Ideal.ofBits .f32 0x3727C5AC#32
abbrev zw : EReal := Ideal.ofBits .f32 0x00000000#32
abbrev nw : EReal := Ideal.ofBits .f32 0x45800000#32
abbrev lo : EReal := Ideal.ofBits .f32 0xBF800000#32
abbrev hi : EReal := Ideal.ofBits .f32 0x3F800000#32

/-- The scale of a row: the mean of its absolute values, floored at ε. -/
def rowScale {K : ℕ} (w : Fin K → EReal) : EReal :=
  max εw (Ideal.div (zw + ∑ k, max (w k) (-(w k))) nw)

/-- The ternary code of an entry `v` of a row whose scale is `s`. -/
def code (s v : EReal) : EReal :=
  min hi (max lo (Ideal.liftRound Ideal.roundHalfEven (Ideal.div v s)))

theorem zw_eq : zw = 0 := Ideal.ofBits_zero_f32

theorem nw_eq : nw = ((4096 : ℝ) : EReal) := by
  simp [nw, Ideal.ofBits, Ideal.ieee, -EReal.coe_mul]; norm_num

theorem εw_real : ∃ r : ℝ, 0 ≤ r ∧ εw = (r : EReal) := by
  refine ⟨(2 : ℝ) ^ (-17 : ℤ) * (1 + 2606508 / 2 ^ 23), by positivity, ?_⟩
  simp [εw, Ideal.ofBits, Ideal.ieee, -EReal.coe_mul]; norm_num

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals, is the larger of the two read there. -/
theorem max_coe (a b : ℝ) : max (a : EReal) (b : EReal) = ((max a b : ℝ) : EReal) :=
  (EReal.coe_strictMono.monotone.map_max).symm

/-- A row of real entries has a nonnegative real scale. -/
theorem rowScale_real {K : ℕ} (w : Fin K → EReal) (hw : ∀ k, ∃ r : ℝ, w k = (r : EReal)) :
    ∃ r : ℝ, 0 ≤ r ∧ rowScale w = (r : EReal) := by
  choose f hf using hw
  obtain ⟨e, he0, he⟩ := εw_real
  have habs : ∀ k, max (w k) (-(w k)) = ((|f k| : ℝ) : EReal) := fun k => by
    rw [hf k, ← EReal.coe_neg, max_coe, abs_eq_max_neg]
  have hsum : (∑ k, max (w k) (-(w k))) = ((∑ k, |f k| : ℝ) : EReal) := by
    rw [coe_sum]; exact Finset.sum_congr rfl fun k _ => habs k
  refine ⟨max e ((∑ k, |f k|) * (1 / 4096)), le_max_of_le_left he0, ?_⟩
  unfold rowScale
  rw [hsum, zw_eq, zero_add, nw_eq, Ideal.div_coe (by norm_num : (4096 : ℝ) ≠ 0), he, ← EReal.coe_mul, max_coe]

/-- Multiplication by a nonnegative real distributes over any finite sum of extended reals. -/
theorem sum_mul_real {ι : Type*} (s : Finset ι) (a : ι → EReal) (r : ℝ) (hr : 0 ≤ r) :
    ∑ i ∈ s, a i * (r : EReal) = (∑ i ∈ s, a i) * (r : EReal) := by
  classical
  induction s using Finset.induction_on with
  | empty => simp
  | insert j s hj ih =>
    rw [Finset.sum_insert hj, Finset.sum_insert hj, ih,
      EReal.right_distrib_of_nonneg_of_ne_top (EReal.coe_nonneg.mpr hr) (EReal.coe_ne_top r)]

/-- THE LAW that joins the two programs: scaling every code of a row before the contraction is scaling the
    contraction afterwards, when the scale is a nonnegative real. -/
theorem contract_scaled {ι : Type*} (s : Finset ι) (x q : ι → EReal) (σ : EReal) (hσ : ∃ r : ℝ, 0 ≤ r ∧ σ = (r : EReal)) :
    ∑ i ∈ s, x i * (q i * σ) = (∑ i ∈ s, x i * q i) * σ := by
  obtain ⟨r, hr, rfl⟩ := hσ
  rw [← sum_mul_real s _ r hr]
  exact Finset.sum_congr rfl fun i _ => (mul_assoc _ _ _).symm

end Cert.Ternary

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.Spec.lean ====
/-
  The mathematics both programs compute, as functions on the extended reals.

  A graph of 50000 nodes carries 650000 directed edges (600000 given ones and one self-loop per node). Edge `e` has a
  source row `src e` and lands on the target node `j` when `e ∈ L j`; `dinv j` is the reciprocal square root of the
  number of edges landing on `j`. One graph convolution of node features `Y` sums, over the edges landing on `j`,
  the source's features weighted by `dinv (src e) · dinv j`. The two programs arrange that weighting differently:

  * `convK`: the rows are scaled by `dinv` at the source BEFORE they are gathered, and the finished segment sum is
    scaled by `dinv j` once, at the target;
  * `convR`: every gathered row is scaled by the product `dinv (src e) · dinv (dstN e)`, where `dstN e` is the target
    row read off the edge itself.

  They agree when `dinv j` is a nonnegative real and `dstN e = j` for every edge landing on `j` (`convK_eq_convR`):
  a nonnegative real factor moves across a finite sum on the extended reals whatever the other terms are.

  After two convolutions (`hidden` after the first, with a bias and a clamp at zero; `embed` after the second, with a
  bias) a gated update mixes the embedding with the previous hidden state: two logistic gates and one tanh candidate,
  each a dense layer on the 256 features `[embedding, state]`, written here with the 256-term contraction already
  split into its two halves of 128 terms (`top` and `bot` of each weight).
-/
import Idealize.ShloMosaic.PureOps.Ideal
import Idealize.ShloMosaic.PureOps.Ideal.Laws
import Idealize.ShloMosaic.Lib.ValueIdx
import proofs.«138680_j57123065037360_2_alg».proof.Proof.LibTernary
import proofs.«138680_j57123065037360_2_alg».proof.Proof.LibGatherRows

noncomputable section

open scoped BigOperators

namespace Cert.Gcn

open Idealize.ShloMosaic

/-- The node an edge's index word names: the word read signed and clamped into the 50000 rows. -/
def rowOf (col : IVec (⟨2, ![650000, 1]⟩ : Shape) 32) (e : Fin 650000) : Fin 50000 :=
  Cert.LibGatherRows.clampRow 50000 (by norm_num) (col (ValueIdx.ix2 e (0 : Fin 1)))

/-- A matrix of extended reals, row and column given separately. -/
abbrev Mat (a b : ℕ) : Type := Fin a → Fin b → EReal

/-- The plain product of node features with a 128×128 weight. -/
def mm (X : Mat 50000 128) (W : Mat 128 128) : Mat 50000 128 := fun p q => ∑ k : Fin 128, X p k * W k q

section Conv
variable (dinv : Fin 50000 → EReal) (src : Fin 650000 → Fin 50000) (L : Fin 50000 → Finset (Fin 650000))

/-- One convolution, the rows scaled at the source and the segment sum scaled once at the target. -/
def convK (Y : Mat 50000 128) : Mat 50000 128 := fun j q => (∑ e ∈ L j, Y (src e) q * dinv (src e)) * dinv j

/-- One convolution, every gathered row scaled by the product of the two endpoint factors. -/
def convR (dstN : Fin 650000 → Fin 50000) (Y : Mat 50000 128) : Mat 50000 128 :=
  fun j q => ∑ e ∈ L j, Y (src e) q * (dinv (src e) * dinv (dstN e))

/-- The two arrangements agree when the target's factor is a nonnegative real and every landing edge names its
    target. -/
theorem convK_eq_convR (dstN : Fin 650000 → Fin 50000)
    (hd : ∀ j, ∃ r : ℝ, 0 ≤ r ∧ dinv j = (r : EReal)) (hL : ∀ j, ∀ e ∈ L j, dstN e = j) (Y : Mat 50000 128) :
    convK dinv src L Y = convR dinv src L dstN Y := by
  funext j q
  unfold convK convR
  rw [← Cert.Ternary.contract_scaled (L j) (fun e => Y (src e) q) (fun e => dinv (src e)) (dinv j) (hd j)]
  exact Finset.sum_congr rfl fun e he => by rw [hL j e he]

/-- The first convolution's output: bias added, clamped at zero. -/
def hidden (conv : Mat 50000 128) (b : Fin 128 → EReal) : Mat 50000 128 := fun j q => max (conv j q + b q) 0

/-- The second convolution's output: bias added. -/
def embed (conv : Mat 50000 128) (b : Fin 128 → EReal) : Mat 50000 128 := fun j q => conv j q + b q

end Conv

/-- The first 128 rows of a 256×128 weight. -/
def top (W : Mat 256 128) : Mat 128 128 := fun k q => W ⟨k.val, by omega⟩ q

/-- Its last 128 rows. -/
def bot (W : Mat 256 128) : Mat 128 128 := fun k q => W ⟨128 + k.val, by omega⟩ q

/-- A dense layer on the 256 features `[A, H]`, the contraction split into its two halves of 128 terms, each half
    with its own 128×128 weight. -/
def lin2 (A H : Mat 50000 128) (Wt Wb : Mat 128 128) (b : Fin 128 → EReal) : Mat 50000 128 := fun p q =>
  (∑ k : Fin 128, A p k * Wt k q) + (∑ k : Fin 128, H p k * Wb k q) + b q

/-- The gated update over six half weights: `(1 − z) · state + z · tanh(candidate)`, `z` the logistic update gate,
    the candidate a dense layer on `[embedding, reset · state]`, `reset` the logistic reset gate. -/
def gru2 (emb hid : Mat 50000 128) (Wzt Wzb Wrt Wrb Wct Wcb : Mat 128 128) (bz br bc : Fin 128 → EReal) :
    Mat 50000 128 := fun p q =>
  (1 - Ideal.logistic (lin2 emb hid Wzt Wzb bz p q)) * hid p q
    + Ideal.logistic (lin2 emb hid Wzt Wzb bz p q)
      * Ideal.tanh (lin2 emb (fun p k => Ideal.logistic (lin2 emb hid Wrt Wrb br p k) * hid p k) Wct Wcb bc p q)

/-- The gated update over the three 256×128 weights. -/
def gru (emb hid : Mat 50000 128) (Wz Wr Wc : Mat 256 128) (bz br bc : Fin 128 → EReal) : Mat 50000 128 :=
  gru2 emb hid (top Wz) (bot Wz) (top Wr) (bot Wr) (top Wc) (bot Wc) bz br bc

end Cert.Gcn

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.RegionConv.lean ====
/-
  The three row-blocked regions of the two graph convolutions, each read as ONE entry-by-entry function of the arrays
  the region finds on entry.

  Every one of these regions walks 10 grid points. Point `t` works on rows `5000·t … 5000·t + 4999` of the
  50000-row arrays and on the whole of the small ones (the 128×128 weight, the 1×128 bias row), and writes its
  5000×128 result back to the same rows of the output. So row `p` of the output is written by point `p / 5000`
  alone, from row `p` of the row-blocked inputs, and the output array after the region is a function of the input
  arrays entry by entry:

  * regions 0 and 2 (product with a weight, then each row scaled by its factor):
    `(∑ k, X (p, k) · W (k, q)) · d (p, 0)`;
  * region 1 (each row scaled by its factor, the bias row added, clamped at zero):
    `max (Y (p, q) · d (p, 0) + b (0, q)) 0`.

  Per region: the body's stored value at an entry of the block; each input block as rows of its array; what a point
  writes back is its block of the entry-by-entry function; the ten blocks cover the array.
-/
import proofs.«138680_j57123065037360_2_alg».proof.Proof.Gen.KernelIdeal.Frame
import proofs.«138680_j57123065037360_2_alg».proof.Proof.LibPlainMatmul
import proofs.«138680_j57123065037360_2_alg».proof.Proof.LibColumn
import Idealize.ShloMosaic.Lib.Pipeline.Value
import Idealize.ShloMosaic.Lib.ValueIdx
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product and the sum of two extended reals, the type written out: the entries of the arrays `V c b` are
    extended reals, and these are `*` and `+` of `EReal` on them. -/
local notation:70 a:70 " ⬝ " b:71 => @HMul.hMul EReal EReal EReal instHMul a b
local notation:65 a:65 " ⊹ " b:66 => @HAdd.hAdd EReal EReal EReal instHAdd a b

/-- The body's loads and its store start at the block's origin. -/
theorem origin : (![0, 0] : Fin 2 → Nat) = fun _ => 0 := funext fun a => by fin_cases a <;> rfl

/-! ## The two entry-by-entry functions -/

/-- The product of `X` with the weight `W` at `(p, q)`, scaled by row `p`'s factor. -/
def scaledProductAt (X : S50000x128.Idx → EReal) (W : S128x128.Idx → EReal) (d : S50000x1.Idx → EReal)
    (p : Fin 50000) (q : Fin 128) : EReal :=
  (∑ k : Fin 128, X (ix2 p k) * W (ix2 k q)) * d (ix2 p (0 : Fin 1))

/-- The same over the array's index. -/
def scaledProduct (X : S50000x128.Idx → EReal) (W : S128x128.Idx → EReal) (d : S50000x1.Idx → EReal) :
    S50000x128.Idx → EReal :=
  fun i => scaledProductAt X W d ⟨(i 0).val, idx2_lt0 i⟩ ⟨(i 1).val, idx2_lt1 i⟩

/-- `Y` at `(p, q)` scaled by row `p`'s factor, the bias row's entry `q` added, clamped at zero. -/
def scaledBiasedClampedAt (Y : S50000x128.Idx → EReal) (d : S50000x1.Idx → EReal) (b : S1x128.Idx → EReal)
    (p : Fin 50000) (q : Fin 128) : EReal :=
  max (Y (ix2 p q) * d (ix2 p (0 : Fin 1)) + b (ix2 (0 : Fin 1) q)) 0

/-- The same over the array's index. -/
def scaledBiasedClamped (Y : S50000x128.Idx → EReal) (d : S50000x1.Idx → EReal) (b : S1x128.Idx → EReal) :
    S50000x128.Idx → EReal :=
  fun i => scaledBiasedClampedAt Y d b ⟨(i 0).val, idx2_lt0 i⟩ ⟨(i 1).val, idx2_lt1 i⟩

/-- A 5000-row block of the product is the product of the block's rows: if the block `x0` holds rows
    `5000·n + r` of `X`, `x1` is all of `W`, and `x2` holds the same rows of `d`, then the block's closed form at
    `(r, q)` is the array's at `(5000·n + r, q)`. -/
theorem scaledProduct_rows (X : S50000x128.Idx → EReal) (W : S128x128.Idx → EReal) (d : S50000x1.Idx → EReal)
    (x0 : S5000x128.Idx → EReal) (x1 : S128x128.Idx → EReal) (x2 : S5000x1.Idx → EReal) (n : ℕ)
    (h0 : ∀ (y : S5000x128.Idx) (i : S50000x128.Idx), (i 0).val = n * 5000 + (y 0).val → (i 1).val = (y 1).val → x0 y = X i)
    (h1 : x1 = W)
    (h2 : ∀ (y : S5000x1.Idx) (i : S50000x1.Idx), (i 0).val = n * 5000 + (y 0).val → (i 1).val = (y 1).val → x2 y = d i)
    (r : Fin 5000) (q : Fin 128) (i : S50000x128.Idx) (hi0 : (i 0).val = n * 5000 + r.val) (hi1 : (i 1).val = q.val) :
    (∑ k : Fin 128, x0 (ix2 r k) * x1 (ix2 k q)) * x2 (ix2 r (0 : Fin 1)) = scaledProduct X W d i := by
  subst h1
  have hq : (⟨(i 1).val, idx2_lt1 i⟩ : Fin 128) = q := Fin.ext hi1
  unfold scaledProduct scaledProductAt
  rw [hq]
  exact congrArg₂ (· * ·)
    (Finset.sum_congr rfl fun k _ => congrArg₂ (· * ·) (h0 (ix2 r k) (ix2 ⟨(i 0).val, idx2_lt0 i⟩ k) hi0 rfl) rfl)
    (h2 (ix2 r (0 : Fin 1)) (ix2 ⟨(i 0).val, idx2_lt0 i⟩ (0 : Fin 1)) hi0 rfl)

/-- The same for the scaled, biased and clamped rows; the bias row is whole in every block. -/
theorem scaledBiasedClamped_rows (Y : S50000x128.Idx → EReal) (d : S50000x1.Idx → EReal) (b : S1x128.Idx → EReal)
    (x0 : S5000x128.Idx → EReal) (x1 : S5000x1.Idx → EReal) (x2 : S1x128.Idx → EReal) (n : ℕ)
    (h0 : ∀ (y : S5000x128.Idx) (i : S50000x128.Idx), (i 0).val = n * 5000 + (y 0).val → (i 1).val = (y 1).val → x0 y = Y i)
    (h1 : ∀ (y : S5000x1.Idx) (i : S50000x1.Idx), (i 0).val = n * 5000 + (y 0).val → (i 1).val = (y 1).val → x1 y = d i)
    (h2 : x2 = b)
    (r : Fin 5000) (q : Fin 128) (i : S50000x128.Idx) (hi0 : (i 0).val = n * 5000 + r.val) (hi1 : (i 1).val = q.val) :
    max (x0 (ix2 r q) * x1 (ix2 r (0 : Fin 1)) + x2 (ix2 (0 : Fin 1) q)) 0 = scaledBiasedClamped Y d b i := by
  subst h2
  have hq : (⟨(i 1).val, idx2_lt1 i⟩ : Fin 128) = q := Fin.ext hi1
  unfold scaledBiasedClamped scaledBiasedClampedAt
  rw [hq, h0 (ix2 r q) (ix2 ⟨(i 0).val, idx2_lt0 i⟩ q) hi0 rfl,
    h1 (ix2 r (0 : Fin 1)) (ix2 ⟨(i 0).val, idx2_lt0 i⟩ (0 : Fin 1)) hi0 rfl]

/-! ## Region 0: the product with the weight, each row scaled by its factor -/

/-- The body's stored value at the block's entry `(r, q)`: row `r` of the block's product, scaled by row `r`'s factor. -/
theorem stored0_apply (x0 : FVec Ideal S5000x128 .f32) (x1 : FVec Ideal S128x128 .f32) (x2 : FVec Ideal S5000x1 .f32)
    (r : Fin 5000) (q : Fin 128) :
    k0_pay1 (F := Ideal) x0 x1 x2 (ix2 r q)
      = (∑ k : Fin 128, x0 (ix2 r k) * x1 (ix2 k q)) * x2 (ix2 r (0 : Fin 1)) := by
  unfold k0_pay1
  show FloatOps.matmul (F := Ideal) dot_S5000x128_S128x128_S5000x128_1_0_0_1_n_n (some .fp32) x0 x1
        (constant S5000x128 .f32 0x00000000#32) (ix2 r q)
      * broadcastTo S5000x128 (shapeCast S5000x1 x2 shapeCasts_S5000x1_S5000x1) broadcasts_S5000x1_S5000x128 (ix2 r q) = _
  rw [Cert.LibPlainMatmul.matmul_plain_zero_apply dot_S5000x128_S128x128_S5000x128_1_0_0_1_n_n rfl, Cert.LibColumn.broadcastTo_a1_ab_apply, shapeCast_self]

/-- The block numbers of the four windows at point `t`: the row-blocked ones sit at row block `t`, the weight at
    its one block; decided over the ten points. -/
theorem block_numbers0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point `t` holds rows `5000·t …` of its array. -/
theorem rows0_0 (c : Dev nD) (t : Fin cfg0.N) (y : S5000x128.Idx) (i : S50000x128.Idx)
    (h0 : (i 0).val = t.val * 5000 + (y 0).val) (h1 : (i 1).val = (y 1).val) :
    (iblk0 V c 0 t : S5000x128.Idx → EReal) y = (V c (Pipeline.arrRef spec0 0) : S50000x128.Idx → EReal) i := by
  obtain ⟨e0, e1, -⟩ := block_numbers0 t
  show (V c (Pipeline.arrRef spec0 0) : S50000x128.Idx → EReal) (((cfg0.win 0).blk t).view.emb y) = _
  refine congrArg (V c (Pipeline.arrRef spec0 0) : S50000x128.Idx → EReal) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Window 1's block at every point is the whole weight. -/
theorem whole0_1 (c : Dev nD) (t : Fin cfg0.N) :
    (iblk0 V c 1 t : S128x128.Idx → EReal) = (V c (Pipeline.arrRef spec0 1) : S128x128.Idx → EReal) := by
  obtain ⟨-, -, e0, e1, -⟩ := block_numbers0 t
  funext y
  show (V c (Pipeline.arrRef spec0 1) : S128x128.Idx → EReal) (((cfg0.win 1).blk t).view.emb y) = _
  refine congrArg (V c (Pipeline.arrRef spec0 1) : S128x128.Idx → EReal) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2's block at point `t` holds rows `5000·t …` of the factor column. -/
theorem rows0_2 (c : Dev nD) (t : Fin cfg0.N) (y : S5000x1.Idx) (i : S50000x1.Idx)
    (h0 : (i 0).val = t.val * 5000 + (y 0).val) (h1 : (i 1).val = (y 1).val) :
    (iblk0 V c 2 t : S5000x1.Idx → EReal) y = (V c (Pipeline.arrRef spec0 2) : S50000x1.Idx → EReal) i := by
  obtain ⟨-, -, -, -, e0, e1, -⟩ := block_numbers0 t
  show (V c (Pipeline.arrRef spec0 2) : S50000x1.Idx → EReal) (((cfg0.win 2).blk t).view.emb y) = _
  refine congrArg (V c (Pipeline.arrRef spec0 2) : S50000x1.Idx → EReal) (funext fun a => Fin.ext ?_)
  match a with
  | ⟨0, _⟩ => show win0_2.index t (0 : Fin 2) * 5000 + 1 * (y 0).val = (i 0).val; rw [e0, h0]; omega
  | ⟨1, _⟩ => show win0_2.index t (1 : Fin 2) * 1 + 1 * (y 1).val = (i 1).val; rw [e1, h1]; omega

/-- The body's stored value over blocks that hold rows `5000·n …` of the arrays `X`, `d` and all of `W` is the
    entry-by-entry function of `X`, `W`, `d` at those rows. -/
theorem stored0_rows (X : S50000x128.Idx → EReal) (W : S128x128.Idx → EReal) (d : S50000x1.Idx → EReal)
    (x0 : FVec Ideal S5000x128 .f32) (x1 : FVec Ideal S128x128 .f32) (x2 : FVec Ideal S5000x1 .f32) (n : ℕ)
    (h0 : ∀ (y : S5000x128.Idx) (i : S50000x128.Idx), (i 0).val = n * 5000 + (y 0).val → (i 1).val = (y 1).val → x0 y = X i)
    (h1 : x1 = W)
    (h2 : ∀ (y : S5000x1.Idx) (i : S50000x1.Idx), (i 0).val = n * 5000 + (y 0).val → (i 1).val = (y 1).val → x2 y = d i)
    (j : S5000x128.Idx) (i : S50000x128.Idx) (hi0 : (i 0).val = n * 5000 + (j 0).val) (hi1 : (i 1).val = (j 1).val) :
    k0_pay1 (F := Ideal) x0 x1 x2 j = scaledProduct X W d i := by
  obtain ⟨r, q, rfl⟩ : ∃ (r : Fin 5000) (q : Fin 128), j = ix2 r q := ⟨j 0, j 1, eq_ix2 j⟩
  rw [stored0_apply]
  exact scaledProduct_rows X W d x0 x1 x2 n h0 h1 h2 r q i hi0 hi1

/-- What point `t` writes back is its block of the entry-by-entry function of the arrays the region finds. -/
theorem written0 (c : Dev nD) (t : Fin cfg0.N) :
    (dat0 V c).flushed 3 t = ((cfg0.win 3).blk t).view.read (Elt Ideal)
      (scaledProduct (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S5000x1) origin]
  obtain ⟨-, -, -, -, -, -, e0, e1⟩ := block_numbers0 t
  funext j
  show k0_pay1 (F := Ideal) (iblk0 V c 0 t) (iblk0 V c 1 t) (iblk0 V c 2 t) j
    = scaledProduct (V c (Pipeline.arrRef spec0 0)) (V c (Pipeline.arrRef spec0 1)) (V c (Pipeline.arrRef spec0 2))
        (((cfg0.win 3).blk t).view.emb j)
  refine stored0_rows (V c (Pipeline.arrRef spec0 0)) (V c (Pipeline.arrRef spec0 1)) (V c (Pipeline.arrRef spec0 2))
    (iblk0 V c 0 t) (iblk0 V c 1 t) (iblk0 V c 2 t) t.val
    (rows0_0 V c t) (whole0_1 V c t) (rows0_2 V c t) j (((cfg0.win 3).blk t).view.emb j) ?_ ?_
  · show win0_3.index t (0 : Fin 2) * 5000 + 1 * (j 0).val = t.val * 5000 + (j 0).val; rw [e0]; omega
  · show win0_3.index t (1 : Fin 2) * 128 + 1 * (j 1).val = (j 1).val; rw [e1]; omega

/-- Point `t`'s block of the output array is a box: on each axis, the `size` consecutive coordinates from block number × `size`. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v13).slice (win0_3.rect t)).set ↔ _
  rw [View.set_slice_whole, Rect.mem_set_unit]
  exact Iff.rfl

/-- Row `p` of the output lies in the block of point `p / 5000`, which writes back. -/
theorem covered0 (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := block_numbers0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The output array after the region is the entry-by-entry function of the arrays the region finds. -/
theorem array0 (c : Dev nD) :
    (dat0 V c).arrAt 3 cfg0.N
      = scaledProduct (V c (Pipeline.arrRef spec0 0)) (V c (Pipeline.arrRef spec0 1)) (V c (Pipeline.arrRef spec0 2)) :=
  (dat0 V c).arrAt_eq_of_cover 3 _ (fun t _ => written0 V c t) covered0

/-- Region 0's output at `(p, q)`, over the arrays the region finds. -/
theorem region0_entry (c : Dev nD) (p : Fin 50000) (q : Fin 128) :
    (Gen.dat0 V c).arrAt 3 cfg0.N (ix2 p q)
      = (∑ k : Fin 128, V c (Pipeline.arrRef spec0 0) (ix2 p k) ⬝ V c (Pipeline.arrRef spec0 1) (ix2 k q))
        ⬝ V c (Pipeline.arrRef spec0 2) (ix2 p (0 : Fin 1)) := by
  rw [array0]; rfl

/-- REGION 0's output at `(p, q)`, the three arrays the region finds named: `A0` the features, `A1` the weight, `A2` the
    factor column. -/
theorem region0_value (c : Dev nD) (A0 : S50000x128.Idx → EReal) (A1 : S128x128.Idx → EReal) (A2 : S50000x1.Idx → EReal)
    (h0 : V c (Pipeline.arrRef spec0 0) = A0) (h1 : V c (Pipeline.arrRef spec0 1) = A1)
    (h2 : V c (Pipeline.arrRef spec0 2) = A2) (p : Fin 50000) (q : Fin 128) :
    (Gen.dat0 V c).arrAt 3 cfg0.N (ix2 p q)
      = (∑ k : Fin 128, A0 (ix2 p k) * A1 (ix2 k q)) * A2 (ix2 p (0 : Fin 1)) := by
  subst h0 h1 h2
  exact region0_entry V c p q

/-! ## Region 1: each row scaled by its factor, the bias row added, clamped at zero -/

/-- The body's stored value at the block's entry `(r, q)`. -/
theorem stored1_apply (x0 : FVec Ideal S5000x128 .f32) (x1 : FVec Ideal S5000x1 .f32) (x2 : FVec Ideal S1x128 .f32)
    (r : Fin 5000) (q : Fin 128) :
    k1_pay1 (F := Ideal) x0 x1 x2 (ix2 r q)
      = max (x0 (ix2 r q) * x1 (ix2 r (0 : Fin 1)) + x2 (ix2 (0 : Fin 1) q)) 0 := by
  unfold k1_pay1
  show max (shapeCast S5000x128 x0 shapeCasts_S5000x128_S5000x128 (ix2 r q)
        * broadcastTo S5000x128 (shapeCast S5000x1 x1 shapeCasts_S5000x1_S5000x1) broadcasts_S5000x1_S5000x128 (ix2 r q)
      + broadcastTo S5000x128 (shapeCast S1x128 x2 shapeCasts_S1x128_S1x128) broadcasts_S1x128_S5000x128 (ix2 r q))
      (Ideal.ofBits .f32 0x00000000#32) = _
  rw [shapeCast_self, shapeCast_self, shapeCast_self, Cert.LibColumn.broadcastTo_a1_ab_apply,
    broadcastTo_1b_ab_apply, Ideal.ofBits_zero_f32]

/-- The block numbers of the four windows at point `t`: the row-blocked ones sit at row block `t`, the bias row at
    its one block; decided over the ten points. -/
theorem block_numbers1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point `t` holds rows `5000·t …` of its array. -/
theorem rows1_0 (c : Dev nD) (t : Fin cfg1.N) (y : S5000x128.Idx) (i : S50000x128.Idx)
    (h0 : (i 0).val = t.val * 5000 + (y 0).val) (h1 : (i 1).val = (y 1).val) :
    (iblk1 V c 0 t : S5000x128.Idx → EReal) y = (V c (Pipeline.arrRef spec1 0) : S50000x128.Idx → EReal) i := by
  obtain ⟨e0, e1, -⟩ := block_numbers1 t
  show (V c (Pipeline.arrRef spec1 0) : S50000x128.Idx → EReal) (((cfg1.win 0).blk t).view.emb y) = _
  refine congrArg (V c (Pipeline.arrRef spec1 0) : S50000x128.Idx → EReal) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Window 1's block at point `t` holds rows `5000·t …` of the factor column. -/
theorem rows1_1 (c : Dev nD) (t : Fin cfg1.N) (y : S5000x1.Idx) (i : S50000x1.Idx)
    (h0 : (i 0).val = t.val * 5000 + (y 0).val) (h1 : (i 1).val = (y 1).val) :
    (iblk1 V c 1 t : S5000x1.Idx → EReal) y = (V c (Pipeline.arrRef spec1 1) : S50000x1.Idx → EReal) i := by
  obtain ⟨-, -, e0, e1, -⟩ := block_numbers1 t
  show (V c (Pipeline.arrRef spec1 1) : S50000x1.Idx → EReal) (((cfg1.win 1).blk t).view.emb y) = _
  refine congrArg (V c (Pipeline.arrRef spec1 1) : S50000x1.Idx → EReal) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- Window 2's block at every point is the whole bias row. -/
theorem whole1_2 (c : Dev nD) (t : Fin cfg1.N) :
    (iblk1 V c 2 t : S1x128.Idx → EReal) = (V c (Pipeline.arrRef spec1 2) : S1x128.Idx → EReal) := by
  obtain ⟨-, -, -, -, e0, e1, -⟩ := block_numbers1 t
  funext y
  show (V c (Pipeline.arrRef spec1 2) : S1x128.Idx → EReal) (((cfg1.win 2).blk t).view.emb y) = _
  refine congrArg (V c (Pipeline.arrRef spec1 2) : S1x128.Idx → EReal) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The body's stored value over blocks that hold rows `5000·n …` of the arrays `Y`, `d` and all of `b` is the
    entry-by-entry function of `Y`, `d`, `b` at those rows. -/
theorem stored1_rows (Y : S50000x128.Idx → EReal) (d : S50000x1.Idx → EReal) (b : S1x128.Idx → EReal)
    (x0 : FVec Ideal S5000x128 .f32) (x1 : FVec Ideal S5000x1 .f32) (x2 : FVec Ideal S1x128 .f32) (n : ℕ)
    (h0 : ∀ (y : S5000x128.Idx) (i : S50000x128.Idx), (i 0).val = n * 5000 + (y 0).val → (i 1).val = (y 1).val → x0 y = Y i)
    (h1 : ∀ (y : S5000x1.Idx) (i : S50000x1.Idx), (i 0).val = n * 5000 + (y 0).val → (i 1).val = (y 1).val → x1 y = d i)
    (h2 : x2 = b)
    (j : S5000x128.Idx) (i : S50000x128.Idx) (hi0 : (i 0).val = n * 5000 + (j 0).val) (hi1 : (i 1).val = (j 1).val) :
    k1_pay1 (F := Ideal) x0 x1 x2 j = scaledBiasedClamped Y d b i := by
  obtain ⟨r, q, rfl⟩ : ∃ (r : Fin 5000) (q : Fin 128), j = ix2 r q := ⟨j 0, j 1, eq_ix2 j⟩
  rw [stored1_apply]
  exact scaledBiasedClamped_rows Y d b x0 x1 x2 n h0 h1 h2 r q i hi0 hi1

/-- What point `t` writes back is its block of the entry-by-entry function of the arrays the region finds. -/
theorem written1 (c : Dev nD) (t : Fin cfg1.N) :
    (dat1 V c).flushed 3 t = ((cfg1.win 3).blk t).view.read (Elt Ideal)
      (scaledBiasedClamped (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero origin]
  simp only [View.ld_unit_zero (S := S5000x128) origin, View.ld_unit_zero (S := S5000x1) origin,
    View.ld_unit_zero (S := S1x128) origin]
  obtain ⟨-, -, -, -, -, -, e0, e1⟩ := block_numbers1 t
  funext j
  show k1_pay1 (F := Ideal) (iblk1 V c 0 t) (iblk1 V c 1 t) (iblk1 V c 2 t) j
    = scaledBiasedClamped (V c (Pipeline.arrRef spec1 0)) (V c (Pipeline.arrRef spec1 1)) (V c (Pipeline.arrRef spec1 2))
        (((cfg1.win 3).blk t).view.emb j)
  refine stored1_rows (V c (Pipeline.arrRef spec1 0)) (V c (Pipeline.arrRef spec1 1)) (V c (Pipeline.arrRef spec1 2))
    (iblk1 V c 0 t) (iblk1 V c 1 t) (iblk1 V c 2 t) t.val
    (rows1_0 V c t) (rows1_1 V c t) (whole1_2 V c t) j (((cfg1.win 3).blk t).view.emb j) ?_ ?_
  · show win1_3.index t (0 : Fin 2) * 5000 + 1 * (j 0).val = t.val * 5000 + (j 0).val; rw [e0]; omega
  · show win1_3.index t (1 : Fin 2) * 128 + 1 * (j 1).val = (j 1).val; rw [e1]; omega

/-- Point `t`'s block of the output array is a box: on each axis, the `size` consecutive coordinates from block number × `size`. -/
theorem mem_block1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v25).slice (win1_3.rect t)).set ↔ _
  rw [View.set_slice_whole, Rect.mem_set_unit]
  exact Iff.rfl

/-- Row `p` of the output lies in the block of point `p / 5000`, which writes back. -/
theorem covered1 (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e0, e1⟩ := block_numbers1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- The output array after the region is the entry-by-entry function of the arrays the region finds. -/
theorem array1 (c : Dev nD) :
    (dat1 V c).arrAt 3 cfg1.N
      = scaledBiasedClamped (V c (Pipeline.arrRef spec1 0)) (V c (Pipeline.arrRef spec1 1)) (V c (Pipeline.arrRef spec1 2)) :=
  (dat1 V c).arrAt_eq_of_cover 3 _ (fun t _ => written1 V c t) covered1

/-- Region 1's output at `(p, q)`, over the arrays the region finds. -/
theorem region1_entry (c : Dev nD) (p : Fin 50000) (q : Fin 128) :
    (Gen.dat1 V c).arrAt 3 cfg1.N (ix2 p q)
      = @max EReal _ (V c (Pipeline.arrRef spec1 0) (ix2 p q) ⬝ V c (Pipeline.arrRef spec1 1) (ix2 p (0 : Fin 1))
          ⊹ V c (Pipeline.arrRef spec1 2) (ix2 (0 : Fin 1) q)) 0 := by
  rw [array1]; rfl

/-- REGION 1's output at `(p, q)`, the three arrays the region finds named: `A0` the aggregated rows, `A1` the factor
    column, `A2` the bias row. -/
theorem region1_value (c : Dev nD) (A0 : S50000x128.Idx → EReal) (A1 : S50000x1.Idx → EReal) (A2 : S1x128.Idx → EReal)
    (h0 : V c (Pipeline.arrRef spec1 0) = A0) (h1 : V c (Pipeline.arrRef spec1 1) = A1)
    (h2 : V c (Pipeline.arrRef spec1 2) = A2) (p : Fin 50000) (q : Fin 128) :
    (Gen.dat1 V c).arrAt 3 cfg1.N (ix2 p q)
      = max (A0 (ix2 p q) * A1 (ix2 p (0 : Fin 1)) + A2 (ix2 (0 : Fin 1) q)) 0 := by
  subst h0 h1 h2
  exact region1_entry V c p q

/-! ## Region 2: the product with the weight, each row scaled by its factor -/

/-- The body's stored value at the block's entry `(r, q)`: row `r` of the block's product, scaled by row `r`'s factor. -/
theorem stored2_apply (x0 : FVec Ideal S5000x128 .f32) (x1 : FVec Ideal S128x128 .f32) (x2 : FVec Ideal S5000x1 .f32)
    (r : Fin 5000) (q : Fin 128) :
    k2_pay1 (F := Ideal) x0 x1 x2 (ix2 r q)
      = (∑ k : Fin 128, x0 (ix2 r k) * x1 (ix2 k q)) * x2 (ix2 r (0 : Fin 1)) := by
  unfold k2_pay1
  show FloatOps.matmul (F := Ideal) dot_S5000x128_S128x128_S5000x128_1_0_0_1_n_n (some .fp32) (shapeCast S5000x128 x0 shapeCasts_S5000x128_S5000x128) x1
        (constant S5000x128 .f32 0x00000000#32) (ix2 r q)
      * broadcastTo S5000x128 (shapeCast S5000x1 x2 shapeCasts_S5000x1_S5000x1) broadcasts_S5000x1_S5000x128 (ix2 r q) = _
  rw [Cert.LibPlainMatmul.matmul_plain_zero_apply dot_S5000x128_S128x128_S5000x128_1_0_0_1_n_n rfl, Cert.LibColumn.broadcastTo_a1_ab_apply, shapeCast_self, shapeCast_self]

/-- The block numbers of the four windows at point `t`: the row-blocked ones sit at row block `t`, the weight at
    its one block; decided over the ten points. -/
theorem block_numbers2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Window 0's block at point `t` holds rows `5000·t …` of its array. -/
theorem rows2_0 (c : Dev nD) (t : Fin cfg2.N) (y : S5000x128.Idx) (i : S50000x128.Idx)
    (h0 : (i 0).val = t.val * 5000 + (y 0).val) (h1 : (i 1).val = (y 1).val) :
    (iblk2 V c 0 t : S5000x128.Idx → EReal) y = (V c (Pipeline.arrRef spec2 0) : S50000x128.Idx → EReal) i := by
  obtain ⟨e0, e1, -⟩ := block_numbers2 t
  show (V c (Pipeline.arrRef spec2 0) : S50000x128.Idx → EReal) (((cfg2.win 0).blk t).view.emb y) = _
  refine congrArg (V c (Pipeline.arrRef spec2 0) : S50000x128.Idx → EReal) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- Window 1's block at every point is the whole weight. -/
theorem whole2_1 (c : Dev nD) (t : Fin cfg2.N) :
    (iblk2 V c 1 t : S128x128.Idx → EReal) = (V c (Pipeline.arrRef spec2 1) : S128x128.Idx → EReal) := by
  obtain ⟨-, -, e0, e1, -⟩ := block_numbers2 t
  funext y
  show (V c (Pipeline.arrRef spec2 1) : S128x128.Idx → EReal) (((cfg2.win 1).blk t).view.emb y) = _
  refine congrArg (V c (Pipeline.arrRef spec2 1) : S128x128.Idx → EReal) (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- Window 2's block at point `t` holds rows `5000·t …` of the factor column. -/
theorem rows2_2 (c : Dev nD) (t : Fin cfg2.N) (y : S5000x1.Idx) (i : S50000x1.Idx)
    (h0 : (i 0).val = t.val * 5000 + (y 0).val) (h1 : (i 1).val = (y 1).val) :
    (iblk2 V c 2 t : S5000x1.Idx → EReal) y = (V c (Pipeline.arrRef spec2 2) : S50000x1.Idx → EReal) i := by
  obtain ⟨-, -, -, -, e0, e1, -⟩ := block_numbers2 t
  show (V c (Pipeline.arrRef spec2 2) : S50000x1.Idx → EReal) (((cfg2.win 2).blk t).view.emb y) = _
  refine congrArg (V c (Pipeline.arrRef spec2 2) : S50000x1.Idx → EReal) (funext fun a => Fin.ext ?_)
  match a with
  | ⟨0, _⟩ => show win2_2.index t (0 : Fin 2) * 5000 + 1 * (y 0).val = (i 0).val; rw [e0, h0]; omega
  | ⟨1, _⟩ => show win2_2.index t (1 : Fin 2) * 1 + 1 * (y 1).val = (i 1).val; rw [e1, h1]; omega

/-- The body's stored value over blocks that hold rows `5000·n …` of the arrays `X`, `d` and all of `W` is the
    entry-by-entry function of `X`, `W`, `d` at those rows. -/
theorem stored2_rows (X : S50000x128.Idx → EReal) (W : S128x128.Idx → EReal) (d : S50000x1.Idx → EReal)
    (x0 : FVec Ideal S5000x128 .f32) (x1 : FVec Ideal S128x128 .f32) (x2 : FVec Ideal S5000x1 .f32) (n : ℕ)
    (h0 : ∀ (y : S5000x128.Idx) (i : S50000x128.Idx), (i 0).val = n * 5000 + (y 0).val → (i 1).val = (y 1).val → x0 y = X i)
    (h1 : x1 = W)
    (h2 : ∀ (y : S5000x1.Idx) (i : S50000x1.Idx), (i 0).val = n * 5000 + (y 0).val → (i 1).val = (y 1).val → x2 y = d i)
    (j : S5000x128.Idx) (i : S50000x128.Idx) (hi0 : (i 0).val = n * 5000 + (j 0).val) (hi1 : (i 1).val = (j 1).val) :
    k2_pay1 (F := Ideal) x0 x1 x2 j = scaledProduct X W d i := by
  obtain ⟨r, q, rfl⟩ : ∃ (r : Fin 5000) (q : Fin 128), j = ix2 r q := ⟨j 0, j 1, eq_ix2 j⟩
  rw [stored2_apply]
  exact scaledProduct_rows X W d x0 x1 x2 n h0 h1 h2 r q i hi0 hi1

/-- What point `t` writes back is its block of the entry-by-entry function of the arrays the region finds. -/
theorem written2 (c : Dev nD) (t : Fin cfg2.N) :
    (dat2 V c).flushed 3 t = ((cfg2.win 3).blk t).view.read (Elt Ideal)
      (scaledProduct (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin,
    View.ld_unit_zero (S := S5000x1) origin]
  obtain ⟨-, -, -, -, -, -, e0, e1⟩ := block_numbers2 t
  funext j
  show k2_pay1 (F := Ideal) (iblk2 V c 0 t) (iblk2 V c 1 t) (iblk2 V c 2 t) j
    = scaledProduct (V c (Pipeline.arrRef spec2 0)) (V c (Pipeline.arrRef spec2 1)) (V c (Pipeline.arrRef spec2 2))
        (((cfg2.win 3).blk t).view.emb j)
  refine stored2_rows (V c (Pipeline.arrRef spec2 0)) (V c (Pipeline.arrRef spec2 1)) (V c (Pipeline.arrRef spec2 2))
    (iblk2 V c 0 t) (iblk2 V c 1 t) (iblk2 V c 2 t) t.val
    (rows2_0 V c t) (whole2_1 V c t) (rows2_2 V c t) j (((cfg2.win 3).blk t).view.emb j) ?_ ?_
  · show win2_3.index t (0 : Fin 2) * 5000 + 1 * (j 0).val = t.val * 5000 + (j 0).val; rw [e0]; omega
  · show win2_3.index t (1 : Fin 2) * 128 + 1 * (j 1).val = (j 1).val; rw [e1]; omega

/-- Point `t`'s block of the output array is a box: on each axis, the `size` consecutive coordinates from block number × `size`. -/
theorem mem_block2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v26).slice (win2_3.rect t)).set ↔ _
  rw [View.set_slice_whole, Rect.mem_set_unit]
  exact Iff.rfl

/-- Row `p` of the output lies in the block of point `p / 5000`, which writes back. -/
theorem covered2 (i : S50000x128.Idx) :
    ∃ t : Fin cfg2.N, (cfg2.win 3).flush t = true ∧ i ∈ ((cfg2.win 3).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e0, e1⟩ := block_numbers2 t
  refine ⟨t, flush2_3 t, ?_⟩
  rw [mem_block2]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 128 ≤ (i 1).val ∧ (i 1).val < win2_3.index t (1 : Fin 2) * 128 + 128
    rw [e1]; omega

/-- The output array after the region is the entry-by-entry function of the arrays the region finds. -/
theorem array2 (c : Dev nD) :
    (dat2 V c).arrAt 3 cfg2.N
      = scaledProduct (V c (Pipeline.arrRef spec2 0)) (V c (Pipeline.arrRef spec2 1)) (V c (Pipeline.arrRef spec2 2)) :=
  (dat2 V c).arrAt_eq_of_cover 3 _ (fun t _ => written2 V c t) covered2

/-- Region 2's output at `(p, q)`, over the arrays the region finds. -/
theorem region2_entry (c : Dev nD) (p : Fin 50000) (q : Fin 128) :
    (Gen.dat2 V c).arrAt 3 cfg2.N (ix2 p q)
      = (∑ k : Fin 128, V c (Pipeline.arrRef spec2 0) (ix2 p k) ⬝ V c (Pipeline.arrRef spec2 1) (ix2 k q))
        ⬝ V c (Pipeline.arrRef spec2 2) (ix2 p (0 : Fin 1)) := by
  rw [array2]; rfl

/-- REGION 2's output at `(p, q)`, the three arrays the region finds named: `A0` the features, `A1` the weight, `A2` the
    factor column. -/
theorem region2_value (c : Dev nD) (A0 : S50000x128.Idx → EReal) (A1 : S128x128.Idx → EReal) (A2 : S50000x1.Idx → EReal)
    (h0 : V c (Pipeline.arrRef spec2 0) = A0) (h1 : V c (Pipeline.arrRef spec2 1) = A1)
    (h2 : V c (Pipeline.arrRef spec2 2) = A2) (p : Fin 50000) (q : Fin 128) :
    (Gen.dat2 V c).arrAt 3 cfg2.N (ix2 p q)
      = (∑ k : Fin 128, A0 (ix2 p k) * A1 (ix2 k q)) * A2 (ix2 p (0 : Fin 1)) := by
  subst h0 h1 h2
  exact region2_entry V c p q

end Cert.KernelIdeal.RegionValue

end
-- ==== Proof.LibLogistic.lean ====
/-
  The logistic function on the extended reals, in the two ways a program spells it, and its threshold at one half.

  A host program spells the logistic function of `l` as `1 / (1 + exp (-(l / 1)))` (`hostLogistic`): on a real `r` that is
  the real number `1 / (1 + e^(-r))`, at `-∞` it is `0` (the exponential of `+∞` is `+∞`, and `1 / +∞ = 0`), at `+∞` it is
  `1` (the exponential of `-∞` is `0`). A vector unit spells it with one hyperbolic tangent, `1/2 · tanh (l / 2) + 1/2`;
  the two agree at every extended real (`half_tanh`): on a real because
  `tanh (r/2) = (e^(r/2) - e^(-r/2)) / (e^(r/2) + e^(-r/2)) = (1 - e^(-r)) / (1 + e^(-r))`, at the infinities because
  `tanh` has the limits `-1` and `1` there.

  The logistic function is increasing with value `1/2` at `0`, so it exceeds `1/2` exactly where its argument is positive
  (`half_lt_hostLogistic`), the infinities included.
-/
import Idealize.ShloMosaic.PureOps.Ideal
import Idealize.ShloMosaic.PureOps.Ideal.Laws

noncomputable section

namespace Cert.LibLogistic

open Idealize.ShloMosaic

/-- The single-precision word of `0.5` is the real number one half. -/
theorem ofBits_half : Ideal.ofBits .f32 0x3F000000#32 = ((1 / 2 : ℝ) : EReal) := by
  simp [Ideal.ofBits, Ideal.ieee, -EReal.coe_mul]; norm_num

/-- The single-precision word of `1.0` is the real number one. -/
theorem ofBits_one : Ideal.ofBits .f32 0x3F800000#32 = ((1 : ℝ) : EReal) := by
  simp [Ideal.ofBits, Ideal.ieee, -EReal.coe_mul]; norm_num

/-- The logistic function of `l` as a host program spells it: `1 / (1 + exp (-(l / 1)))`. -/
def hostLogistic (l : EReal) : EReal :=
  Ideal.div ((1 : ℝ) : EReal) (((1 : ℝ) : EReal) + Ideal.exp (-(Ideal.div l ((1 : ℝ) : EReal))))

/-- A quotient by one is the dividend. -/
theorem div_one' (x : EReal) : Ideal.div x ((1 : ℝ) : EReal) = x := by
  rw [Ideal.div_coe one_ne_zero]; simp

theorem hostLogistic_coe (r : ℝ) : hostLogistic (r : EReal) = ((1 / (1 + Real.exp (-r)) : ℝ) : EReal) := by
  have hpos : (1 + Real.exp (-r) : ℝ) ≠ 0 := by positivity
  unfold hostLogistic
  rw [div_one', ← EReal.coe_neg]
  show Ideal.div ((1 : ℝ) : EReal) (((1 : ℝ) : EReal) + ((Real.exp (-r) : ℝ) : EReal)) = _
  rw [← EReal.coe_add, Ideal.div_coe hpos, ← EReal.coe_mul, one_mul]

theorem hostLogistic_bot : hostLogistic ⊥ = 0 := by
  unfold hostLogistic
  rw [div_one', EReal.neg_bot]
  show Ideal.div ((1 : ℝ) : EReal) (((1 : ℝ) : EReal) + ⊤) = 0
  rw [EReal.coe_add_top]
  simp [Ideal.div]

theorem hostLogistic_top : hostLogistic ⊤ = 1 := by
  unfold hostLogistic
  rw [div_one', EReal.neg_top]
  show Ideal.div ((1 : ℝ) : EReal) (((1 : ℝ) : EReal) + 0) = 1
  rw [add_zero, div_one']; rfl

/-- On the reals, `1/2 · tanh (r/2) + 1/2 = 1 / (1 + e^(-r))`. -/
theorem real_half_tanh (r : ℝ) : 1 / 2 * Real.tanh (1 / 2 * r) + 1 / 2 = 1 / (1 + Real.exp (-r)) := by
  have hb : Real.exp (-r) = Real.exp (-(1 / 2 * r)) * Real.exp (-(1 / 2 * r)) := by
    rw [← Real.exp_add]; congr 1; ring
  have hinv : Real.exp (-(1 / 2 * r)) = (Real.exp (1 / 2 * r))⁻¹ := Real.exp_neg _
  have hp : 0 < Real.exp (1 / 2 * r) := Real.exp_pos _
  rw [Real.tanh_eq_sinh_div_cosh, Real.sinh_eq, Real.cosh_eq, hb, hinv]
  generalize Real.exp (1 / 2 * r) = a at hp
  have ha : a ≠ 0 := ne_of_gt hp
  have h2 : a * a + 1 ≠ 0 := by positivity
  field_simp
  ring

/-- The vector unit's spelling `1/2 · tanh (1/2 · l) + 1/2` is the host's logistic function, at every extended real. -/
theorem half_tanh (l : EReal) :
    ((1 / 2 : ℝ) : EReal) * Ideal.tanh (((1 / 2 : ℝ) : EReal) * l) + ((1 / 2 : ℝ) : EReal) = hostLogistic l := by
  induction l using EReal.rec with
  | bot =>
    rw [EReal.coe_mul_bot_of_pos (by norm_num), hostLogistic_bot]
    show ((1 / 2 : ℝ) : EReal) * (-1 : EReal) + ((1 / 2 : ℝ) : EReal) = 0
    have : (-1 : EReal) = ((-1 : ℝ) : EReal) := by rw [EReal.coe_neg, EReal.coe_one]
    rw [this, ← EReal.coe_mul, ← EReal.coe_add]; norm_num
  | top =>
    rw [EReal.coe_mul_top_of_pos (by norm_num), hostLogistic_top]
    show ((1 / 2 : ℝ) : EReal) * (1 : EReal) + ((1 / 2 : ℝ) : EReal) = 1
    have : (1 : EReal) = ((1 : ℝ) : EReal) := EReal.coe_one.symm
    rw [this, ← EReal.coe_mul, ← EReal.coe_add]; norm_num
  | coe r =>
    rw [← EReal.coe_mul, hostLogistic_coe]
    show ((1 / 2 : ℝ) : EReal) * ((Real.tanh (1 / 2 * r) : ℝ) : EReal) + ((1 / 2 : ℝ) : EReal) = _
    rw [← EReal.coe_mul, ← EReal.coe_add, real_half_tanh]

/-- The logistic function exceeds one half exactly at the positive extended reals. -/
theorem half_lt_hostLogistic (l : EReal) : ((1 / 2 : ℝ) : EReal) < hostLogistic l ↔ 0 < l := by
  induction l using EReal.rec with
  | bot =>
    rw [hostLogistic_bot]
    constructor
    · intro h; exact absurd h (by norm_cast; norm_num)
    · intro h; exact absurd h (not_lt_bot)
  | top =>
    rw [hostLogistic_top]
    constructor
    · intro _; exact EReal.zero_lt_top
    · intro _; norm_cast; norm_num
  | coe r =>
    rw [hostLogistic_coe, EReal.coe_lt_coe_iff]
    have hz : (0 : EReal) < (r : EReal) ↔ 0 < r := by norm_cast
    rw [hz]
    have hpos : (0 : ℝ) < 1 + Real.exp (-r) := by positivity
    rw [lt_div_iff₀ hpos]
    have he : Real.exp (-r) < 1 ↔ -r < 0 := Real.exp_lt_one_iff
    constructor
    · intro h
      have : Real.exp (-r) < 1 := by linarith
      have := he.mp this
      linarith
    · intro h
      have : Real.exp (-r) < 1 := he.mpr (by linarith)
      linarith

end Cert.LibLogistic

end
-- ==== Proof.RegionGate.lean ====
/-
  The gated update's region, read entry by entry.

  The region runs over ten grid points. At point t the body sees rows 5000 t … 5000 t + 4999 of three arrays — the
  aggregated features [50000,128], the per-node factor column [50000,1], the previous state [50000,128] — and the
  whole of a bias row, six 128×128 weight halves and three more bias rows; it writes rows 5000 t … 5000 t + 4999 of the
  output. On a block it computes

      emb  = agg · factor + b_hid                       (the factor broadcast along a row, the bias down a column)
      z    = logistic (emb · Wz_top + hid · Wz_bot + b_z)
      r    = logistic (emb · Wr_top + hid · Wr_bot + b_r)
      cand = tanh (emb · Wc_top + (r · hid) · Wc_bot + b_c)
      out  = (1 − z) · hid + z · cand

  with every product of a block by a weight a plain matrix product accumulated into zero. A matrix product's row r
  reads only row r of its left operand, and every other step is entry by entry, so row r of the block's result is a
  function (gruRow below) of row r of emb and of hid alone: the block at point t, row r, is the whole-array
  update Cert.Gcn.gru2 at row 5000 t + r. The ten row blocks cover the 50000 rows, so after the region the output
  array is that update at every entry.

  The literal 1.0 of "1 − z" is the single-precision word 0x3F800000, which is the real number one.
-/
import proofs.«138680_j57123065037360_2_alg».proof.Proof.Gen.KernelIdeal.Frame
import proofs.«138680_j57123065037360_2_alg».proof.Proof.Spec
import proofs.«138680_j57123065037360_2_alg».proof.Proof.LibPlainMatmul
import proofs.«138680_j57123065037360_2_alg».proof.Proof.LibColumn
import proofs.«138680_j57123065037360_2_alg».proof.Proof.LibLogistic
import Idealize.ShloMosaic.Lib.Pipeline.Value
import Idealize.ShloMosaic.Lib.ValueLayout
import Idealize.ShloMosaic.Lib.ValueIdx

noncomputable section

open scoped BigOperators

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

namespace Gate

/-! ## One node's gated update -/

/-- A dense layer on one node's 256 features, the two halves e and h of 128 each. -/
def linRow (e h : Fin 128 → EReal) (Wt Wb : Cert.Gcn.Mat 128 128) (b : Fin 128 → EReal) (q : Fin 128) : EReal :=
  (∑ k : Fin 128, e k * Wt k q) + (∑ k : Fin 128, h k * Wb k q) + b q

/-- The gated update of one node from its own embedding row e and state row h. -/
def gruRow (e h : Fin 128 → EReal) (Wzt Wzb Wrt Wrb Wct Wcb : Cert.Gcn.Mat 128 128) (bz br bc : Fin 128 → EReal)
    (q : Fin 128) : EReal :=
  (1 - Ideal.logistic (linRow e h Wzt Wzb bz q)) * h q
    + Ideal.logistic (linRow e h Wzt Wzb bz q)
      * Ideal.tanh (linRow e (fun k => Ideal.logistic (linRow e h Wrt Wrb br k) * h k) Wct Wcb bc q)

/-- The gated update of the whole graph is, node by node, the update of that node's two rows. -/
theorem gru2_eq_gruRow (emb hid : Cert.Gcn.Mat 50000 128) (Wzt Wzb Wrt Wrb Wct Wcb : Cert.Gcn.Mat 128 128)
    (bz br bc : Fin 128 → EReal) (p : Fin 50000) (q : Fin 128) :
    Cert.Gcn.gru2 emb hid Wzt Wzb Wrt Wrb Wct Wcb bz br bc p q
      = gruRow (emb p) (hid p) Wzt Wzb Wrt Wrb Wct Wcb bz br bc q := rfl

/-! ## The body's arithmetic on one block of 5000 rows, entry by entry -/

/-- The embedding: the aggregated features scaled by the row's factor, plus the bias row. -/
theorem embed_apply (x0 : Vec Ideal S5000x128 .f32) (x1 : Vec Ideal S5000x1 .f32) (x2 : Vec Ideal S1x128 .f32)
    (r : Fin 5000) (k : Fin 128) :
    k3_pay2 x0 x1 x2 (ix2 r k) = x0 (ix2 r k) * x1 (ix2 r (0 : Fin 1)) + x2 (ix2 (0 : Fin 1) k) := by
  unfold k3_pay2
  simp only [shapeCast_self]
  exact congrArg₂ (· + ·)
    (congrArg (x0 (ix2 r k) * ·) (Cert.LibColumn.broadcastTo_a1_ab_apply x1 _ r k))
    (broadcastTo_1b_ab_apply x2 _ r k)

/-- A dense layer on a block. -/
def pre (e h : FVec Ideal S5000x128 .f32) (wt wb : FVec Ideal S128x128 .f32) (b : FVec Ideal S1x128 .f32)
    (hb : S1x128.Broadcasts S5000x128) : FVec Ideal S5000x128 .f32 :=
  addf (addf (matmul dot_S5000x128_S128x128_S5000x128_1_0_0_1_n_n (some .fp32) e wt (constant S5000x128 .f32 0x00000000#32))
      (matmul dot_S5000x128_S128x128_S5000x128_1_0_0_1_n_n (some .fp32) h wb (constant S5000x128 .f32 0x00000000#32)))
    (broadcastTo S5000x128 b hb)

/-- At row r, column q it is the dense layer of row r of e and row r of h: each product's entry is the sum over the
    128 features of the row's entry times the weight's, and the bias row is repeated down the rows. -/
theorem pre_apply (e h : FVec Ideal S5000x128 .f32) (wt wb : FVec Ideal S128x128 .f32) (b : FVec Ideal S1x128 .f32)
    (hb : S1x128.Broadcasts S5000x128) (r : Fin 5000) (q : Fin 128) :
    pre e h wt wb b hb (ix2 r q)
      = linRow (fun k => e (ix2 r k)) (fun k => h (ix2 r k)) (fun k q => wt (ix2 k q)) (fun k q => wb (ix2 k q))
          (fun q => b (ix2 (0 : Fin 1) q)) q := by
  unfold pre linRow
  exact congrArg₂ (· + ·)
    (congrArg₂ (· + ·)
      (Cert.LibPlainMatmul.matmul_plain_zero_apply _ rfl _ e wt r q)
      (Cert.LibPlainMatmul.matmul_plain_zero_apply _ rfl _ h wb r q))
    (broadcastTo_1b_ab_apply b hb r q)

/-- The update gate on a block: the logistic function of a dense layer on the embedding and the state. -/
theorem gate3_eq (x0 : Vec Ideal S5000x128 .f32) (x1 : Vec Ideal S5000x1 .f32) (x2 : Vec Ideal S1x128 .f32)
    (x3 : Vec Ideal S5000x128 .f32) (wt wb : Vec Ideal S128x128 .f32) (b : Vec Ideal S1x128 .f32) :
    k3_pay3 x0 x1 x2 x3 wt wb b = logistic (pre (k3_pay2 x0 x1 x2) x3 wt wb b Facts₀.broadcasts_S1x128_S5000x128) := by
  unfold k3_pay3 pre
  simp only [shapeCast_self]

/-- The reset gate on a block: the same expression with its own weights and bias. -/
theorem gate4_eq (x0 : Vec Ideal S5000x128 .f32) (x1 : Vec Ideal S5000x1 .f32) (x2 : Vec Ideal S1x128 .f32)
    (x3 : Vec Ideal S5000x128 .f32) (wt wb : Vec Ideal S128x128 .f32) (b : Vec Ideal S1x128 .f32) :
    k3_pay4 x0 x1 x2 x3 wt wb b = logistic (pre (k3_pay2 x0 x1 x2) x3 wt wb b Facts₀.broadcasts_S1x128_S5000x128) := by
  unfold k3_pay4 pre
  simp only [shapeCast_self]

/-- The stored value on a block, from the embedding e, the state h and the two gates z and rr:
    (1 − z) · h + z · tanh of a dense layer on e and rr · h. -/
theorem out_eq (e : FVec Ideal S5000x128 .f32) (h : Vec Ideal S5000x128 .f32) (z rr : FVec Ideal S5000x128 .f32)
    (wt wb : Vec Ideal S128x128 .f32) (b : Vec Ideal S1x128 .f32) :
    k3_pay1 e h z rr wt wb b
      = addf (mulf (subf (broadcast S5000x128 (Scalar.ofBits .f32 0x3F800000#32)) z) h)
          (mulf z (tanh (pre e (mulf rr h) wt wb b Facts₀.broadcasts_S1x128_S5000x128))) := by
  unfold k3_pay1 pre
  simp only [shapeCast_self]

/-- A dense layer whose first half is the embedding, at an entry of the block. -/
theorem pre_embed_apply (x0 : Vec Ideal S5000x128 .f32) (x1 : Vec Ideal S5000x1 .f32) (x2 : Vec Ideal S1x128 .f32)
    (h : FVec Ideal S5000x128 .f32) (wt wb : FVec Ideal S128x128 .f32) (b : FVec Ideal S1x128 .f32)
    (hb : S1x128.Broadcasts S5000x128) (r : Fin 5000) (q : Fin 128) :
    pre (k3_pay2 x0 x1 x2) h wt wb b hb (ix2 r q)
      = linRow (fun k => x0 (ix2 r k) * x1 (ix2 r (0 : Fin 1)) + x2 (ix2 (0 : Fin 1) k)) (fun k => h (ix2 r k))
          (fun k q => wt (ix2 k q)) (fun k q => wb (ix2 k q)) (fun q => b (ix2 (0 : Fin 1) q)) q := by
  rw [pre_apply]
  simp only [embed_apply]

/-- The body's stored value at row r, column q of a block: the gated update of that row. -/
theorem block_gru (x0 : Vec Ideal S5000x128 .f32) (x1 : Vec Ideal S5000x1 .f32) (x2 : Vec Ideal S1x128 .f32)
    (x3 : Vec Ideal S5000x128 .f32) (x4 x5 x6 x7 x8 x9 : Vec Ideal S128x128 .f32) (x10 x11 x12 : Vec Ideal S1x128 .f32)
    (r : Fin 5000) (q : Fin 128) :
    k3_pay1 (k3_pay2 x0 x1 x2) x3 (k3_pay3 x0 x1 x2 x3 x4 x5 x10) (k3_pay4 x0 x1 x2 x3 x6 x7 x11) x8 x9 x12 (ix2 r q)
      = gruRow (fun k => x0 (ix2 r k) * x1 (ix2 r (0 : Fin 1)) + x2 (ix2 (0 : Fin 1) k)) (fun k => x3 (ix2 r k))
          (fun k q => x4 (ix2 k q)) (fun k q => x5 (ix2 k q)) (fun k q => x6 (ix2 k q)) (fun k q => x7 (ix2 k q))
          (fun k q => x8 (ix2 k q)) (fun k q => x9 (ix2 k q)) (fun q => x10 (ix2 (0 : Fin 1) q))
          (fun q => x11 (ix2 (0 : Fin 1) q)) (fun q => x12 (ix2 (0 : Fin 1) q)) q := by
  rw [out_eq, gate3_eq, gate4_eq]
  have hr : ∀ k : Fin 128,
      (mulf (logistic (pre (k3_pay2 x0 x1 x2) x3 x6 x7 x11 Facts₀.broadcasts_S1x128_S5000x128)) x3) (ix2 r k)
        = Ideal.logistic (linRow (fun k => x0 (ix2 r k) * x1 (ix2 r (0 : Fin 1)) + x2 (ix2 (0 : Fin 1) k))
            (fun k => x3 (ix2 r k)) (fun k q => x6 (ix2 k q)) (fun k q => x7 (ix2 k q))
            (fun q => x11 (ix2 (0 : Fin 1) q)) k) * x3 (ix2 r k) := fun k =>
    congrArg (fun z => Ideal.logistic z * x3 (ix2 r k)) (pre_embed_apply x0 x1 x2 x3 x6 x7 x11 _ r k)
  show (Ideal.ofBits .f32 0x3F800000#32
          - Ideal.logistic (pre (k3_pay2 x0 x1 x2) x3 x4 x5 x10 Facts₀.broadcasts_S1x128_S5000x128 (ix2 r q))) * x3 (ix2 r q)
      + Ideal.logistic (pre (k3_pay2 x0 x1 x2) x3 x4 x5 x10 Facts₀.broadcasts_S1x128_S5000x128 (ix2 r q))
        * Ideal.tanh (pre (k3_pay2 x0 x1 x2)
            (mulf (logistic (pre (k3_pay2 x0 x1 x2) x3 x6 x7 x11 Facts₀.broadcasts_S1x128_S5000x128)) x3) x8 x9 x12
            Facts₀.broadcasts_S1x128_S5000x128 (ix2 r q)) = _
  rw [pre_embed_apply, pre_embed_apply, Cert.LibLogistic.ofBits_one, EReal.coe_one]
  simp only [hr]
  rfl

/-! ## From blocks to the array

The grid has ten points. Point t stages rows 5000 t … 5000 t + 4999 of the aggregated features, of the factor column
and of the previous state, the whole of every weight half and of every bias row, and writes back rows
5000 t … 5000 t + 4999 of the output. A node's update reads only that node's own two rows, so row r of the block
written at point t is the whole-array update at row 5000 t + r, and the ten blocks cover the 50000 rows. -/

/-- The region's output array as one function of the arrays the region finds: the gated update of the embedding
    (aggregated features times the row's factor, plus a bias row) and the previous state, entry by entry. -/
def G (A0 : S50000x128.Idx → EReal) (A1 : S50000x1.Idx → EReal) (A2 : S1x128.Idx → EReal) (A3 : S50000x128.Idx → EReal)
    (A4 A5 A6 A7 A8 A9 : S128x128.Idx → EReal) (A10 A11 A12 : S1x128.Idx → EReal) : S50000x128.Idx → EReal := fun i =>
  Cert.Gcn.gru2 (fun p k => A0 (ix2 p k) * A1 (ix2 p (0 : Fin 1)) + A2 (ix2 (0 : Fin 1) k)) (fun p k => A3 (ix2 p k))
    (fun k q => A4 (ix2 k q)) (fun k q => A5 (ix2 k q)) (fun k q => A6 (ix2 k q)) (fun k q => A7 (ix2 k q))
    (fun k q => A8 (ix2 k q)) (fun k q => A9 (ix2 k q)) (fun q => A10 (ix2 (0 : Fin 1) q))
    (fun q => A11 (ix2 (0 : Fin 1) q)) (fun q => A12 (ix2 (0 : Fin 1) q)) (i 0) (i 1)

/-- A block's stored value at row r is the whole-array function at row P, when the block's rows of the three
    row-blocked inputs are the arrays' rows at P and the other blocks are their whole arrays. -/
theorem block_value (x0 : Vec Ideal S5000x128 .f32) (x1 : Vec Ideal S5000x1 .f32) (x2 : Vec Ideal S1x128 .f32)
    (x3 : Vec Ideal S5000x128 .f32) (x4 x5 x6 x7 x8 x9 : Vec Ideal S128x128 .f32) (x10 x11 x12 : Vec Ideal S1x128 .f32)
    (A0 : S50000x128.Idx → EReal) (A1 : S50000x1.Idx → EReal) (A2 : S1x128.Idx → EReal) (A3 : S50000x128.Idx → EReal)
    (A4 A5 A6 A7 A8 A9 : S128x128.Idx → EReal) (A10 A11 A12 : S1x128.Idx → EReal)
    (r : Fin 5000) (q : Fin 128) (P : Fin 50000)
    (h0 : ∀ k, x0 (ix2 r k) = A0 (ix2 P k)) (h1 : x1 (ix2 r (0 : Fin 1)) = A1 (ix2 P (0 : Fin 1)))
    (h2 : ∀ k, x2 (ix2 (0 : Fin 1) k) = A2 (ix2 (0 : Fin 1) k)) (h3 : ∀ k, x3 (ix2 r k) = A3 (ix2 P k))
    (h4 : ∀ k q, x4 (ix2 k q) = A4 (ix2 k q)) (h5 : ∀ k q, x5 (ix2 k q) = A5 (ix2 k q))
    (h6 : ∀ k q, x6 (ix2 k q) = A6 (ix2 k q)) (h7 : ∀ k q, x7 (ix2 k q) = A7 (ix2 k q))
    (h8 : ∀ k q, x8 (ix2 k q) = A8 (ix2 k q)) (h9 : ∀ k q, x9 (ix2 k q) = A9 (ix2 k q))
    (h10 : ∀ k, x10 (ix2 (0 : Fin 1) k) = A10 (ix2 (0 : Fin 1) k))
    (h11 : ∀ k, x11 (ix2 (0 : Fin 1) k) = A11 (ix2 (0 : Fin 1) k))
    (h12 : ∀ k, x12 (ix2 (0 : Fin 1) k) = A12 (ix2 (0 : Fin 1) k)) :
    k3_pay1 (k3_pay2 x0 x1 x2) x3 (k3_pay3 x0 x1 x2 x3 x4 x5 x10) (k3_pay4 x0 x1 x2 x3 x6 x7 x11) x8 x9 x12 (ix2 r q)
      = G A0 A1 A2 A3 A4 A5 A6 A7 A8 A9 A10 A11 A12 (ix2 P q) := by
  rw [block_gru]
  simp only [h0, h1, h2, h3, h4, h5, h6, h7, h8, h9, h10, h11, h12]
  rfl

section Region
variable (V : (c : Dev nD) → (b : Ref sig .tc) → Buf (Elt Ideal) ((c : Thread nD τ).loc b))

/-- The body reads and writes every staging buffer from its corner (0, 0). -/
theorem hz : (![0, 0] : Fin 2 → Nat) = fun _ => 0 := funext fun a => by fin_cases a <;> rfl

/-- The block index of the four row-blocked windows at point t is (t, 0). -/
theorem idx_rows : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_3.index t (0 : Fin 2) = t.val ∧ win3_3.index t (1 : Fin 2) = 0)
    ∧ (win3_13.index t (0 : Fin 2) = t.val ∧ win3_13.index t (1 : Fin 2) = 0) :=
  (by decide +kernel : ∀ t : Fin grid3.N, _)

/-- The block index of every other window is (0, 0) at every point. -/
theorem idx_whole : ∀ t : Fin cfg3.N,
    (win3_2.index t (0 : Fin 2) = 0 ∧ win3_2.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = 0 ∧ win3_11.index t (1 : Fin 2) = 0)
    ∧ (win3_12.index t (0 : Fin 2) = 0 ∧ win3_12.index t (1 : Fin 2) = 0) :=
  (by decide +kernel : ∀ t : Fin grid3.N, _)

/-- Row r of the aggregated features' block at point t is row 5000 t + r of the array. -/
theorem blk0_apply (c : Dev nD) (t : Fin cfg3.N) (r : Fin 5000) (k : Fin 128) (P : Fin 50000)
    (hP : P.val = t.val * 5000 + r.val) :
    (iblk3 V c 0 t : Vec Ideal S5000x128 .f32) (ix2 r k)
      = (V c (Pipeline.arrRef spec3 0) : S50000x128.Idx → EReal) (ix2 P k) := by
  obtain ⟨⟨e0, e1⟩, -⟩ := idx_rows t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * r.val = P.val; omega
  | ⟨1, _⟩ => show win3_0.index t (1 : Fin 2) * 128 + 1 * k.val = k.val; omega

/-- Row r of the factor column's block at point t is row 5000 t + r of the column. -/
theorem blk1_apply (c : Dev nD) (t : Fin cfg3.N) (r : Fin 5000) (P : Fin 50000)
    (hP : P.val = t.val * 5000 + r.val) :
    (iblk3 V c 1 t : Vec Ideal S5000x1 .f32) (ix2 r (0 : Fin 1))
      = (V c (Pipeline.arrRef spec3 1) : S50000x1.Idx → EReal) (ix2 P (0 : Fin 1)) := by
  obtain ⟨-, ⟨e0, e1⟩, -⟩ := idx_rows t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 5000 + 1 * r.val = P.val; omega
  | ⟨1, _⟩ => show win3_1.index t (1 : Fin 2) * 1 + 1 * (0 : Fin 1).val = (0 : Fin 1).val; omega

/-- Row r of the previous state's block at point t is row 5000 t + r of the array. -/
theorem blk3_apply (c : Dev nD) (t : Fin cfg3.N) (r : Fin 5000) (k : Fin 128) (P : Fin 50000)
    (hP : P.val = t.val * 5000 + r.val) :
    (iblk3 V c 3 t : Vec Ideal S5000x128 .f32) (ix2 r k)
      = (V c (Pipeline.arrRef spec3 3) : S50000x128.Idx → EReal) (ix2 P k) := by
  obtain ⟨-, -, ⟨e0, e1⟩, -⟩ := idx_rows t
  unfold iblk3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 5000 + 1 * r.val = P.val; omega
  | ⟨1, _⟩ => show win3_3.index t (1 : Fin 2) * 128 + 1 * k.val = k.val; omega

/-- The embedding's bias row is staged whole at every point. -/
theorem blk2_apply (c : Dev nD) (t : Fin cfg3.N) (k : Fin 128) :
    (iblk3 V c 2 t : Vec Ideal S1x128 .f32) (ix2 (0 : Fin 1) k)
      = (V c (Pipeline.arrRef spec3 2) : S1x128.Idx → EReal) (ix2 (0 : Fin 1) k) := by
  obtain ⟨e0, e1⟩ := (idx_whole t).1
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 1 + 1 * (0 : Fin 1).val = (0 : Fin 1).val; omega
  | ⟨1, _⟩ => show win3_2.index t (1 : Fin 2) * 128 + 1 * k.val = k.val; omega

/-- The update gate's top weight half is staged whole at every point. -/
theorem blk4_apply (c : Dev nD) (t : Fin cfg3.N) (k q : Fin 128) :
    (iblk3 V c 4 t : Vec Ideal S128x128 .f32) (ix2 k q)
      = (V c (Pipeline.arrRef spec3 4) : S128x128.Idx → EReal) (ix2 k q) := by
  obtain ⟨e0, e1⟩ := (idx_whole t).2.1
  unfold iblk3
  rw [View.read_apply]
  show V c (Pipeline.arrRef spec3 4) _ = V c (Pipeline.arrRef spec3 4) _
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The update gate's bottom weight half is staged whole at every point. -/
theorem blk5_apply (c : Dev nD) (t : Fin cfg3.N) (k q : Fin 128) :
    (iblk3 V c 5 t : Vec Ideal S128x128 .f32) (ix2 k q)
      = (V c (Pipeline.arrRef spec3 5) : S128x128.Idx → EReal) (ix2 k q) := by
  obtain ⟨e0, e1⟩ := (idx_whole t).2.2.1
  unfold iblk3
  rw [View.read_apply]
  show V c (Pipeline.arrRef spec3 5) _ = V c (Pipeline.arrRef spec3 5) _
  refine congrArg _ (funext fun a => Fin.ext ?_)
  match a with
  | ⟨0, _⟩ => show win3_5.index t (0 : Fin 2) * 128 + 1 * k.val = k.val; omega
  | ⟨1, _⟩ => show win3_5.index t (1 : Fin 2) * 128 + 1 * q.val = q.val; omega

/-- The reset gate's top weight half is staged whole at every point. -/
theorem blk6_apply (c : Dev nD) (t : Fin cfg3.N) (k q : Fin 128) :
    (iblk3 V c 6 t : Vec Ideal S128x128 .f32) (ix2 k q)
      = (V c (Pipeline.arrRef spec3 6) : S128x128.Idx → EReal) (ix2 k q) := by
  obtain ⟨e0, e1⟩ := (idx_whole t).2.2.2.1
  unfold iblk3
  rw [View.read_apply]
  show V c (Pipeline.arrRef spec3 6) _ = V c (Pipeline.arrRef spec3 6) _
  refine congrArg _ (funext fun a => Fin.ext ?_)
  match a with
  | ⟨0, _⟩ => show win3_6.index t (0 : Fin 2) * 128 + 1 * k.val = k.val; omega
  | ⟨1, _⟩ => show win3_6.index t (1 : Fin 2) * 128 + 1 * q.val = q.val; omega

/-- The reset gate's bottom weight half is staged whole at every point. -/
theorem blk7_apply (c : Dev nD) (t : Fin cfg3.N) (k q : Fin 128) :
    (iblk3 V c 7 t : Vec Ideal S128x128 .f32) (ix2 k q)
      = (V c (Pipeline.arrRef spec3 7) : S128x128.Idx → EReal) (ix2 k q) := by
  obtain ⟨e0, e1⟩ := (idx_whole t).2.2.2.2.1
  unfold iblk3
  rw [View.read_apply]
  show V c (Pipeline.arrRef spec3 7) _ = V c (Pipeline.arrRef spec3 7) _
  refine congrArg _ (funext fun a => Fin.ext ?_)
  match a with
  | ⟨0, _⟩ => show win3_7.index t (0 : Fin 2) * 128 + 1 * k.val = k.val; omega
  | ⟨1, _⟩ => show win3_7.index t (1 : Fin 2) * 128 + 1 * q.val = q.val; omega

/-- The candidate's top weight half is staged whole at every point. -/
theorem blk8_apply (c : Dev nD) (t : Fin cfg3.N) (k q : Fin 128) :
    (iblk3 V c 8 t : Vec Ideal S128x128 .f32) (ix2 k q)
      = (V c (Pipeline.arrRef spec3 8) : S128x128.Idx → EReal) (ix2 k q) := by
  obtain ⟨e0, e1⟩ := (idx_whole t).2.2.2.2.2.1
  unfold iblk3
  rw [View.read_apply]
  show V c (Pipeline.arrRef spec3 8) _ = V c (Pipeline.arrRef spec3 8) _
  refine congrArg _ (funext fun a => Fin.ext ?_)
  match a with
  | ⟨0, _⟩ => show win3_8.index t (0 : Fin 2) * 128 + 1 * k.val = k.val; omega
  | ⟨1, _⟩ => show win3_8.index t (1 : Fin 2) * 128 + 1 * q.val = q.val; omega

/-- The candidate's bottom weight half is staged whole at every point. -/
theorem blk9_apply (c : Dev nD) (t : Fin cfg3.N) (k q : Fin 128) :
    (iblk3 V c 9 t : Vec Ideal S128x128 .f32) (ix2 k q)
      = (V c (Pipeline.arrRef spec3 9) : S128x128.Idx → EReal) (ix2 k q) := by
  obtain ⟨e0, e1⟩ := (idx_whole t).2.2.2.2.2.2.1
  unfold iblk3
  rw [View.read_apply]
  show V c (Pipeline.arrRef spec3 9) _ = V c (Pipeline.arrRef spec3 9) _
  refine congrArg _ (funext fun a => Fin.ext ?_)
  match a with
  | ⟨0, _⟩ => show win3_9.index t (0 : Fin 2) * 128 + 1 * k.val = k.val; omega
  | ⟨1, _⟩ => show win3_9.index t (1 : Fin 2) * 128 + 1 * q.val = q.val; omega

/-- The update gate's bias row is staged whole at every point. -/
theorem blk10_apply (c : Dev nD) (t : Fin cfg3.N) (k : Fin 128) :
    (iblk3 V c 10 t : Vec Ideal S1x128 .f32) (ix2 (0 : Fin 1) k)
      = (V c (Pipeline.arrRef spec3 10) : S1x128.Idx → EReal) (ix2 (0 : Fin 1) k) := by
  obtain ⟨e0, e1⟩ := (idx_whole t).2.2.2.2.2.2.2.1
  unfold iblk3
  rw [View.read_apply]
  show V c (Pipeline.arrRef spec3 10) _ = V c (Pipeline.arrRef spec3 10) _
  refine congrArg _ (funext fun a => Fin.ext ?_)
  match a with
  | ⟨0, _⟩ => show win3_10.index t (0 : Fin 2) * 1 + 1 * (0 : Fin 1).val = (0 : Fin 1).val; omega
  | ⟨1, _⟩ => show win3_10.index t (1 : Fin 2) * 128 + 1 * k.val = k.val; omega

/-- The reset gate's bias row is staged whole at every point. -/
theorem blk11_apply (c : Dev nD) (t : Fin cfg3.N) (k : Fin 128) :
    (iblk3 V c 11 t : Vec Ideal S1x128 .f32) (ix2 (0 : Fin 1) k)
      = (V c (Pipeline.arrRef spec3 11) : S1x128.Idx → EReal) (ix2 (0 : Fin 1) k) := by
  obtain ⟨e0, e1⟩ := (idx_whole t).2.2.2.2.2.2.2.2.1
  unfold iblk3
  rw [View.read_apply]
  show V c (Pipeline.arrRef spec3 11) _ = V c (Pipeline.arrRef spec3 11) _
  refine congrArg _ (funext fun a => Fin.ext ?_)
  match a with
  | ⟨0, _⟩ => show win3_11.index t (0 : Fin 2) * 1 + 1 * (0 : Fin 1).val = (0 : Fin 1).val; omega
  | ⟨1, _⟩ => show win3_11.index t (1 : Fin 2) * 128 + 1 * k.val = k.val; omega

/-- The candidate's bias row is staged whole at every point. -/
theorem blk12_apply (c : Dev nD) (t : Fin cfg3.N) (k : Fin 128) :
    (iblk3 V c 12 t : Vec Ideal S1x128 .f32) (ix2 (0 : Fin 1) k)
      = (V c (Pipeline.arrRef spec3 12) : S1x128.Idx → EReal) (ix2 (0 : Fin 1) k) := by
  obtain ⟨e0, e1⟩ := (idx_whole t).2.2.2.2.2.2.2.2.2
  unfold iblk3
  rw [View.read_apply]
  show V c (Pipeline.arrRef spec3 12) _ = V c (Pipeline.arrRef spec3 12) _
  refine congrArg _ (funext fun a => Fin.ext ?_)
  match a with
  | ⟨0, _⟩ => show win3_12.index t (0 : Fin 2) * 1 + 1 * (0 : Fin 1).val = (0 : Fin 1).val; omega
  | ⟨1, _⟩ => show win3_12.index t (1 : Fin 2) * 128 + 1 * k.val = k.val; omega

/-- Row r of the output's block at point t sits at row 5000 t + r of the output array. -/
theorem out_index (t : Fin cfg3.N) (r : Fin 5000) (q : Fin 128) (P : Fin 50000) (hP : P.val = t.val * 5000 + r.val) :
    ((cfg3.win 13).blk t).view.emb (ix2 r q) = (ix2 P q : S50000x128.Idx) := by
  obtain ⟨-, -, -, e0, e1⟩ := idx_rows t
  funext a
  apply Fin.ext
  match a with
  | ⟨0, _⟩ => show win3_13.index t (0 : Fin 2) * 5000 + 1 * r.val = P.val; omega
  | ⟨1, _⟩ => show win3_13.index t (1 : Fin 2) * 128 + 1 * q.val = q.val; omega

/-- The output array the region's arrays determine. -/
abbrev GV (c : Dev nD) : S50000x128.Idx → EReal :=
  G (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))
    (V c (Pipeline.arrRef spec3 9)) (V c (Pipeline.arrRef spec3 10)) (V c (Pipeline.arrRef spec3 11))
    (V c (Pipeline.arrRef spec3 12))

/-- What point t writes back is block t of that array. -/
theorem flushed_eq (c : Dev nD) (t : Fin cfg3.N) :
    (dat3 V c).flushed 13 t = ((cfg3.win 13).blk t).view.read (Elt Ideal) (GV V c) := by
  have hN : grid3.N = 10 := N_3
  show (cfg3.win 13).cut (grid3.coords t) ((dat3 V c).after 13 t) = _
  rw [after3_13]
  unfold out3_13
  rw [View.canon_unit_zero hz]
  simp only [View.ld_unit_zero (S := S5000x128) hz, View.ld_unit_zero (S := S5000x1) hz,
    View.ld_unit_zero (S := S1x128) hz, View.ld_unit_zero (S := S128x128) hz]
  funext j
  obtain ⟨r, q, rfl⟩ : ∃ (r : Fin 5000) (q : Fin 128), j = ix2 r q := ⟨j 0, j 1, eq_ix2 j⟩
  have hlt : t.val * 5000 + r.val < 50000 := by
    have h1 : t.val < grid3.N := t.isLt
    have h2 := r.isLt
    omega
  rw [View.read_apply]
  show _ = GV V c (((cfg3.win 13).blk t).view.emb (ix2 r q))
  rw [out_index t r q ⟨t.val * 5000 + r.val, hlt⟩ rfl]
  exact block_value (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) (iblk3 V c 11 t) (iblk3 V c 12 t)
    (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))
    (V c (Pipeline.arrRef spec3 9)) (V c (Pipeline.arrRef spec3 10)) (V c (Pipeline.arrRef spec3 11))
    (V c (Pipeline.arrRef spec3 12)) r q ⟨t.val * 5000 + r.val, hlt⟩
    (fun k => blk0_apply V c t r k _ rfl) (blk1_apply V c t r _ rfl) (fun k => blk2_apply V c t k)
    (fun k => blk3_apply V c t r k _ rfl) (fun k q => blk4_apply V c t k q) (fun k q => blk5_apply V c t k q)
    (fun k q => blk6_apply V c t k q) (fun k q => blk7_apply V c t k q) (fun k q => blk8_apply V c t k q)
    (fun k q => blk9_apply V c t k q) (fun k => blk10_apply V c t k) (fun k => blk11_apply V c t k)
    (fun k => blk12_apply V c t k)

/-- An entry of the output array lies in point t's block when its row is among rows 5000 t … 5000 t + 4999. -/
theorem mem_blk (t : Fin cfg3.N) (i : S50000x128.Idx) :
    i ∈ ((cfg3.win 13).blk t).view.set
      ↔ ∀ a : Fin 2, win3_13.index t a * S5000x128.size a ≤ (i a).val
          ∧ (i a).val < win3_13.index t a * S5000x128.size a + S5000x128.size a := by
  show i ∈ ((View.whole main_v47).slice (win3_13.rect t)).set ↔ _
  rw [View.set_slice_whole, Rect.mem_set_unit]
  exact Iff.rfl

/-- Every entry of the output array is written back by the point its row's block belongs to. -/
theorem covered (i : S50000x128.Idx) :
    ∃ t : Fin cfg3.N, (cfg3.win 13).flush t = true ∧ i ∈ ((cfg3.win 13).blk t).view.set := by
  have hN : grid3.N = 10 := N_3
  have hi0 : (i 0).val < 50000 := idx2_lt0 i
  have hi1 : (i 1).val < 128 := idx2_lt1 i
  have ht : (i 0).val / 5000 < grid3.N := by rw [hN]; omega
  refine ⟨⟨(i 0).val / 5000, ht⟩, flush3_13 _, ?_⟩
  obtain ⟨-, -, -, e0, e1⟩ := idx_rows ⟨(i 0).val / 5000, ht⟩
  have e0' : win3_13.index ⟨(i 0).val / 5000, ht⟩ (0 : Fin 2) = (i 0).val / 5000 := e0
  rw [mem_blk]
  intro a
  match a with
  | ⟨0, _⟩ =>
    show win3_13.index ⟨(i 0).val / 5000, ht⟩ (0 : Fin 2) * 5000 ≤ (i 0).val
      ∧ (i 0).val < win3_13.index ⟨(i 0).val / 5000, ht⟩ (0 : Fin 2) * 5000 + 5000
    omega
  | ⟨1, _⟩ =>
    show win3_13.index ⟨(i 0).val / 5000, ht⟩ (1 : Fin 2) * 128 ≤ (i 1).val
      ∧ (i 1).val < win3_13.index ⟨(i 0).val / 5000, ht⟩ (1 : Fin 2) * 128 + 128
    omega

/-- The output array after the region is that function of the arrays the region found. -/
theorem final (c : Dev nD) : (dat3 V c).arrAt 13 cfg3.N = GV V c :=
  (dat3 V c).arrAt_eq_of_cover 13 (GV V c) (fun t _ => flushed_eq V c t) covered

/-- The whole-array function at row p, column q, spelt out: the gated update over the embedding (aggregated features
    times the node's factor, plus the embedding's bias row), the previous state, six weight halves and three bias rows. -/
theorem G_apply (A0 : S50000x128.Idx → EReal) (A1 : S50000x1.Idx → EReal) (A2 : S1x128.Idx → EReal)
    (A3 : S50000x128.Idx → EReal) (A4 A5 A6 A7 A8 A9 : S128x128.Idx → EReal) (A10 A11 A12 : S1x128.Idx → EReal)
    (p : Fin 50000) (q : Fin 128) :
    G A0 A1 A2 A3 A4 A5 A6 A7 A8 A9 A10 A11 A12 (ix2 p q)
      = Cert.Gcn.gru2 (fun p k => A0 (ix2 p k) * A1 (ix2 p (0 : Fin 1)) + A2 (ix2 (0 : Fin 1) k))
          (fun p k => A3 (ix2 p k)) (fun k q => A4 (ix2 k q)) (fun k q => A5 (ix2 k q)) (fun k q => A6 (ix2 k q))
          (fun k q => A7 (ix2 k q)) (fun k q => A8 (ix2 k q)) (fun k q => A9 (ix2 k q))
          (fun q => A10 (ix2 (0 : Fin 1) q)) (fun q => A11 (ix2 (0 : Fin 1) q)) (fun q => A12 (ix2 (0 : Fin 1) q)) p q :=
  rfl

/-- Region 3's output array after the region, entry by entry, as that function of the arrays the region found. -/
theorem region3_entry (c : Dev nD) (p : Fin 50000) (q : Fin 128) :
    ((dat3 V c).arrAt 13 cfg3.N : S50000x128.Idx → EReal) (ix2 p q)
      = G (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7)) (V c (Pipeline.arrRef spec3 8))
          (V c (Pipeline.arrRef spec3 9)) (V c (Pipeline.arrRef spec3 10)) (V c (Pipeline.arrRef spec3 11))
          (V c (Pipeline.arrRef spec3 12)) (ix2 p q) :=
  congrFun (final V c) (ix2 p q)

/-- The same with the thirteen arrays named: whatever functions A0 … A12 the region's arrays are, the output entry
    is the gated update over them. -/
theorem region3_value (c : Dev nD)
    (A0 : S50000x128.Idx → EReal) (A1 : S50000x1.Idx → EReal) (A2 : S1x128.Idx → EReal)
    (A3 : S50000x128.Idx → EReal) (A4 A5 A6 A7 A8 A9 : S128x128.Idx → EReal) (A10 A11 A12 : S1x128.Idx → EReal)
    (h0 : V c (Pipeline.arrRef spec3 0) = A0) (h1 : V c (Pipeline.arrRef spec3 1) = A1)
    (h2 : V c (Pipeline.arrRef spec3 2) = A2) (h3 : V c (Pipeline.arrRef spec3 3) = A3)
    (h4 : V c (Pipeline.arrRef spec3 4) = A4) (h5 : V c (Pipeline.arrRef spec3 5) = A5)
    (h6 : V c (Pipeline.arrRef spec3 6) = A6) (h7 : V c (Pipeline.arrRef spec3 7) = A7)
    (h8 : V c (Pipeline.arrRef spec3 8) = A8) (h9 : V c (Pipeline.arrRef spec3 9) = A9)
    (h10 : V c (Pipeline.arrRef spec3 10) = A10) (h11 : V c (Pipeline.arrRef spec3 11) = A11)
    (h12 : V c (Pipeline.arrRef spec3 12) = A12) (p : Fin 50000) (q : Fin 128) :
    ((dat3 V c).arrAt 13 cfg3.N : S50000x128.Idx → EReal) (ix2 p q)
      = Cert.Gcn.gru2 (fun p k => A0 (ix2 p k) * A1 (ix2 p (0 : Fin 1)) + A2 (ix2 (0 : Fin 1) k))
          (fun p k => A3 (ix2 p k)) (fun k q => A4 (ix2 k q)) (fun k q => A5 (ix2 k q)) (fun k q => A6 (ix2 k q))
          (fun k q => A7 (ix2 k q)) (fun k q => A8 (ix2 k q)) (fun k q => A9 (ix2 k q))
          (fun q => A10 (ix2 (0 : Fin 1) q)) (fun q => A11 (ix2 (0 : Fin 1) q)) (fun q => A12 (ix2 (0 : Fin 1) q)) p q := by
  subst h0 h1 h2 h3 h4 h5 h6 h7 h8 h9 h10 h11 h12
  exact region3_entry V c p q

end Region

end Gate

/-- Region 3's output array after the region, at row p and column q, for ANY buffer contents V at region entry: with
    A0 … A12 the thirteen arrays the region's input windows stage (aggregated features, factor column, embedding bias
    row, previous state, the update gate's two weight halves, the reset gate's, the candidate's, and the three gates'
    bias rows), it is the gated update of the embedding A0 · A1 + A2 and the state A3. -/
theorem region3_value (V : (c : Dev nD) → (b : Ref sig .tc) → Buf (Elt Ideal) ((c : Thread nD τ).loc b)) (c : Dev nD)
    (A0 : S50000x128.Idx → EReal) (A1 : S50000x1.Idx → EReal) (A2 : S1x128.Idx → EReal)
    (A3 : S50000x128.Idx → EReal) (A4 A5 A6 A7 A8 A9 : S128x128.Idx → EReal) (A10 A11 A12 : S1x128.Idx → EReal)
    (h0 : V c (Pipeline.arrRef spec3 0) = A0) (h1 : V c (Pipeline.arrRef spec3 1) = A1)
    (h2 : V c (Pipeline.arrRef spec3 2) = A2) (h3 : V c (Pipeline.arrRef spec3 3) = A3)
    (h4 : V c (Pipeline.arrRef spec3 4) = A4) (h5 : V c (Pipeline.arrRef spec3 5) = A5)
    (h6 : V c (Pipeline.arrRef spec3 6) = A6) (h7 : V c (Pipeline.arrRef spec3 7) = A7)
    (h8 : V c (Pipeline.arrRef spec3 8) = A8) (h9 : V c (Pipeline.arrRef spec3 9) = A9)
    (h10 : V c (Pipeline.arrRef spec3 10) = A10) (h11 : V c (Pipeline.arrRef spec3 11) = A11)
    (h12 : V c (Pipeline.arrRef spec3 12) = A12) (p : Fin 50000) (q : Fin 128) :
    ((dat3 V c).arrAt 13 cfg3.N : S50000x128.Idx → EReal) (ix2 p q)
      = Cert.Gcn.gru2 (fun p k => A0 (ix2 p k) * A1 (ix2 p (0 : Fin 1)) + A2 (ix2 (0 : Fin 1) k))
          (fun p k => A3 (ix2 p k)) (fun k q => A4 (ix2 k q)) (fun k q => A5 (ix2 k q)) (fun k q => A6 (ix2 k q))
          (fun k q => A7 (ix2 k q)) (fun k q => A8 (ix2 k q)) (fun k q => A9 (ix2 k q))
          (fun q => A10 (ix2 (0 : Fin 1) q)) (fun q => A11 (ix2 (0 : Fin 1) q)) (fun q => A12 (ix2 (0 : Fin 1) q)) p q :=
  Gate.region3_value V c A0 A1 A2 A3 A4 A5 A6 A7 A8 A9 A10 A11 A12 h0 h1 h2 h3 h4 h5 h6 h7 h8 h9 h10 h11 h12 p q

end Cert.KernelIdeal.RegionValue

end
-- ==== Proof.Whole.lean ====
/-
  Both programs' result as one function of the launch arrays, in the two arrangements of the convolutions, and that
  the two are the same function when the degree factors are nonnegative reals and every landing edge names its
  target.

  From the node features `X`: a convolution of `X·W_in` with bias `b_in` clamped at zero gives the hidden features;
  a convolution of those times `W_hid` with bias `b_hid` gives the embedding; the gated update mixes the embedding
  with the previous state `Hd`.
-/
import proofs.«138680_j57123065037360_2_alg».proof.Proof.Spec

noncomputable section

namespace Cert.Gcn

section Whole
variable (dinv : Fin 50000 → EReal) (src : Fin 650000 → Fin 50000) (L : Fin 50000 → Finset (Fin 650000))
  (X Hd : Mat 50000 128) (Win Whid : Mat 128 128) (Wz Wr Wc : Mat 256 128) (bin bhid bz br bc : Fin 128 → EReal)

/-- The result with every convolution scaled at the source and once at the target. -/
def wholeK : Mat 50000 128 :=
  gru (embed (convK dinv src L (mm (hidden (convK dinv src L (mm X Win)) bin) Whid)) bhid) Hd Wz Wr Wc bz br bc

/-- The result with every gathered row scaled by the product of its two endpoint factors. -/
def wholeR (dstN : Fin 650000 → Fin 50000) : Mat 50000 128 :=
  gru (embed (convR dinv src L dstN (mm (hidden (convR dinv src L dstN (mm X Win)) bin) Whid)) bhid) Hd Wz Wr Wc bz br bc

/-- The two arrangements give one result. -/
theorem wholeK_eq_wholeR (dstN : Fin 650000 → Fin 50000)
    (hd : ∀ j, ∃ r : ℝ, 0 ≤ r ∧ dinv j = (r : EReal)) (hL : ∀ j, ∀ e ∈ L j, dstN e = j) :
    wholeK dinv src L X Hd Win Whid Wz Wr Wc bin bhid bz br bc
      = wholeR dinv src L X Hd Win Whid Wz Wr Wc bin bhid bz br bc dstN := by
  unfold wholeK wholeR
  rw [convK_eq_convR dinv src L dstN hd hL, convK_eq_convR dinv src L dstN hd hL]

end Whole

end Cert.Gcn

end
-- ==== Proof.LibGatherVec.lean ====
/-
  A gather `x[idx]` of a vector `x : [N]` on the host, read at an index.

  `x[idx]` for a vector `x` and an integer array `idx` lowers to a gather with one collapsed axis (the vector's only
  axis), no offset axis (each start index picks one scalar) and a trailing index-vector axis of extent one on the
  start indices. Result entry `r` is the vector's entry at the position the start index names: the start index is
  read as a signed integer and clamped into `[0, N − 1]`, so every integer names a position. The statement takes the
  dimension numbers as a record built from the literal lists; a printed record with the same lists is equal to it by
  `rfl`.
-/
import Idealize.ShloMosaic.Lib.ValueIdx
import proofs.«138680_j57123065037360_2_alg».proof.Proof.LibGatherRows

noncomputable section

namespace Cert.LibGatherVec

open Idealize.ShloMosaic Idealize.ShloMosaic.ValueIdx
open Cert.LibGatherRows (clampRow)

variable {α : Type}

/-- The dimension numbers of `x[idx]` for a vector `[N]` and start indices `[R, 1]`, result `[R]`. -/
abbrev vecDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section Vec
variable {N R w : ℕ}
  (wf : GatherDims.WF ⟨1, ![N]⟩ ⟨2, ![R, 1]⟩ ⟨1, ![R]⟩ [] [0] [] [0] [] 1 ![1])
  (idx : IVec ⟨2, ![R, 1]⟩ w) (r : Fin R)

/-- On the vector's axis the operand coordinate is the clamped start index: no batching, and the axis is collapsed. -/
theorem vec_axis0 :
    (vecDims N R wf).start (ix1 r) idx 0 + (vecDims N R wf).batchCoord (ix1 r) 0
      + (vecDims N R wf).offCoord (ix1 r) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Vec

/-- Entry `r` of the gather is the vector's entry at the clamped start index `idx (r, 0)`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampRow N hN (idx (ix2 r (0 : Fin 1))))) := by
  unfold Host.gather
  congr 1
  funext a
  refine Fin.ext ?_
  match a with
  | ⟨0, _⟩ => exact vec_axis0 wf idx r

end Cert.LibGatherVec

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibMeanProj.lean ====
/-
  Mean aggregation commutes with a linear projection, for real data read on the extended reals.

  Let `L` be a finite set of neighbours, `g e k` the `k`-th real feature of neighbour `e`, `w k` a real weight and
  `d ≠ 0` a real count. Projecting every neighbour first and averaging the projections,

      (0 + ∑ e ∈ L, ∑ k, g e k · w k) / d,

  gives what averaging every feature first and projecting the averages gives,

      ∑ k, ((0 + ∑ e ∈ L, g e k) / d) · w k.

  On the reals this is distributivity and an exchange of the two sums. On the extended reals it needs every factor to be
  real (at an infinity distributivity fails), which is why the statement is about images of reals. The division is the
  extended reals' own, `Ideal.div`, which by a nonzero real is the product with its reciprocal.

  Also here: the closure of "is the image of a real" under the operations a dense layer uses.
-/
import Idealize.ShloMosaic.PureOps.Ideal
import proofs.«138680_j57123065037360_2_alg».proof.Proof.LibSumSwap

noncomputable section

open scoped BigOperators

namespace Cert.LibMeanProj

open Idealize.ShloMosaic

/-- A real divided by a nonzero real, on the extended reals, is the image of the real quotient. -/
theorem div_coe_coe (a d : ℝ) (hd : d ≠ 0) : Ideal.div (a : EReal) (d : EReal) = ((a / d : ℝ) : EReal) := by
  rw [Ideal.div_coe hd, ← EReal.coe_mul, mul_one_div]

/-- Projecting then averaging is averaging then projecting. -/
theorem mean_proj {ι κ : Type*} [Fintype κ] (L : Finset ι) (g : ι → κ → ℝ) (w : κ → ℝ) (d : ℝ) (hd : d ≠ 0) :
    Ideal.div (0 + ∑ e ∈ L, ∑ k, (g e k : EReal) * (w k : EReal)) (d : EReal)
      = ∑ k, Ideal.div (0 + ∑ e ∈ L, (g e k : EReal)) (d : EReal) * (w k : EReal) := by
  have hl : (∑ e ∈ L, ∑ k, (g e k : EReal) * (w k : EReal)) = ((∑ e ∈ L, ∑ k, g e k * w k : ℝ) : EReal) := by
    rw [SumSwap.coe_sum]
    refine Finset.sum_congr rfl fun e _ => ?_
    rw [SumSwap.coe_sum]
    exact Finset.sum_congr rfl fun k _ => (EReal.coe_mul _ _).symm
  have hk : ∀ k, Ideal.div (0 + ∑ e ∈ L, (g e k : EReal)) (d : EReal) * (w k : EReal)
      = (((∑ e ∈ L, g e k) / d * w k : ℝ) : EReal) := fun k => by
    rw [zero_add, ← SumSwap.coe_sum, div_coe_coe _ _ hd, ← EReal.coe_mul]
  rw [zero_add, hl, div_coe_coe _ _ hd]
  simp only [hk]
  rw [← SumSwap.coe_sum]
  congr 1
  rw [Finset.sum_comm, Finset.sum_div]
  refine Finset.sum_congr rfl fun k _ => ?_
  rw [← Finset.sum_mul, mul_div_right_comm]

/-! ## Images of reals -/

/-- An extended real that is the image of a real number. -/
def IsReal (v : EReal) : Prop := ∃ r : ℝ, v = (r : EReal)

theorem isReal_coe (r : ℝ) : IsReal (r : EReal) := ⟨r, rfl⟩
theorem isReal_zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert i s hi ih =>
    rw [Finset.sum_insert hi]
    exact (hf i (Finset.mem_insert_self i s)).add (ih fun j hj => hf j (Finset.mem_insert_of_mem hj))

theorem IsReal.div {a : EReal} (ha : IsReal a) (d : ℝ) (hd : d ≠ 0) : IsReal (Ideal.div a (d : EReal)) := by
  obtain ⟨x, rfl⟩ := ha; exact ⟨x / d, div_coe_coe x d hd⟩

end Cert.LibMeanProj

end
-- ==== Proof.LibGatheredSums.lean ====
/-
  Three small tools for sums of gathered rows on the extended reals.

  * A host gather of rows of a table `[N, D]`, or of entries of a vector `[N]`, by a one-column table of start indices,
    read at an index through ANY record of dimension numbers that equals the row-gather (vector-gather) record: entry
    `(r, q)` is the table's entry `(row, q)`, `row` the start index read signed and clamped into `[0, N − 1]`.
  * A vector made a column by one `broadcast_in_dim` and the column spread over `b` columns by a second one reads, at
    `(p, q)`, the vector at `p`.
  * A real factor moves across a finite sum of products of reals: `(0 + ∑ h·z)·y = 0 + ∑ h·(z·y)`. On the extended reals
    this needs every term real — `⊤·0` and `⊤ + ⊥` are where the law fails — and then it is the law of the real numbers.
-/
import proofs.«138680_j57123065037360_2_alg».proof.Proof.LibGatherRows
import proofs.«138680_j57123065037360_2_alg».proof.Proof.LibGatherVec
import proofs.«138680_j57123065037360_2_alg».proof.Proof.LibMeanProj
import Idealize.ShloMosaic.Lib.Pipeline.Value
import Idealize.ShloMosaic.Lib.ValueIdx

noncomputable section

open scoped BigOperators

namespace Cert.LibGatheredSums

open Idealize.ShloMosaic Idealize.ShloMosaic.ValueIdx
open Cert.LibGatherRows (clampRow)
open Cert.LibMeanProj (IsReal)

/-- A row gather through any record with the row-gather dimension numbers, at `(r, q)`. -/
theorem gather_rows_at {α : Type} {N D R w : ℕ} (g : GatherDims ⟨2, ![N, D]⟩ ⟨2, ![R, 1]⟩ ⟨2, ![R, D]⟩)
    {wf : GatherDims.WF ⟨2, ![N, D]⟩ ⟨2, ![R, 1]⟩ ⟨2, ![R, D]⟩ [1] [0] [] [0] [] 1 ![1, D]}
    (hg : g = Cert.LibGatherRows.rowDims2 N D R wf) (hN : 0 < N) (x : (⟨2, ![N, D]⟩ : Shape).Idx → α) (idx : IVec ⟨2, ![R, 1]⟩ w)
    (r : Fin R) (q : Fin D) : Host.gather g x idx (ix2 r q) = x (ix2 (clampRow N hN (idx (ix2 r (0 : Fin 1)))) q) := by
  subst hg
  exact Cert.LibGatherRows.gather_rows2_apply hN wf x idx r q

/-- A vector gather through any record with the vector-gather dimension numbers, at `r`. -/
theorem gather_vec_at {α : Type} {N R w : ℕ} (g : GatherDims ⟨1, ![N]⟩ ⟨2, ![R, 1]⟩ ⟨1, ![R]⟩)
    {wf : GatherDims.WF ⟨1, ![N]⟩ ⟨2, ![R, 1]⟩ ⟨1, ![R]⟩ [] [0] [] [0] [] 1 ![1]}
    (hg : g = Cert.LibGatherVec.vecDims N R wf) (hN : 0 < N) (x : (⟨1, ![N]⟩ : Shape).Idx → α) (idx : IVec ⟨2, ![R, 1]⟩ w)
    (r : Fin R) : Host.gather g x idx (ix1 r) = x (ix1 (clampRow N hN (idx (ix2 r (0 : Fin 1))))) := by
  subst hg
  exact Cert.LibGatherVec.gather_vec_apply hN wf x idx r

/-- A vector made a column and the column spread over `b` columns reads, at `(p, q)`, the vector at `p`. -/
theorem spread_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  have e2 : broadcastInDim ⟨2, ![a, b]⟩ ![0, 1] h2 (broadcastInDim ⟨2, ![a, 1]⟩ ![0] h1 v) (ix2 p q)
      = broadcastInDim ⟨2, ![a, 1]⟩ ![0] h1 v (ix2 p (0 : Fin 1)) := by
    refine broadcastInDim_apply ![0, 1] h2 _ (ix2 p q) (ix2 p (0 : Fin 1)) fun ax => ?_
    match ax with
    | ⟨0, _⟩ =>
      show p.val = if a = 1 then 0 else p.val
      split
      · have := p.isLt; omega
      · rfl
    | ⟨1, _⟩ => rfl
  have e1 : broadcastInDim ⟨2, ![a, 1]⟩ ![0] h1 v (ix2 p (0 : Fin 1)) = v (ix1 p) := by
    refine broadcastInDim_apply ![0] h1 v (ix2 p (0 : Fin 1)) (ix1 p) fun ax => ?_
    match ax with
    | ⟨0, _⟩ =>
      show p.val = if a = 1 then 0 else p.val
      split
      · have := p.isLt; omega
      · rfl
  rw [e2, e1]

/-- A real factor moves across a finite sum of products of reals. -/
theorem factor_out {ι : Type*} (L : Finset ι) (h z : ι → EReal) (y : EReal)
    (hh : ∀ e ∈ L, IsReal (h e)) (hz : ∀ e ∈ L, IsReal (z e)) (hy : IsReal y) :
    ((0 : EReal) + ∑ e ∈ L, h e * z e) * y = (0 : EReal) + ∑ e ∈ L, h e * (z e * y) := by
  classical
  obtain ⟨yr, rfl⟩ := hy
  rw [zero_add, zero_add]
  have hsum : ∀ (M : Finset ι), M ⊆ L → (∑ e ∈ M, h e * z e) * (yr : EReal) = ∑ e ∈ M, h e * (z e * (yr : EReal)) := by
    intro M
    induction M using Finset.induction_on with
    | empty => intro _; simp
    | insert a M ha ih =>
      intro hsub
      have haL : a ∈ L := hsub (Finset.mem_insert_self a M)
      obtain ⟨hr, hhr⟩ := hh a haL
      obtain ⟨zr, hzr⟩ := hz a haL
      have hM : IsReal (∑ e ∈ M, h e * z e) :=
        IsReal.sum _ _ fun e he => IsReal.mul (hh e (hsub (Finset.mem_insert_of_mem he))) (hz e (hsub (Finset.mem_insert_of_mem he)))
      obtain ⟨sr, hsr⟩ := hM
      rw [Finset.sum_insert ha, Finset.sum_insert ha, ← ih (fun e he => hsub (Finset.mem_insert_of_mem he)), hsr, hhr, hzr]
      simp only [← EReal.coe_mul, ← EReal.coe_add]
      congr 1; ring
  exact hsum L (Finset.Subset.refl L)

end Cert.LibGatheredSums

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.KernelValue.lean ====
/-
  What the idealized kernel program's result array holds, as a function of the arrays it was launched with.

  The program is: a first stretch of host operations (the edge lists with their self-loops, the degrees by a
  scatter-add of ones, their reciprocal square roots `dinv` as a column); region 0 (`x·W_in`, each row scaled by
  `dinv`); a stretch that gathers those rows by source and scatter-adds them by target; region 1 (scale by `dinv`
  at the target, add the bias, clamp at zero); region 2 (the same product and scaling with `W_hid`); a stretch that
  gathers and scatter-adds again and cuts the three gate weights into halves; region 3 (scale, bias, and the gated
  update). Each region's output is read entry by entry off the region's own value lemma, each stretch's results off
  its operations, and every buffer a later place reads is carried there unchanged. The edge lists, the degrees and
  the index columns are the very terms the reference program computes from the same edge array.
-/
import proofs.«138680_j57123065037360_2_alg».proof.Proof.KernelCarry
import proofs.«138680_j57123065037360_2_alg».proof.Proof.Spec
import proofs.«138680_j57123065037360_2_alg».proof.Proof.RegionConv
import proofs.«138680_j57123065037360_2_alg».proof.Proof.RegionGate
import proofs.«138680_j57123065037360_2_alg».proof.Proof.Whole
import proofs.«138680_j57123065037360_2_alg».proof.Proof.Gen.ReferenceIdeal.Read
import proofs.«138680_j57123065037360_2_alg».proof.Proof.LibGatheredSums
import proofs.«138680_j57123065037360_2_alg».proof.Proof.LibScatterAddRows
import proofs.«138680_j57123065037360_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Cert.KernelIdeal.Carry Cert.KernelIdeal.RegionValue
open Idealize.ShloMosaic Idealize.ShloMosaic.TcCoe Idealize.ShloMosaic.Tactic Idealize.ShloMosaic.ValueIdx
open Idealize.SL Idealize.SL.Sem Idealize.ShloMosaic.StableHlo
open Cert.Gcn
open Cert.LibScatterAddRows (landing)
open Cert.ReferenceIdeal.Read (val_main_v6 val_main_v7 val_main_v12 val_main_v33 val_main_v39)

variable (m : (ℓ : Loc nD τ sig) → Buf (Elt Ideal) ℓ) (ρ : Dev nD → PrngReg) (c : Dev nD)

/-! ## The first stretch: the edge lists and the degree factors -/

/-- The source list (edges then self-loops). -/
theorem srcList : W1 m ρ c (Proc.devRef .tc main_v5) = val_main_v6 (F := Ideal) (m ((c : Thread nD τ).loc main_arg2)) := by
  show StableHlo.after hostOps0 (W0 m ρ c) (Proc.devRef .tc main_v5) = _
  after_results
  rfl

/-- The target list. -/
theorem dstList : W1 m ρ c (Proc.devRef .tc main_v6) = val_main_v7 (F := Ideal) (m ((c : Thread nD τ).loc main_arg2)) := by
  show StableHlo.after hostOps0 (W0 m ρ c) (Proc.devRef .tc main_v6) = _
  after_results
  rfl

/-- The column of reciprocal square-root degrees, at row `j`. -/
theorem dinvCol (j : Fin 50000) : W1 m ρ c (Proc.devRef .tc main_v12) (ix2 j (0 : Fin 1))
    = val_main_v12 (F := Ideal) (m ((c : Thread nD τ).loc main_arg2)) (ix1 j) := by
  have e : W1 m ρ c (Proc.devRef .tc main_v12)
      = shapeCast S50000x1 (val_main_v12 (F := Ideal) (m ((c : Thread nD τ).loc main_arg2))) shapeCasts_S50000_S50000x1 := by
    show StableHlo.after hostOps0 (W0 m ρ c) (Proc.devRef .tc main_v12) = _
    after_results
    rfl
  rw [e]
  exact Cert.LibColumn.shapeCast_a_a1_apply _ _ j 0

/-! ## The launch arrays as matrices, and the edge data -/

/-- The edge array the program was launched with. -/
abbrev ed : (⟨S2x600000, .i32⟩ : BufTy).Contents (Elt Ideal) := m ((c : Thread nD τ).loc main_arg2)
/-- The degree factors, the source rows and the landing sets, read off the edge array. -/
abbrev dinvK : Fin 50000 → EReal := fun j => val_main_v12 (F := Ideal) (ed m c) (ix1 j)
abbrev srcK : Fin 650000 → Fin 50000 := rowOf (val_main_v33 (F := Ideal) (ed m c))
abbrev LK : Fin 50000 → Finset (Fin 650000) := fun j => landing (val_main_v39 (F := Ideal) (ed m c)) j.val

abbrev aX : Mat 50000 128 := fun p k => (m ((c : Thread nD τ).loc main_arg0) : S50000x128.Idx → EReal) (ix2 p k)
abbrev aHd : Mat 50000 128 := fun p k => (m ((c : Thread nD τ).loc main_arg1) : S50000x128.Idx → EReal) (ix2 p k)
abbrev aWin : Mat 128 128 := fun k q => (m ((c : Thread nD τ).loc main_arg3) : S128x128.Idx → EReal) (ix2 k q)
abbrev aBin : Fin 128 → EReal := fun q => (m ((c : Thread nD τ).loc main_arg4) : S128.Idx → EReal) (ix1 q)
abbrev aWhid : Mat 128 128 := fun k q => (m ((c : Thread nD τ).loc main_arg5) : S128x128.Idx → EReal) (ix2 k q)
abbrev aBhid : Fin 128 → EReal := fun q => (m ((c : Thread nD τ).loc main_arg6) : S128.Idx → EReal) (ix1 q)
abbrev aWz : Mat 256 128 := fun k q => (m ((c : Thread nD τ).loc main_arg7) : S256x128.Idx → EReal) (ix2 k q)
abbrev aBz : Fin 128 → EReal := fun q => (m ((c : Thread nD τ).loc main_arg8) : S128.Idx → EReal) (ix1 q)
abbrev aWr : Mat 256 128 := fun k q => (m ((c : Thread nD τ).loc main_arg9) : S256x128.Idx → EReal) (ix2 k q)
abbrev aBr : Fin 128 → EReal := fun q => (m ((c : Thread nD τ).loc main_arg10) : S128.Idx → EReal) (ix1 q)
abbrev aWc : Mat 256 128 := fun k q => (m ((c : Thread nD τ).loc main_arg11) : S256x128.Idx → EReal) (ix2 k q)
abbrev aBc : Fin 128 → EReal := fun q => (m ((c : Thread nD τ).loc main_arg12) : S128.Idx → EReal) (ix1 q)

/-! ## Region 0: the product's rows scaled at the source -/

theorem scaled1 (p : Fin 50000) (q : Fin 128) :
    W2 m ρ c (Proc.devRef .tc main_v13) (ix2 p q) = mm (aX m c) (aWin m c) p q * dinvK m c p := by
  have h13 : W2 m ρ c (Proc.devRef .tc main_v13) = (dat0 (V1 m ρ) c).arrAt 3 cfg0.N := W2_arr m ρ c 3
  rw [h13]
  refine (region0_value (V1 m ρ) c (m ((c : Thread nD τ).loc main_arg0)) (m ((c : Thread nD τ).loc main_arg3))
    (W1 m ρ c (Proc.devRef .tc main_v12)) (W1_arg0_from0 m ρ c) (W1_arg3_from0 m ρ c) rfl p q).trans ?_
  rw [dinvCol]
  rfl

/-! ## The second stretch: gather by source, scatter-add by target -/

/-- A table of zeros gathers nothing. -/
theorem zeroTable (j : Fin 50000) (q : Fin 128) :
    (broadcastInDim S50000x128 ![] bcast_S_S50000x128 (constant (F := Ideal) S_ .f32 0x00000000#32) : S50000x128.Idx → EReal) (ix2 j q) = 0 :=
  Ideal.ofBits_zero_f32

theorem agg1 (j : Fin 50000) (q : Fin 128) :
    W3 m ρ c (Proc.devRef .tc main_v23) (ix2 j q)
      = ∑ e ∈ LK m c j, mm (aX m c) (aWin m c) (srcK m c e) q * dinvK m c (srcK m c e) := by
  have e : W3 m ρ c (Proc.devRef .tc main_v23)
      = (Host.scatterAdd scatter_S50000x128_S650000x1_S650000x128_1_0_0_1
          (broadcastInDim S50000x128 ![] bcast_S_S50000x128 (constant (F := Ideal) S_ .f32 0x00000000#32))
          (val_main_v39 (F := Ideal) (ed m c))
          (Host.gather gather_S50000x128_S650000x1_S650000x128_1_0_n_n_0_1_1128
            (W2 m ρ c (Proc.devRef .tc main_v13) : FVec Ideal S50000x128 .f32)
            (val_main_v33 (F := Ideal) (ed m c))) : FVec Ideal S50000x128 .f32) := by
    show StableHlo.after hostOps1 (W2 m ρ c) (Proc.devRef .tc main_v23) = _
    after_results
    rw [W2_v5_from1, W2_v6_from1, srcList, dstList]
    rfl
  show (_ : EReal) = _
  rw [e, Cert.LibScatterAddRows.scatterAdd_rows_apply scatter_S50000x128_S650000x1_S650000x128_1_0_0_1.wf _ scatter_S50000x128_S650000x1_S650000x128_1_0_0_1 rfl, zeroTable, zero_add]
  refine Finset.sum_congr rfl fun e _ => ?_
  rw [Cert.LibGatheredSums.gather_rows_at gather_S50000x128_S650000x1_S650000x128_1_0_n_n_0_1_1128 (wf := gather_S50000x128_S650000x1_S650000x128_1_0_n_n_0_1_1128.wf) rfl (by norm_num : 0 < 50000)]
  exact scaled1 m ρ c _ q

/-! ## Region 1: scale at the target, add the bias, clamp at zero -/

/-- The first convolution's bias as a one-row array. -/
theorem biasRow1 (q : Fin 128) : W3 m ρ c (Proc.devRef .tc main_v24) (ix2 (0 : Fin 1) q) = aBin m c q := by
  have e : W3 m ρ c (Proc.devRef .tc main_v24)
      = shapeCast S1x128 (m ((c : Thread nD τ).loc main_arg4)) shapeCasts_S128_S1x128 := by
    show StableHlo.after hostOps1 (W2 m ρ c) (Proc.devRef .tc main_v24) = _
    after_results
    rw [W2_arg4_from0]
    rfl
  rw [e]
  exact shapeCast_a_1a_apply _ _ 0 q

/-- The hidden features. -/
abbrev h1K : Mat 50000 128 :=
  hidden (convK (dinvK m c) (srcK m c) (LK m c) (mm (aX m c) (aWin m c))) (aBin m c)

theorem hidden1 (p : Fin 50000) (q : Fin 128) : W4 m ρ c (Proc.devRef .tc main_v25) (ix2 p q) = h1K m c p q := by
  have h : W4 m ρ c (Proc.devRef .tc main_v25) = (dat1 (V3 m ρ) c).arrAt 3 cfg1.N := W4_arr m ρ c 3
  rw [h]
  refine (region1_value (V3 m ρ) c (W3 m ρ c (Proc.devRef .tc main_v23)) (W1 m ρ c (Proc.devRef .tc main_v12))
    (W3 m ρ c (Proc.devRef .tc main_v24)) rfl (W3_v12_from1 m ρ c) rfl p q).trans ?_
  rw [agg1, dinvCol, biasRow1]
  rfl

/-! ## Region 2: the second product, scaled at the source -/

theorem scaled2 (p : Fin 50000) (q : Fin 128) :
    W5 m ρ c (Proc.devRef .tc main_v26) (ix2 p q) = mm (h1K m c) (aWhid m c) p q * dinvK m c p := by
  have h : W5 m ρ c (Proc.devRef .tc main_v26) = (dat2 (V4 m ρ) c).arrAt 3 cfg2.N := W5_arr m ρ c 3
  rw [h]
  refine (region2_value (V4 m ρ) c (W4 m ρ c (Proc.devRef .tc main_v25)) (m ((c : Thread nD τ).loc main_arg5))
    (W1 m ρ c (Proc.devRef .tc main_v12)) rfl (W4_arg5_from0 m ρ c) (W4_v12_from1 m ρ c) p q).trans ?_
  rw [dinvCol]
  simp only [hidden1 m ρ c]
  rfl

/-! ## The third stretch: gather and scatter-add again; the gate weights cut into halves; the biases as rows -/

theorem agg2 (j : Fin 50000) (q : Fin 128) :
    W6 m ρ c (Proc.devRef .tc main_v36) (ix2 j q)
      = ∑ e ∈ LK m c j, mm (h1K m c) (aWhid m c) (srcK m c e) q * dinvK m c (srcK m c e) := by
  have e : W6 m ρ c (Proc.devRef .tc main_v36)
      = (Host.scatterAdd scatter_S50000x128_S650000x1_S650000x128_1_0_0_1
          (broadcastInDim S50000x128 ![] bcast_S_S50000x128 (constant (F := Ideal) S_ .f32 0x00000000#32))
          (val_main_v39 (F := Ideal) (ed m c))
          (Host.gather gather_S50000x128_S650000x1_S650000x128_1_0_n_n_0_1_1128
            (W5 m ρ c (Proc.devRef .tc main_v26) : FVec Ideal S50000x128 .f32)
            (val_main_v33 (F := Ideal) (ed m c))) : FVec Ideal S50000x128 .f32) := by
    show StableHlo.after hostOps3 (W5 m ρ c) (Proc.devRef .tc main_v36) = _
    after_results
    rw [W5_v5_from1, W5_v6_from1, srcList, dstList]
    rfl
  show (_ : EReal) = _
  rw [e, Cert.LibScatterAddRows.scatterAdd_rows_apply scatter_S50000x128_S650000x1_S650000x128_1_0_0_1.wf _ scatter_S50000x128_S650000x1_S650000x128_1_0_0_1 rfl, zeroTable, zero_add]
  refine Finset.sum_congr rfl fun e _ => ?_
  rw [Cert.LibGatheredSums.gather_rows_at gather_S50000x128_S650000x1_S650000x128_1_0_n_n_0_1_1128 (wf := gather_S50000x128_S650000x1_S650000x128_1_0_n_n_0_1_1128.wf) rfl (by norm_num : 0 < 50000)]
  exact scaled2 m ρ c _ q

/-- The first 128 rows of the update weight. -/
theorem wz_top (k q : Fin 128) : W6 m ρ c (Proc.devRef .tc main_v37) (ix2 k q) = top (aWz m c) k q := by
  have e : W6 m ρ c (Proc.devRef .tc main_v37)
      = extractStridedSlice S128x128 ![0, 0] (m ((c : Thread nD τ).loc main_arg7)) slices_S256x128_S128x128_0_0 := by
    show StableHlo.after hostOps3 (W5 m ρ c) (Proc.devRef .tc main_v37) = _
    after_results
    rw [W5_arg7_from0]
  rw [e]
  exact extractStridedSlice_apply ![0, 0] _ _ (ix2 k q) (ix2 (⟨k.val, by omega⟩ : Fin 256) q) (fun a => match a with
    | ⟨0, _⟩ => by show k.val = 0 + k.val; omega
    | ⟨1, _⟩ => by show q.val = 0 + q.val; omega)

/-- The last 128 rows of the update weight. -/
theorem wz_bot (k q : Fin 128) : W6 m ρ c (Proc.devRef .tc main_v38) (ix2 k q) = bot (aWz m c) k q := by
  have e : W6 m ρ c (Proc.devRef .tc main_v38)
      = extractStridedSlice S128x128 ![128, 0] (m ((c : Thread nD τ).loc main_arg7)) slices_S256x128_S128x128_128_0 := by
    show StableHlo.after hostOps3 (W5 m ρ c) (Proc.devRef .tc main_v38) = _
    after_results
    rw [W5_arg7_from0]
  rw [e]
  exact extractStridedSlice_apply ![128, 0] _ _ (ix2 k q) (ix2 (⟨128 + k.val, by omega⟩ : Fin 256) q) (fun a => match a with
    | ⟨0, _⟩ => by show 128 + k.val = 128 + k.val; omega
    | ⟨1, _⟩ => by show q.val = 0 + q.val; omega)

/-- The first 128 rows of the reset weight. -/
theorem wr_top (k q : Fin 128) : W6 m ρ c (Proc.devRef .tc main_v39) (ix2 k q) = top (aWr m c) k q := by
  have e : W6 m ρ c (Proc.devRef .tc main_v39)
      = extractStridedSlice S128x128 ![0, 0] (m ((c : Thread nD τ).loc main_arg9)) slices_S256x128_S128x128_0_0 := by
    show StableHlo.after hostOps3 (W5 m ρ c) (Proc.devRef .tc main_v39) = _
    after_results
    rw [W5_arg9_from0]
  rw [e]
  exact extractStridedSlice_apply ![0, 0] _ _ (ix2 k q) (ix2 (⟨k.val, by omega⟩ : Fin 256) q) (fun a => match a with
    | ⟨0, _⟩ => by show k.val = 0 + k.val; omega
    | ⟨1, _⟩ => by show q.val = 0 + q.val; omega)

/-- The last 128 rows of the reset weight. -/
theorem wr_bot (k q : Fin 128) : W6 m ρ c (Proc.devRef .tc main_v40) (ix2 k q) = bot (aWr m c) k q := by
  have e : W6 m ρ c (Proc.devRef .tc main_v40)
      = extractStridedSlice S128x128 ![128, 0] (m ((c : Thread nD τ).loc main_arg9)) slices_S256x128_S128x128_128_0 := by
    show StableHlo.after hostOps3 (W5 m ρ c) (Proc.devRef .tc main_v40) = _
    after_results
    rw [W5_arg9_from0]
  rw [e]
  exact extractStridedSlice_apply ![128, 0] _ _ (ix2 k q) (ix2 (⟨128 + k.val, by omega⟩ : Fin 256) q) (fun a => match a with
    | ⟨0, _⟩ => by show 128 + k.val = 128 + k.val; omega
    | ⟨1, _⟩ => by show q.val = 0 + q.val; omega)

/-- The first 128 rows of the candidate weight. -/
theorem wc_top (k q : Fin 128) : W6 m ρ c (Proc.devRef .tc main_v41) (ix2 k q) = top (aWc m c) k q := by
  have e : W6 m ρ c (Proc.devRef .tc main_v41)
      = extractStridedSlice S128x128 ![0, 0] (m ((c : Thread nD τ).loc main_arg11)) slices_S256x128_S128x128_0_0 := by
    show StableHlo.after hostOps3 (W5 m ρ c) (Proc.devRef .tc main_v41) = _
    after_results
    rw [W5_arg11_from0]
  rw [e]
  exact extractStridedSlice_apply ![0, 0] _ _ (ix2 k q) (ix2 (⟨k.val, by omega⟩ : Fin 256) q) (fun a => match a with
    | ⟨0, _⟩ => by show k.val = 0 + k.val; omega
    | ⟨1, _⟩ => by show q.val = 0 + q.val; omega)

/-- The last 128 rows of the candidate weight. -/
theorem wc_bot (k q : Fin 128) : W6 m ρ c (Proc.devRef .tc main_v42) (ix2 k q) = bot (aWc m c) k q := by
  have e : W6 m ρ c (Proc.devRef .tc main_v42)
      = extractStridedSlice S128x128 ![128, 0] (m ((c : Thread nD τ).loc main_arg11)) slices_S256x128_S128x128_128_0 := by
    show StableHlo.after hostOps3 (W5 m ρ c) (Proc.devRef .tc main_v42) = _
    after_results
    rw [W5_arg11_from0]
  rw [e]
  exact extractStridedSlice_apply ![128, 0] _ _ (ix2 k q) (ix2 (⟨128 + k.val, by omega⟩ : Fin 256) q) (fun a => match a with
    | ⟨0, _⟩ => by show 128 + k.val = 128 + k.val; omega
    | ⟨1, _⟩ => by show q.val = 0 + q.val; omega)

theorem row_Bhid (q : Fin 128) : W6 m ρ c (Proc.devRef .tc main_v43) (ix2 (0 : Fin 1) q) = aBhid m c q := by
  have e : W6 m ρ c (Proc.devRef .tc main_v43)
      = shapeCast S1x128 (m ((c : Thread nD τ).loc main_arg6)) shapeCasts_S128_S1x128 := by
    show StableHlo.after hostOps3 (W5 m ρ c) (Proc.devRef .tc main_v43) = _
    after_results
    rw [W5_arg6_from0]
    rfl
  rw [e]
  exact shapeCast_a_1a_apply _ _ 0 q

theorem row_Bz (q : Fin 128) : W6 m ρ c (Proc.devRef .tc main_v44) (ix2 (0 : Fin 1) q) = aBz m c q := by
  have e : W6 m ρ c (Proc.devRef .tc main_v44)
      = shapeCast S1x128 (m ((c : Thread nD τ).loc main_arg8)) shapeCasts_S128_S1x128 := by
    show StableHlo.after hostOps3 (W5 m ρ c) (Proc.devRef .tc main_v44) = _
    after_results
    rw [W5_arg8_from0]
    rfl
  rw [e]
  exact shapeCast_a_1a_apply _ _ 0 q

theorem row_Br (q : Fin 128) : W6 m ρ c (Proc.devRef .tc main_v45) (ix2 (0 : Fin 1) q) = aBr m c q := by
  have e : W6 m ρ c (Proc.devRef .tc main_v45)
      = shapeCast S1x128 (m ((c : Thread nD τ).loc main_arg10)) shapeCasts_S128_S1x128 := by
    show StableHlo.after hostOps3 (W5 m ρ c) (Proc.devRef .tc main_v45) = _
    after_results
    rw [W5_arg10_from0]
    rfl
  rw [e]
  exact shapeCast_a_1a_apply _ _ 0 q

theorem row_Bc (q : Fin 128) : W6 m ρ c (Proc.devRef .tc main_v46) (ix2 (0 : Fin 1) q) = aBc m c q := by
  have e : W6 m ρ c (Proc.devRef .tc main_v46)
      = shapeCast S1x128 (m ((c : Thread nD τ).loc main_arg12)) shapeCasts_S128_S1x128 := by
    show StableHlo.after hostOps3 (W5 m ρ c) (Proc.devRef .tc main_v46) = _
    after_results
    rw [W5_arg12_from0]
    rfl
  rw [e]
  exact shapeCast_a_1a_apply _ _ 0 q

/-! ## Region 3: the gated update, and the result -/

/-- The kernel program's result array, entry by entry, from the launch arrays. -/
theorem result_value (p : Fin 50000) (q : Fin 128) :
    W7 m ρ c (Proc.devRef .tc main_v47) (ix2 p q)
      = wholeK (dinvK m c) (srcK m c) (LK m c) (aX m c) (aHd m c) (aWin m c) (aWhid m c) (aWz m c) (aWr m c) (aWc m c)
          (aBin m c) (aBhid m c) (aBz m c) (aBr m c) (aBc m c) p q := by
  have h : W7 m ρ c (Proc.devRef .tc main_v47) = (dat3 (V6 m ρ) c).arrAt 13 cfg3.N := W7_arr m ρ c 13
  rw [h]
  refine (region3_value (V6 m ρ) c (W6 m ρ c (Proc.devRef .tc main_v36)) (W1 m ρ c (Proc.devRef .tc main_v12))
    (W6 m ρ c (Proc.devRef .tc main_v43)) (m ((c : Thread nD τ).loc main_arg1))
    (W6 m ρ c (Proc.devRef .tc main_v37)) (W6 m ρ c (Proc.devRef .tc main_v38)) (W6 m ρ c (Proc.devRef .tc main_v39))
    (W6 m ρ c (Proc.devRef .tc main_v40)) (W6 m ρ c (Proc.devRef .tc main_v41)) (W6 m ρ c (Proc.devRef .tc main_v42))
    (W6 m ρ c (Proc.devRef .tc main_v44)) (W6 m ρ c (Proc.devRef .tc main_v45)) (W6 m ρ c (Proc.devRef .tc main_v46))
    rfl (W6_v12_from1 m ρ c) rfl (W6_arg1_from0 m ρ c) rfl rfl rfl rfl rfl rfl rfl rfl rfl p q).trans ?_
  simp only [agg2 m ρ c, dinvCol m ρ c, row_Bhid m ρ c, wz_top m ρ c, wz_bot m ρ c, wr_top m ρ c, wr_bot m ρ c,
    wc_top m ρ c, wc_bot m ρ c, row_Bz m ρ c, row_Br m ρ c, row_Bc m ρ c]
  rfl

end Cert.KernelIdeal.KValue

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«138680_j57123065037360_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.RefConv.lean ====
/-
  The reference's two graph convolutions, read at an index.

  One convolution of a feature table Y : [50000, 128] in the reference: every edge e gathers the row of Y that its
  source word names, scales it by the product of the two endpoint factors dinv (src e) · dinv (dst e) (each factor a
  gather of the vector dinv = rsqrt(degree) by the edge's normalised source / target word), and the scaled rows are
  summed into a zero table at the row the edge's RAW target word names. Entry (p, q) of that table is therefore

      0 + ∑ over the edges e whose raw target word is p of  Y (src e, q) · (dinv (src e) · dinv (dst e)),

  which is convR of Y at (p, q). The first layer applies this to x · W_in and adds the bias and clamps at zero; the
  second applies it to h1 · W_hid and adds the bias. The reference recomputes the normalised index columns, the
  degree vector and the raw target column for every use: they are the same functions of the edge array, so both
  layers are stated with one source map, one target map, one landing family and one dinv.
-/
import proofs.«138680_j57123065037360_2_alg».proof.Proof.Gen.ReferenceIdeal.Read
import proofs.«138680_j57123065037360_2_alg».proof.Proof.Spec
import proofs.«138680_j57123065037360_2_alg».proof.Proof.LibGatheredSums
import proofs.«138680_j57123065037360_2_alg».proof.Proof.LibScatterAddRows
import proofs.«138680_j57123065037360_2_alg».proof.Proof.LibPlainDot

noncomputable section

open scoped BigOperators

namespace Cert.ReferenceIdeal.RefValue

open Cert.ReferenceIdeal Cert.ReferenceIdeal.Gen Cert.ReferenceIdeal.Read Cert.Gcn
open Idealize.ShloMosaic Idealize.ShloMosaic.ValueIdx
open Cert.LibScatterAddRows (landing)

/-- The edge array: row 0 the source words, row 1 the target words. -/
abbrev Edges : Type := (⟨S2x600000, .i32⟩ : BufTy).Contents (Elt Ideal)
/-- A table of node features. -/
abbrev Feat : Type := (⟨S50000x128, .f32⟩ : BufTy).Contents (Elt Ideal)
/-- A 128×128 weight. -/
abbrev Wt : Type := (⟨S128x128, .f32⟩ : BufTy).Contents (Elt Ideal)
/-- A bias vector. -/
abbrev Bias : Type := (⟨S128, .f32⟩ : BufTy).Contents (Elt Ideal)

/-- The reciprocal square root of the degree vector, per node. -/
def dinvR (x2 : Edges) : Fin 50000 → EReal := fun j => val_main_v12 (F := Ideal) x2 (ix1 j)

/-- The source node of an edge: its normalised source word, clamped into the rows. -/
def srcR (x2 : Edges) : Fin 650000 → Fin 50000 := rowOf (val_main_v33 (F := Ideal) x2)

/-- The edges landing on node j: those whose raw target word, read signed, is j. -/
def LR (x2 : Edges) : Fin 50000 → Finset (Fin 650000) := fun j => landing (val_main_v39 (F := Ideal) x2) j.val

/-- The target node an edge names: its normalised target word, clamped into the rows. -/
def dstR (x2 : Edges) : Fin 650000 → Fin 50000 := rowOf (val_main_v25 (F := Ideal) x2)

/-! ## The stages the reference computes more than once are the same functions of the edge array -/

theorem v18_eq (x2 : Edges) : val_main_v18 (F := Ideal) x2 = val_main_v33 (F := Ideal) x2 := rfl
theorem v59_eq (x2 : Edges) : val_main_v59 (F := Ideal) x2 = val_main_v33 (F := Ideal) x2 := rfl
theorem v74_eq (x2 : Edges) : val_main_v74 (F := Ideal) x2 = val_main_v33 (F := Ideal) x2 := rfl
theorem v66_eq (x2 : Edges) : val_main_v66 (F := Ideal) x2 = val_main_v25 (F := Ideal) x2 := rfl
theorem v80_eq (x2 : Edges) : val_main_v80 (F := Ideal) x2 = val_main_v39 (F := Ideal) x2 := rfl
theorem v53_eq (x2 : Edges) : val_main_v53 (F := Ideal) x2 = val_main_v12 (F := Ideal) x2 := rfl

/-! ## The edge weight -/

/-- The factor gathered at the source is dinv at the source node. -/
theorem v19_at (x2 : Edges) (e : Fin 650000) :
    val_main_v19 (F := Ideal) x2 (ix1 e) = dinvR x2 (srcR x2 e) := by
  unfold val_main_v19
  rw [v18_eq]
  exact Cert.LibGatheredSums.gather_vec_at gather_S50000_S650000x1_S650000_n_0_n_n_0_1_1
    (wf := gather_S50000_S650000x1_S650000_n_0_n_n_0_1_1_wf) rfl (by norm_num)
    (val_main_v12 (F := Ideal) x2) (val_main_v33 (F := Ideal) x2) e

/-- The factor gathered at the target is dinv at the node the edge names as its target. -/
theorem v26_at (x2 : Edges) (e : Fin 650000) :
    val_main_v26 (F := Ideal) x2 (ix1 e) = dinvR x2 (dstR x2 e) := by
  unfold val_main_v26
  exact Cert.LibGatheredSums.gather_vec_at gather_S50000_S650000x1_S650000_n_0_n_n_0_1_1
    (wf := gather_S50000_S650000x1_S650000_n_0_n_n_0_1_1_wf) rfl (by norm_num)
    (val_main_v12 (F := Ideal) x2) (val_main_v25 (F := Ideal) x2) e

/-- The edge weight is the product of the two endpoint factors. -/
theorem v27_at (x2 : Edges) (e : Fin 650000) :
    val_main_v27 (F := Ideal) x2 (ix1 e) = dinvR x2 (srcR x2 e) * dinvR x2 (dstR x2 e) := by
  rw [val_main_v27_apply, Ideal.mulf_def, v19_at, v26_at]

/-- The edge weight spread over the 128 columns. -/
theorem v36_at (x2 : Edges) (e : Fin 650000) (q : Fin 128) :
    val_main_v36 (F := Ideal) x2 (ix2 e q) = dinvR x2 (srcR x2 e) * dinvR x2 (dstR x2 e) := by
  unfold val_main_v36 val_main_v35
  rw [Cert.LibGatheredSums.spread_apply (val_main_v27 (F := Ideal) x2) bcast_S650000_S650000x1_0
    bcast_S650000x1_S650000x128_0_1 e q, v27_at]

/-! ## One convolution of a feature table -/

/-- The zero table the scaled rows are summed into. -/
theorem v38_at (p : Fin 50000) (q : Fin 128) : val_main_v38 (F := Ideal) (ix2 p q) = 0 := by
  rw [val_main_v38_apply, val_main_cst_6_apply]
  exact Ideal.ofBits_zero_f32

/-- The reference's convolution of a feature table Y: gather the source rows, scale by the edge weight, sum into the
    zero table by the raw target word. -/
def convTable (Y : Feat) (x2 : Edges) : Feat :=
  Host.scatterAdd (F := Ideal) (φ := .f32) scatter_S50000x128_S650000x1_S650000x128_1_0_0_1 (val_main_v38 (F := Ideal))
    (val_main_v39 (F := Ideal) x2)
    (mulf (F := Ideal) (φ := .f32) (Host.gather gather_S50000x128_S650000x1_S650000x128_1_0_n_n_0_1_1128 Y (val_main_v33 (F := Ideal) x2))
      (val_main_v36 (F := Ideal) x2))

/-- Entry (p, q) of the convolution is convR of the table at (p, q). -/
theorem convTable_at (Y : Feat) (x2 : Edges) (p : Fin 50000) (q : Fin 128) :
    convTable Y x2 (ix2 p q)
      = convR (dinvR x2) (srcR x2) (LR x2) (dstR x2) (fun r c => Y (ix2 r c)) p q := by
  unfold convTable
  refine (Cert.LibScatterAddRows.scatterAdd_rows_apply (φ := .f32) scatter_S50000x128_S650000x1_S650000x128_1_0_0_1_wf
    (val_main_v39 (F := Ideal) x2) scatter_S50000x128_S650000x1_S650000x128_1_0_0_1 rfl
    (val_main_v38 (F := Ideal))
    (mulf (F := Ideal) (φ := .f32)
      (Host.gather gather_S50000x128_S650000x1_S650000x128_1_0_n_n_0_1_1128 Y (val_main_v33 (F := Ideal) x2))
      (val_main_v36 (F := Ideal) x2)) p q).trans ?_
  rw [v38_at, zero_add]
  show _ = ∑ e ∈ landing (val_main_v39 (F := Ideal) x2) p.val,
    Y (ix2 (srcR x2 e) q) * (dinvR x2 (srcR x2 e) * dinvR x2 (dstR x2 e))
  refine Finset.sum_congr rfl fun e _ => ?_
  rw [mulf_apply, v36_at, Cert.LibGatheredSums.gather_rows_at gather_S50000x128_S650000x1_S650000x128_1_0_n_n_0_1_1128
    (wf := gather_S50000x128_S650000x1_S650000x128_1_0_n_n_0_1_1128_wf) rfl (by norm_num) Y
    (val_main_v33 (F := Ideal) x2) e q]
  rfl

/-! ## The two layers -/

/-- The first layer's table is the convolution of x · W_in. -/
theorem v40_eq (x0 : Feat) (x2 : Edges) (x3 : Wt) :
    val_main_v40 (F := Ideal) x0 x2 x3 = convTable (val_main_v4 (F := Ideal) x0 x3) x2 := rfl

/-- The second layer's table is the convolution of h1 · W_hid. -/
theorem v81_eq (x0 : Feat) (x2 : Edges) (x3 : Wt) (x4 : Bias) (x5 : Wt) :
    val_main_v81 (F := Ideal) x0 x2 x3 x4 x5 = convTable (val_main_v45 (F := Ideal) x0 x2 x3 x4 x5) x2 := rfl

/-- x · W_in at (r, q). -/
theorem v4_at (x0 : Feat) (x3 : Wt) (r : Fin 50000) (q : Fin 128) :
    val_main_v4 (F := Ideal) x0 x3 (ix2 r q) = mm (fun p k => x0 (ix2 p k)) (fun k q => x3 (ix2 k q)) r q := by
  unfold val_main_v4
  exact Cert.LibPlainDot.dot_plain_apply dot_S50000x128_S128x128_S50000x128_1_0_0_1_n_n rfl none x0 x3 r q

/-- h1 · W_hid at (r, q). -/
theorem v45_at (x0 : Feat) (x2 : Edges) (x3 : Wt) (x4 : Bias) (x5 : Wt) (r : Fin 50000) (q : Fin 128) :
    val_main_v45 (F := Ideal) x0 x2 x3 x4 x5 (ix2 r q)
      = mm (fun p k => val_main_v44 (F := Ideal) x0 x2 x3 x4 (ix2 p k)) (fun k q => x5 (ix2 k q)) r q := by
  unfold val_main_v45
  exact Cert.LibPlainDot.dot_plain_apply dot_S50000x128_S128x128_S50000x128_1_0_0_1_n_n rfl none
    (val_main_v44 (F := Ideal) x0 x2 x3 x4) x5 r q

/-- A bias spread over the rows, at (p, q). -/
theorem v42_at (x4 : Bias) (p : Fin 50000) (q : Fin 128) : val_main_v42 (F := Ideal) x4 (ix2 p q) = x4 (ix1 q) := by
  rw [val_main_v42_apply, val_main_v41_apply]
  exact congrArg x4 (funext fun a => Fin.ext (by match a with | ⟨0, _⟩ => rfl))

theorem v83_at (x6 : Bias) (p : Fin 50000) (q : Fin 128) : val_main_v83 (F := Ideal) x6 (ix2 p q) = x6 (ix1 q) := by
  rw [val_main_v83_apply, val_main_v82_apply]
  exact congrArg x6 (funext fun a => Fin.ext (by match a with | ⟨0, _⟩ => rfl))

/-- The zero the first layer is clamped at. -/
theorem relu_zero_at (p : Fin 50000) (q : Fin 128) : val_main_call0_v0 (F := Ideal) (ix2 p q) = 0 := by
  rw [val_main_call0_v0_apply, val_main_call0_cst_apply]
  exact Ideal.ofBits_zero_f32

/-- THE FIRST LAYER at (p, q): the convolution of x · W_in, the bias added, clamped at zero. -/
theorem ref_hidden (x0 : Feat) (x2 : Edges) (x3 : Wt) (x4 : Bias) (p : Fin 50000) (q : Fin 128) :
    val_main_v44 (F := Ideal) x0 x2 x3 x4 (ix2 p q)
      = hidden (convR (dinvR x2) (srcR x2) (LR x2) (dstR x2)
          (mm (fun p k => x0 (ix2 p k)) (fun k q => x3 (ix2 k q)))) (fun q => x4 (ix1 q)) p q := by
  rw [val_main_v44_apply, val_main_v43_apply, Ideal.maximumf_def, Ideal.addf_def, relu_zero_at, v42_at, v40_eq,
    convTable_at]
  have hY : (fun r c => val_main_v4 (F := Ideal) x0 x3 (ix2 r c))
      = mm (fun p k => x0 (ix2 p k)) (fun k q => x3 (ix2 k q)) := funext fun r => funext fun c => v4_at x0 x3 r c
  rw [hY]
  rfl

/-- THE SECOND LAYER at (p, q): the convolution of h1 · W_hid, the bias added. -/
theorem ref_embed (x0 : Feat) (x2 : Edges) (x3 : Wt) (x4 : Bias) (x5 : Wt) (x6 : Bias) (p : Fin 50000) (q : Fin 128) :
    val_main_v84 (F := Ideal) x0 x2 x3 x4 x5 x6 (ix2 p q)
      = embed (convR (dinvR x2) (srcR x2) (LR x2) (dstR x2)
          (mm (fun p k => val_main_v44 (F := Ideal) x0 x2 x3 x4 (ix2 p k)) (fun k q => x5 (ix2 k q))))
          (fun q => x6 (ix1 q)) p q := by
  rw [val_main_v84_apply, Ideal.addf_def, v83_at, v81_eq, convTable_at]
  have hY : (fun r c => val_main_v45 (F := Ideal) x0 x2 x3 x4 x5 (ix2 r c))
      = mm (fun p k => val_main_v44 (F := Ideal) x0 x2 x3 x4 (ix2 p k)) (fun k q => x5 (ix2 k q)) :=
    funext fun r => funext fun c => v45_at x0 x2 x3 x4 x5 r c
  rw [hY]
  rfl

end Cert.ReferenceIdeal.RefValue

end
-- ==== Proof.LibSideBySide.lean ====
/-
  Two arrays laid side by side, read at an index, and a one-column matrix turned into a one-row matrix.

  A program that wants one matrix product to serve two layers keeps the two weight matrices side by side in one array
  (a concatenation along the columns) and the two bias vectors end to end in one vector. Read at an index, the pair is
  its left piece where the coordinate along the joined axis is below the left piece's extent `a`, and its right piece,
  at that coordinate less `a`, from `a` on. Stated for any two `r × a` matrices (columns `j` and `a + j` of the pair)
  and any two vectors of length `a` (positions `j` and `a + j`); the position in the pair is a parameter `J` with its
  value given, so that a caller's own injection into the pair's columns fits by `rfl`.
  A shape cast keeps row-major positions: entry `(q, 0)` of an `a × 1` column and entry `(0, q)` of the `1 × a` row it is
  cast to both sit at position `q`.
-/
import Idealize.ShloMosaic.Lib.Pipeline.Value
import Idealize.ShloMosaic.Lib.ValueIdx
import Idealize.ShloMosaic.Lib.ValueLayout

namespace Cert.LibSideBySide

open Idealize.ShloMosaic Idealize.ShloMosaic.ValueIdx

variable {α : Type}

/-! ## Two pieces side by side -/

/-- Column `j` of the left of two `r × a` matrices laid side by side. -/
theorem pair_cols_left {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = j.val) :
    concatenate ⟨2, ![r, t]⟩ 1 [⟨⟨2, ![r, a]⟩, x₁⟩, ⟨⟨2, ![r, a]⟩, x₂⟩] h (ix2 k J) = x₁ (ix2 k j) :=
  concatenate_pair_apply_left 1 x₁ x₂ h (ix2 k J) rfl (ix2 k j) (fun b => by
    match b with
    | ⟨0, _⟩ => rfl
    | ⟨1, _⟩ => exact hJ.symm)

/-- Column `j` of the right of two `r × a` matrices laid side by side sits at column `a + j` of the pair. -/
theorem pair_cols_right {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = a + j.val) :
    concatenate ⟨2, ![r, t]⟩ 1 [⟨⟨2, ![r, a]⟩, x₁⟩, ⟨⟨2, ![r, a]⟩, x₂⟩] h (ix2 k J) = x₂ (ix2 k j) :=
  concatenate_pair_apply_right 1 x₁ x₂ h (ix2 k J) rfl rfl (ix2 k j) (fun b hb => by
    match b with
    | ⟨0, _⟩ => rfl
    | ⟨1, _⟩ => exact absurd rfl hb) (by
    show j.val + a = J.val
    omega)

/-- Entry `j` of the first of two vectors of length `a` laid end to end. -/
theorem pair_vec_left {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = j.val) :
    concatenate ⟨1, ![t]⟩ 0 [⟨⟨1, ![a]⟩, x₁⟩, ⟨⟨1, ![a]⟩, x₂⟩] h (ix1 J) = x₁ (ix1 j) :=
  concatenate_pair_apply_left 0 x₁ x₂ h (ix1 J) rfl (ix1 j) (fun b => by
    match b with
    | ⟨0, _⟩ => exact hJ.symm)

/-- Entry `j` of the second of two vectors of length `a` laid end to end sits at position `a + j`. -/
theorem pair_vec_right {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = a + j.val) :
    concatenate ⟨1, ![t]⟩ 0 [⟨⟨1, ![a]⟩, x₁⟩, ⟨⟨1, ![a]⟩, x₂⟩] h (ix1 J) = x₂ (ix1 j) :=
  concatenate_pair_apply_right 0 x₁ x₂ h (ix1 J) rfl rfl (ix1 j) (fun b hb => by
    match b with
    | ⟨0, _⟩ => exact absurd rfl hb) (by
    show j.val + a = J.val
    omega)

/-- A one-column matrix cast to a one-row matrix: entry `(0, q)` of the row is entry `(q, 0)` of the column. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    omega)

end Cert.LibSideBySide
-- ==== Proof.RefGate.lean ====
/-
  The idealized reference's gated update (its operations %85 … %117), read at an entry `(p, q)`.

  The reference lays the embedding `E` (operation %84) and the previous state `H` side by side into one 50000 × 256
  matrix `[E, H]` and multiplies it by a 256 × 128 weight `W`.  Column `k < 128` of the pair is column `k` of `E` and
  column `128 + k` is column `k` of `H`, so the 256-term contraction at `(p, q)` is
  `∑ k < 128, E p k · W k q  +  ∑ k < 128, H p k · W (128 + k) q`: a dense layer on `[E, H]` with the weight's first
  and last 128 rows (`Cert.Gcn.top W`, `Cert.Gcn.bot W`), i.e. `Cert.Gcn.lin2` once the bias row is added.

  The update gate `z` and the reset gate `r` are the logistic function of such a layer, spelled `1 / (1 + exp (-l))`
  with the single-precision literal `1.0`; that literal is the real number one, and the spelling is then the
  definition of the logistic function on the extended reals.  The candidate is the hyperbolic tangent of a third
  layer, on `[E, r · H]`; the result is `(1 - z) · H + z · candidate`, again with the literal `1.0`.  Together this is
  `Cert.Gcn.gru` of `E`, `H`, the three weights and the three biases.
-/
import proofs.«138680_j57123065037360_2_alg».proof.Proof.Gen.ReferenceIdeal.Read
import proofs.«138680_j57123065037360_2_alg».proof.Proof.Spec
import proofs.«138680_j57123065037360_2_alg».proof.Proof.LibSideBySide
import proofs.«138680_j57123065037360_2_alg».proof.Proof.LibPlainDot
import proofs.«138680_j57123065037360_2_alg».proof.Proof.LibLogistic

noncomputable section

open scoped BigOperators

namespace Cert.ReferenceIdeal.RefValue

open Cert.ReferenceIdeal Cert.ReferenceIdeal.Gen Cert.ReferenceIdeal.Read Cert.Gcn
open Idealize.ShloMosaic Idealize.ShloMosaic.ValueIdx

/-! ## The 256-term contraction of a side-by-side pair -/

/-- A sum over 256 indices is the sum over the first 128 plus the sum over the last 128. -/
theorem sum_fin256 (f : Fin 256 → EReal) :
    ∑ k : Fin 256, f k = ∑ k : Fin 128, f ⟨k.val, by omega⟩ + ∑ k : Fin 128, f ⟨128 + k.val, by omega⟩ :=
  Fin.sum_univ_add (a := 128) (b := 128) f

/-- The product of the pair `[A, B]` (two 50000 × 128 matrices side by side) with a 256 × 128 weight, at `(p, q)`:
    `A`'s row against the weight's first 128 rows plus `B`'s row against its last 128 rows. -/
theorem pair_dot (A B : FVec Ideal S50000x128 .f32) (W : FVec Ideal S256x128 .f32)
    (h : Shape.Concatenates [S50000x128, S50000x128] S50000x256 1)
    (D : DotDims S50000x256 S256x128 S50000x128) (hD : D = DotDims.plain 50000 256 128)
    (p : Fin 50000) (q : Fin 128) :
    Host.dotGeneral (F := Ideal) D none
        (concatenate S50000x256 1 [⟨S50000x128, A⟩, ⟨S50000x128, B⟩] h) W (ix2 p q)
      = (∑ k : Fin 128, A (ix2 p k) * top (fun k q => W (ix2 k q)) k q)
        + (∑ k : Fin 128, B (ix2 p k) * bot (fun k q => W (ix2 k q)) k q) := by
  rw [Cert.LibPlainDot.dot_plain_apply D hD none _ W p q, sum_fin256]
  congr 1
  · refine Finset.sum_congr rfl fun k _ => ?_
    rw [Cert.LibSideBySide.pair_cols_left A B h p k ⟨k.val, by omega⟩ rfl]
    rfl
  · refine Finset.sum_congr rfl fun k _ => ?_
    rw [Cert.LibSideBySide.pair_cols_right A B h p k ⟨128 + k.val, by omega⟩ rfl]
    rfl

/-! ## The logistic function as the reference spells it -/

/-- `1.0 / (1.0 + exp (-l))`, the ones the single-precision literal, is the logistic function of `l`. -/
theorem logistic_spelled (l : EReal) :
    Ideal.div (Ideal.ofBits .f32 0x3F800000#32) (Ideal.ofBits .f32 0x3F800000#32 + Ideal.exp (-l))
      = Ideal.logistic l := by
  rw [Cert.LibLogistic.ofBits_one, EReal.coe_one]
  rfl

/-! ## The three bias rows, broadcast to every row -/

/-- The update gate's bias at `(p, q)` is entry `q` of the bias vector. -/
theorem v88_at (b : FVec Ideal S128 .f32) (p : Fin 50000) (q : Fin 128) :
    val_main_v88 (F := Ideal) b (ix2 p q) = b (ix1 q) := by
  rw [val_main_v88_apply, val_main_v87_apply]
  exact congrArg b (funext fun a => match a with | ⟨0, _⟩ => rfl)

/-- The reset gate's bias at `(p, q)` is entry `q` of the bias vector. -/
theorem v98_at (b : FVec Ideal S128 .f32) (p : Fin 50000) (q : Fin 128) :
    val_main_v98 (F := Ideal) b (ix2 p q) = b (ix1 q) := by
  rw [val_main_v98_apply, val_main_v97_apply]
  exact congrArg b (funext fun a => match a with | ⟨0, _⟩ => rfl)

/-- The candidate's bias at `(p, q)` is entry `q` of the bias vector. -/
theorem v110_at (b : FVec Ideal S128 .f32) (p : Fin 50000) (q : Fin 128) :
    val_main_v110 (F := Ideal) b (ix2 p q) = b (ix1 q) := by
  rw [val_main_v110_apply, val_main_v109_apply]
  exact congrArg b (funext fun a => match a with | ⟨0, _⟩ => rfl)

/-! ## The gates -/

section Gates

variable (x0 x1 : FVec Ideal S50000x128 .f32) (x2 : IVec S2x600000 32)
  (x3 : FVec Ideal S128x128 .f32) (x4 : FVec Ideal S128 .f32) (x5 : FVec Ideal S128x128 .f32)
  (x6 : FVec Ideal S128 .f32) (x7 : FVec Ideal S256x128 .f32) (x8 : FVec Ideal S128 .f32)
  (x9 : FVec Ideal S256x128 .f32) (x10 : FVec Ideal S128 .f32) (x11 : FVec Ideal S256x128 .f32)
  (x12 : FVec Ideal S128 .f32)

/-- The update gate's dense layer on `[E, H]`. -/
theorem v89_at (p : Fin 50000) (q : Fin 128) :
    val_main_v89 (F := Ideal) x0 x1 x2 x3 x4 x5 x6 x7 x8 (ix2 p q)
      = lin2 (fun p k => val_main_v84 (F := Ideal) x0 x2 x3 x4 x5 x6 (ix2 p k)) (fun p k => x1 (ix2 p k))
          (top (fun k q => x7 (ix2 k q))) (bot (fun k q => x7 (ix2 k q))) (fun q => x8 (ix1 q)) p q := by
  show val_main_v86 (F := Ideal) x0 x1 x2 x3 x4 x5 x6 x7 (ix2 p q) + val_main_v88 (F := Ideal) x8 (ix2 p q) = _
  rw [v88_at]
  unfold val_main_v86 val_main_v85
  rw [pair_dot _ _ _ _ dot_S50000x256_S256x128_S50000x128_1_0_0_1_n_n rfl p q]
  rfl

/-- The update gate `z`. -/
theorem v95_at (p : Fin 50000) (q : Fin 128) :
    val_main_v95 (F := Ideal) x0 x1 x2 x3 x4 x5 x6 x7 x8 (ix2 p q)
      = Ideal.logistic (lin2 (fun p k => val_main_v84 (F := Ideal) x0 x2 x3 x4 x5 x6 (ix2 p k))
          (fun p k => x1 (ix2 p k)) (top (fun k q => x7 (ix2 k q))) (bot (fun k q => x7 (ix2 k q)))
          (fun q => x8 (ix1 q)) p q) := by
  rw [← v89_at x0 x1 x2 x3 x4 x5 x6 x7 x8 p q, val_main_v95_apply, val_main_v94_apply, val_main_cst_17_apply,
    val_main_v93_apply, val_main_v92_apply, val_main_cst_16_apply, val_main_v91_apply, val_main_v90_apply]
  simp only [Ideal.ofBits_def, Ideal.hostDivf_def, Ideal.addf_def, Ideal.hostUnary_exp_def, Ideal.hostNegf_def,
    Ideal.negf_def, logistic_spelled]

/-- The reset gate's dense layer on `[E, H]`. -/
theorem v99_at (p : Fin 50000) (q : Fin 128) :
    val_main_v99 (F := Ideal) x0 x1 x2 x3 x4 x5 x6 x9 x10 (ix2 p q)
      = lin2 (fun p k => val_main_v84 (F := Ideal) x0 x2 x3 x4 x5 x6 (ix2 p k)) (fun p k => x1 (ix2 p k))
          (top (fun k q => x9 (ix2 k q))) (bot (fun k q => x9 (ix2 k q))) (fun q => x10 (ix1 q)) p q := by
  show val_main_v96 (F := Ideal) x0 x1 x2 x3 x4 x5 x6 x9 (ix2 p q) + val_main_v98 (F := Ideal) x10 (ix2 p q) = _
  rw [v98_at]
  unfold val_main_v96 val_main_v85
  rw [pair_dot _ _ _ _ dot_S50000x256_S256x128_S50000x128_1_0_0_1_n_n rfl p q]
  rfl

/-- The reset gate times the previous state, `r · H`. -/
theorem v106_at (p : Fin 50000) (k : Fin 128) :
    val_main_v106 (F := Ideal) x0 x1 x2 x3 x4 x5 x6 x9 x10 (ix2 p k)
      = Ideal.logistic (lin2 (fun p k => val_main_v84 (F := Ideal) x0 x2 x3 x4 x5 x6 (ix2 p k))
          (fun p k => x1 (ix2 p k)) (top (fun k q => x9 (ix2 k q))) (bot (fun k q => x9 (ix2 k q)))
          (fun q => x10 (ix1 q)) p k) * x1 (ix2 p k) := by
  rw [← v99_at x0 x1 x2 x3 x4 x5 x6 x9 x10 p k, val_main_v106_apply, val_main_v105_apply, val_main_v104_apply,
    val_main_cst_19_apply, val_main_v103_apply, val_main_v102_apply, val_main_cst_18_apply, val_main_v101_apply,
    val_main_v100_apply]
  simp only [Ideal.ofBits_def, Ideal.mulf_def, Ideal.hostDivf_def, Ideal.addf_def, Ideal.hostUnary_exp_def,
    Ideal.hostNegf_def, Ideal.negf_def, logistic_spelled]

/-- The candidate: the hyperbolic tangent of the dense layer on `[E, r · H]`. -/
theorem v112_at (p : Fin 50000) (q : Fin 128) :
    val_main_v112 (F := Ideal) x0 x1 x2 x3 x4 x5 x6 x9 x10 x11 x12 (ix2 p q)
      = Ideal.tanh (lin2 (fun p k => val_main_v84 (F := Ideal) x0 x2 x3 x4 x5 x6 (ix2 p k))
          (fun p k => Ideal.logistic (lin2 (fun p k => val_main_v84 (F := Ideal) x0 x2 x3 x4 x5 x6 (ix2 p k))
            (fun p k => x1 (ix2 p k)) (top (fun k q => x9 (ix2 k q))) (bot (fun k q => x9 (ix2 k q)))
            (fun q => x10 (ix1 q)) p k) * x1 (ix2 p k))
          (top (fun k q => x11 (ix2 k q))) (bot (fun k q => x11 (ix2 k q))) (fun q => x12 (ix1 q)) p q) := by
  rw [val_main_v112_apply, val_main_v111_apply, v110_at]
  unfold val_main_v108 val_main_v107
  rw [pair_dot _ _ _ _ dot_S50000x256_S256x128_S50000x128_1_0_0_1_n_n rfl p q]
  simp only [v106_at, Ideal.hostUnary_tanh_def, Ideal.addf_def]
  rfl

/-- The reference's gated update at `(p, q)` is the gated update of the specification. -/
theorem ref_gru (p : Fin 50000) (q : Fin 128) :
    val_main_v117 (F := Ideal) x0 x1 x2 x3 x4 x5 x6 x7 x8 x9 x10 x11 x12 (ix2 p q)
      = gru (fun p k => val_main_v84 (F := Ideal) x0 x2 x3 x4 x5 x6 (ix2 p k)) (fun p k => x1 (ix2 p k))
          (fun k q => x7 (ix2 k q)) (fun k q => x9 (ix2 k q)) (fun k q => x11 (ix2 k q))
          (fun q => x8 (ix1 q)) (fun q => x10 (ix1 q)) (fun q => x12 (ix1 q)) p q := by
  rw [val_main_v117_apply, val_main_v115_apply, val_main_v116_apply, val_main_v114_apply, val_main_v113_apply,
    val_main_cst_20_apply, v95_at, v112_at]
  show (Ideal.ofBits .f32 0x3F800000#32 - _) * x1 (ix2 p q) + _ * _ = _
  rw [Cert.LibLogistic.ofBits_one, EReal.coe_one]
  rfl

end Gates

end Cert.ReferenceIdeal.RefValue

end
-- ==== Proof.LibConcatVec.lean ====
/-
  Two host operations on vectors read at an index: the concatenation of two vectors, and the index vector
  `0, 1, …, N − 1`.

  The concatenation of `a : [A]` and `b : [B]` along their only axis is a vector of `A + B` entries: at a position
  `p < A` it reads `a p`, and at a position `p = A + j` with `j < B` it reads `b j`. The statements take the result's
  extent as a separate number `C` (the side condition of the concatenation says `A + B = C`) and a position `p : Fin C`
  together with the position in the piece and the equation that relates the two, so that at literal extents the
  equation is closed by `rfl` or by linear arithmetic.

  The index vector of `N` entries of 32-bit words holds at position `j` the word of `j`. For `N ≤ 2 ^ 31` that word,
  read as a signed integer, is `j` itself; in particular it is not negative, so a signed comparison "less than zero"
  fails on it, and clamping it into `[0, N − 1]` leaves it where it is.
-/
import Idealize.ShloMosaic.Lib.ValueIdx
import Idealize.ShloMosaic.Lib.Affine
import Idealize.ShloMosaic.Lib.Pipeline.Value
import proofs.«138680_j57123065037360_2_alg».proof.Proof.LibGatherRows

noncomputable section

namespace Cert.LibConcatVec

open Idealize.ShloMosaic Idealize.ShloMosaic.ValueIdx
open Cert.LibGatherRows (clampRow)

/-! ## The concatenation of two vectors -/

section Concat
variable {α : Type} {A B C : ℕ}
  (h : Shape.Concatenates [(⟨1, ![A]⟩ : Shape), (⟨1, ![B]⟩ : Shape)] ⟨1, ![C]⟩ 0)
  (a : (⟨1, ![A]⟩ : Shape).Idx → α) (b : (⟨1, ![B]⟩ : Shape).Idx → α)

include h in
/-- The side condition of the concatenation: the result's extent is the sum of the pieces'. -/
theorem concat_vec_size : A + B = C := by
  have e := h.2.2
  simpa using e

/-- At a position `p` that is a position `k` of the first vector, the concatenation reads the first vector at `k`. -/
theorem concat_vec_left (p : Fin C) (k : Fin A) (hp : p.val = k.val) :
    concatenate ⟨1, ![C]⟩ 0 [⟨⟨1, ![A]⟩, a⟩, ⟨⟨1, ![B]⟩, b⟩] h (ix1 p) = a (ix1 k) := by
  refine concatenate_pair_apply_left 0 a b h (ix1 p) rfl (ix1 k) ?_
  intro c
  match c with
  | ⟨0, _⟩ => exact hp.symm

/-- At a position `p = A + j`, `j` a position of the second vector, the concatenation reads the second vector at
    `j`. -/
theorem concat_vec_right (p : Fin C) (j : Fin B) (hp : p.val = A + j.val) :
    concatenate ⟨1, ![C]⟩ 0 [⟨⟨1, ![A]⟩, a⟩, ⟨⟨1, ![B]⟩, b⟩] h (ix1 p) = b (ix1 j) := by
  refine concatenate_pair_apply_right 0 a b h (ix1 p) rfl rfl (ix1 j) ?_ ?_
  · intro c hc
    match c with
    | ⟨0, _⟩ => exact absurd rfl hc
  · show j.val + A = p.val
    omega

/-- The concatenation at any position: the first vector below `A`, the second vector, shifted by `A`, from `A` on. -/
theorem concat_vec_apply (p : Fin C) :
    concatenate ⟨1, ![C]⟩ 0 [⟨⟨1, ![A]⟩, a⟩, ⟨⟨1, ![B]⟩, b⟩] h (ix1 p)
      = if hlt : p.val < A then a (ix1 ⟨p.val, hlt⟩)
        else b (ix1 ⟨p.val - A, by have := concat_vec_size h; have := p.isLt; omega⟩) := by
  split
  · next hlt => exact concat_vec_left h a b p ⟨p.val, hlt⟩ rfl
  · next hge =>
    exact concat_vec_right h a b p ⟨p.val - A, by have := concat_vec_size h; have := p.isLt; omega⟩
      (by show p.val = A + (p.val - A); omega)

end Concat

/-! ## The index vector `0, 1, …, N − 1` of 32-bit words -/

section Iota
variable {N : ℕ}

/-- Entry `j` of the index vector is the 32-bit word of `j`. -/
theorem iota_vec_apply (j : Fin N) : iotaInDim ⟨1, ![N]⟩ 32 0 (ix1 j) = BitVec.ofNat 32 j.val := rfl

/-- For at most `2 ^ 31` entries the word of `j`, read signed, is `j`. -/
theorem ofNat_toInt (hN : N ≤ 2 ^ 31) (j : Fin N) : (BitVec.ofNat 32 j.val).toInt = (j.val : ℤ) := by
  have hj : j.val < 2 ^ 31 := lt_of_lt_of_le j.isLt hN
  have hmod : j.val % 2 ^ 32 = j.val := Nat.mod_eq_of_lt (by omega)
  rw [BitVec.toInt_eq_toNat_of_lt (by rw [BitVec.toNat_ofNat, hmod]; omega), BitVec.toNat_ofNat, hmod]

/-- For at most `2 ^ 31` entries, entry `j` of the index vector read signed is `j`. -/
theorem iota_vec_toInt (hN : N ≤ 2 ^ 31) (j : Fin N) :
    (iotaInDim ⟨1, ![N]⟩ 32 0 (ix1 j)).toInt = (j.val : ℤ) := by
  rw [iota_vec_apply, ofNat_toInt hN j]

/-- A word whose signed value is a natural number is not signed-less-than zero: the comparison's word is not one. -/
theorem not_slt_zero_of_toInt {v : BitVec 32} {n : ℕ} (hv : v.toInt = (n : ℤ)) : IntOp.cmpi .slt v 0#32 ≠ 1#1 := by
  rw [Ne, IntOp.cmpi_slt, hv, show (0#32 : BitVec 32).toInt = 0 from rfl]
  omega

/-- The same as the comparison's word being zero. -/
theorem slt_zero_of_toInt {v : BitVec 32} {n : ℕ} (hv : v.toInt = (n : ℤ)) : IntOp.cmpi .slt v 0#32 = 0#1 := by
  have hne := not_slt_zero_of_toInt hv
  generalize IntOp.cmpi .slt v 0#32 = c at hne ⊢
  revert c; decide

/-- Entry `j` of the index vector is not signed-less-than zero. -/
theorem iota_vec_not_slt_zero (hN : N ≤ 2 ^ 31) (j : Fin N) :
    IntOp.cmpi .slt (iotaInDim ⟨1, ![N]⟩ 32 0 (ix1 j)) 0#32 ≠ 1#1 :=
  not_slt_zero_of_toInt (iota_vec_toInt hN j)

/-- The same as the comparison's word being zero. -/
theorem iota_vec_slt_zero (hN : N ≤ 2 ^ 31) (j : Fin N) :
    IntOp.cmpi .slt (iotaInDim ⟨1, ![N]⟩ 32 0 (ix1 j)) 0#32 = 0#1 :=
  slt_zero_of_toInt (iota_vec_toInt hN j)

/-- A word whose signed value is a position `j < N` is clamped into `[0, N − 1]` to `j` itself. -/
theorem clampRow_of_toInt {w : ℕ} (hN : 0 < N) (v : BitVec w) (j : Fin N) (hv : v.toInt = (j.val : ℤ)) :
    clampRow N hN v = j := by
  refine Fin.ext ?_
  show min v.toInt.toNat (N - 1) = j.val
  have := j.isLt
  rw [hv]
  omega

end Iota

end Cert.LibConcatVec

end
-- ==== Proof.LibScatterAddVec.lean ====
/-
  An accumulating scatter `x.at[idx].add(u)` of a vector `x : [N]` on the host, on the extended reals, read at an
  index.

  Summing the entries of `u : [E]` into the entries of `x` that an integer vector `idx` names lowers to a scatter
  whose body is an addition, with one inserted window axis (the vector's only axis), no update window axis (each
  scatter index carries one scalar) and a trailing index-vector axis of extent one on the scatter indices. Update
  entry `e` lands on entry `i` of the vector exactly when the scatter index `idx (e, 0)`, read as a signed integer,
  is `i`; an index outside `[0, N)` lands nowhere and its entry is dropped. So entry `i` of the result is

      x i + ∑ over the e with idx (e, 0) = i of u e,

  the sum running over the same set of positions as for a table of rows scattered by the same indices.
  The statement takes the dimension numbers as a record built from the literal lists; a printed record with the same
  lists is equal to it by `rfl`.
-/
import Idealize.ShloMosaic.PureOps.Ideal.Laws
import Idealize.ShloMosaic.Lib.ValueIdx
import proofs.«138680_j57123065037360_2_alg».proof.Proof.LibScatterAddRows

noncomputable section

open scoped BigOperators

namespace Cert.LibScatterAddVec

open Idealize.ShloMosaic Idealize.ShloMosaic.ValueIdx
open Cert.LibScatterAddRows (landing)

/-- The dimension numbers of `x.at[idx].add(u)` for a vector `[N]`, scatter indices `[E, 1]`, updates `[E]`. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : ℕ} (wf : ScatterDims.WF ⟨1, ![N]⟩ ⟨2, ![E, 1]⟩ ⟨1, ![E]⟩ [] [0] [0] 1)
  (idx : IVec ⟨2, ![E, 1]⟩ w) (e : Fin E)

/-- On the vector's axis the window starts at the scatter index `idx (e, 0)`, read signed. -/
theorem start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem zero_not_mem_sKept : (0 : Fin 1) ∉ (vecDims N E wf).sKept := by
  simp [ScatterDims.sKept, Shape.kept]

/-- The vector's axis is inserted: the window coordinate there is zero. -/
theorem window_zero : (vecDims N E wf).window (ix1 e) 0 = 0 := by
  unfold ScatterDims.window
  rw [dif_neg (zero_not_mem_sKept wf)]

end Coordinates

section Landing
variable {N E w : ℕ} (wf : ScatterDims.WF ⟨1, ![N]⟩ ⟨2, ![E, 1]⟩ ⟨1, ![E]⟩ [] [0] [0] 1)
  (idx : IVec ⟨2, ![E, 1]⟩ w)

/-- Update entry `e` lands on entry `i` of the vector exactly when its scatter index, read signed, is `i`. -/
theorem resultIdx?_vec (e : Fin E) (i : Fin N) :
    (vecDims N E wf).resultIdx? (ix1 e) idx = some (ix1 i) ↔ (idx (ix2 e (0 : Fin 1))).toInt = (i.val : ℤ) := by
  unfold ScatterDims.resultIdx?
  split
  · rename_i h
    rw [Option.some.injEq]
    have hr := h 0
    rw [start_zero, window_zero] at hr
    constructor
    · intro hf
      have h0 : ((vecDims N E wf).start (ix1 e) idx 0 + ((vecDims N E wf).window (ix1 e) 0 : ℕ)).toNat = i.val :=
        congrArg (fun f => (f 0).val) hf
      rw [start_zero, window_zero] at h0
      omega
    · intro h0
      funext a
      refine Fin.ext ?_
      match a with
      | ⟨0, _⟩ =>
        show ((vecDims N E wf).start (ix1 e) idx 0 + ((vecDims N E wf).window (ix1 e) 0 : ℕ)).toNat = i.val
        rw [start_zero, window_zero]; omega
  · rename_i h
    constructor
    · intro hf; exact absurd hf (by simp)
    · intro h0
      exfalso
      apply h
      intro a
      match a with
      | ⟨0, _⟩ =>
        show 0 ≤ (vecDims N E wf).start (ix1 e) idx 0 + ((vecDims N E wf).window (ix1 e) 0 : ℕ)
          ∧ (vecDims N E wf).start (ix1 e) idx 0 + ((vecDims N E wf).window (ix1 e) 0 : ℕ) < (N : ℤ)
        rw [start_zero, window_zero, h0]
        have := i.isLt
        constructor <;> omega

/-- THE ACCUMULATING SCATTER READ AT `i`: the vector's entry plus the updates summed over the positions whose
    scatter index is `i`. -/
theorem hostScatterAdd_vec_apply (x : (⟨1, ![N]⟩ : Shape).Idx → EReal) (upd : (⟨1, ![E]⟩ : Shape).Idx → EReal)
    (i : Fin N) :
    Ideal.hostScatterAdd (vecDims N E wf) x idx upd (ix1 i) = x (ix1 i) + ∑ e ∈ landing idx i.val, upd (ix1 e) := by
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultIdx?_vec wf idx e i).mp (Finset.mem_filter.mp hj).2⟩
  · intro e he
    exact Finset.mem_filter.mpr ⟨Finset.mem_univ _, (resultIdx?_vec wf idx e i).mpr (Finset.mem_filter.mp he).2⟩
  · intro j _
    exact (eq_ix1 j).symm
  · intro e _
    rfl
  · intro j _
    exact congrArg upd (eq_ix1 j)

end Landing

/-- The same for a printed `stablehlo.scatter` with an `add` body whose dimension numbers are these lists. -/
theorem scatterAdd_vec_apply {N E w : ℕ} {φ : FTy}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecDims N E wf)
    (idx : IVec ⟨2, ![E, 1]⟩ w) (x : FVec Ideal ⟨1, ![N]⟩ φ) (upd : FVec Ideal ⟨1, ![E]⟩ φ) (i : Fin N) :
    Host.scatterAdd d x idx upd (ix1 i) = x (ix1 i) + ∑ e ∈ landing idx i.val, upd (ix1 e) := by
  subst hd
  exact hostScatterAdd_vec_apply wf idx x upd i

end Cert.LibScatterAddVec

end
-- ==== Proof.EdgeFacts.lean ====
/-
  Two facts about the edge lists of the reference program, both functions of the edge array alone.

  The graph has 50000 nodes. The target list has 650000 entries: the 600000 given target words followed by the
  words of 0, 1, …, 49999, one self-loop per node. An edge lands on node j when its raw target word, read as a
  signed integer, is j.

  * The degree of node j is zero plus a one for every edge landing on j, so it is the number n of those edges, as a
    real. The self-loop edge at position 600000 + j carries the word of j, whose signed value is j, so it lands on j and
    n is at least one. The reciprocal square root of a positive real n is the real 1 / √n, which is not negative.

  * The reference normalises a target word before gathering with it: a word that is negative as a signed integer has
    50000 added. If an edge lands on j its word read signed is the natural number j, which is not negative, so the
    normalisation keeps the word; clamped into the 50000 rows a word whose signed value is j < 50000 is j itself.
-/
import proofs.«138680_j57123065037360_2_alg».proof.Proof.Gen.ReferenceIdeal.Read
import proofs.«138680_j57123065037360_2_alg».proof.Proof.Spec
import proofs.«138680_j57123065037360_2_alg».proof.Proof.LibConcatVec
import proofs.«138680_j57123065037360_2_alg».proof.Proof.LibScatterAddVec
import proofs.«138680_j57123065037360_2_alg».proof.Proof.LibTernary
import proofs.«138680_j57123065037360_2_alg».proof.Proof.LibLogistic

noncomputable section

open scoped BigOperators

namespace Cert.ReferenceIdeal.RefValue

open Cert.ReferenceIdeal Cert.ReferenceIdeal.Gen Cert.ReferenceIdeal.Read Cert.Gcn
open Idealize.ShloMosaic Idealize.ShloMosaic.ValueIdx
open Cert.LibScatterAddRows (landing)

/-- The position of node j's self-loop in the edge lists. -/
def selfLoop (j : Fin 50000) : Fin 650000 := ⟨600000 + j.val, by have := j.isLt; omega⟩

/-- The raw target column at (e, 0) is the target list at e. -/
theorem targetCol_apply (x2 : (⟨S2x600000, .i32⟩ : BufTy).Contents (Elt Ideal)) (e : Fin 650000) :
    val_main_v39 (F := Ideal) x2 (ix2 e (0 : Fin 1)) = val_main_v7 (F := Ideal) x2 (ix1 e) := by
  rw [val_main_v39_apply]
  congr 1
  funext a
  match a with
  | ⟨0, _⟩ => rfl

/-- The target word of node j's self-loop, read signed, is j. -/
theorem target_selfLoop (x2 : (⟨S2x600000, .i32⟩ : BufTy).Contents (Elt Ideal)) (j : Fin 50000) :
    (val_main_v7 (F := Ideal) x2 (ix1 (selfLoop j))).toInt = (j.val : ℤ) := by
  unfold val_main_v7
  rw [Cert.LibConcatVec.concat_vec_right concatenates_S600000_S50000_S650000_d0 (val_main_v3 (F := Ideal) x2)
    (val_main_v5 (F := Ideal)) (selfLoop j) j rfl]
  exact Cert.LibConcatVec.iota_vec_toInt (by norm_num) j

/-- Node j's self-loop lands on j. -/
theorem selfLoop_mem_landing (x2 : (⟨S2x600000, .i32⟩ : BufTy).Contents (Elt Ideal)) (j : Fin 50000) :
    selfLoop j ∈ landing (val_main_v39 (F := Ideal) x2) j.val := by
  refine Finset.mem_filter.mpr ⟨Finset.mem_univ _, ?_⟩
  rw [targetCol_apply]
  exact target_selfLoop x2 j

/-- The degree of node j is the number of edges landing on j, as a real. -/
theorem deg_apply (x2 : (⟨S2x600000, .i32⟩ : BufTy).Contents (Elt Ideal)) (j : Fin 50000) :
    val_main_v11 (F := Ideal) x2 (ix1 j)
      = (((landing (val_main_v39 (F := Ideal) x2) j.val).card : ℝ) : EReal) := by
  unfold val_main_v11
  rw [Cert.LibScatterAddVec.scatterAdd_vec_apply scatter_S50000_S650000x1_S650000_n_0_0_1_wf
    scatter_S50000_S650000x1_S650000_n_0_0_1 rfl]
  rw [val_main_v9_apply, val_main_cst_0_apply]
  simp only [val_main_v8_apply, val_main_cst_apply]
  show Ideal.ofBits .f32 0x00000000#32
      + ∑ _e ∈ landing (val_main_v39 (F := Ideal) x2) j.val, Ideal.ofBits .f32 0x3F800000#32 = _
  rw [Ideal.ofBits_zero_f32, Cert.LibLogistic.ofBits_one, zero_add,
    ← Cert.Ternary.coe_sum (landing (val_main_v39 (F := Ideal) x2) j.val) (fun _ => (1 : ℝ)),
    Finset.sum_const, nsmul_eq_mul, mul_one]

/-- The reciprocal square root of the degree is a nonnegative real. -/
theorem dinv_real (x2 : (⟨S2x600000, .i32⟩ : BufTy).Contents (Elt Ideal)) (j : Fin 50000) :
    ∃ r : ℝ, 0 ≤ r ∧ val_main_v12 (F := Ideal) x2 (ix1 j) = (r : EReal) := by
  have hpos : (0 : ℝ) < ((landing (val_main_v39 (F := Ideal) x2) j.val).card : ℝ) :=
    Nat.cast_pos.mpr (Finset.card_pos.mpr ⟨selfLoop j, selfLoop_mem_landing x2 j⟩)
  refine ⟨(Real.sqrt ((landing (val_main_v39 (F := Ideal) x2) j.val).card : ℝ))⁻¹,
    inv_nonneg.mpr (Real.sqrt_nonneg _), ?_⟩
  rw [val_main_v12_apply, deg_apply]
  show Ideal.rsqrt (((landing (val_main_v39 (F := Ideal) x2) j.val).card : ℝ) : EReal) = _
  rw [Ideal.rsqrt_coe, if_neg (not_lt.mpr hpos.le), if_neg hpos.ne']

/-- An edge landing on node j names j as its normalised target row. -/
theorem dst_names_target (x2 : (⟨S2x600000, .i32⟩ : BufTy).Contents (Elt Ideal)) (j : Fin 50000) (e : Fin 650000)
    (he : e ∈ landing (val_main_v39 (F := Ideal) x2) j.val) : rowOf (val_main_v25 (F := Ideal) x2) e = j := by
  have hv : (val_main_v7 (F := Ideal) x2 (ix1 e)).toInt = (j.val : ℤ) := by
    have h := (Finset.mem_filter.mp he).2
    rwa [targetCol_apply] at h
  have hidx : idx_main_v25 (ix2 e (0 : Fin 1)) = ix1 e := by
    funext a
    match a with
    | ⟨0, _⟩ => rfl
  unfold rowOf
  refine Cert.LibConcatVec.clampRow_of_toInt (by norm_num) _ j ?_
  rw [val_main_v25_apply, hidx, val_main_v24_apply, val_main_v21_apply, val_main_v20_apply, val_main_c_2_apply,
    Cert.LibConcatVec.slt_zero_of_toInt hv]
  show (if (0#1 : BitVec 1) = 1 then _ else _ : BitVec 32).toInt = _
  rw [if_neg (by decide)]
  exact hv

end Cert.ReferenceIdeal.RefValue

end
-- ==== Proof.Bridge.lean ====
/-
  The two programs' results are one function of the launch arrays.

  The kernel program's result array is, entry by entry, the gated update of the twice-convolved node features with
  every convolution scaled at the source and once at the target; the reference's is the same with every gathered row
  scaled by the product of its two endpoint factors. The degree factors are nonnegative reals (every node has its
  self-loop, so every degree is a positive whole number), and an edge that lands on a node names that node as its
  target, so the two arrangements are one function; the common value is written in the reference's arrangement.
-/
import proofs.«138680_j57123065037360_2_alg».proof.Proof.KernelValue
import proofs.«138680_j57123065037360_2_alg».proof.Proof.RefConv
import proofs.«138680_j57123065037360_2_alg».proof.Proof.RefGate
import proofs.«138680_j57123065037360_2_alg».proof.Proof.EdgeFacts
import proofs.«138680_j57123065037360_2_alg».proof.Proof.Whole

set_option maxRecDepth 16384

noncomputable section

namespace Cert.Bridge

open Idealize.ShloMosaic Idealize.ShloMosaic.TcCoe Idealize.ShloMosaic.ValueIdx Idealize.SL.Sem
open Cert.Gcn Cert.KernelIdeal.KValue
open Cert.ReferenceIdeal.Read (val_main_v12 val_main_v25 val_main_v33 val_main_v39 val_main_v44 val_main_v84 val_main_v117)

variable (m : (ℓ : Loc Cert.KernelIdeal.nD Cert.KernelIdeal.τ Cert.KernelIdeal.sig) → Buf (Elt Ideal) ℓ)
  (c : Dev Cert.KernelIdeal.nD)

/-- The target row each edge names, read off the launch's edge array. -/
abbrev dstK : Fin 650000 → Fin 50000 := rowOf (val_main_v25 (F := Ideal) (ed m c))

/-- The common result, as a matrix. -/
abbrev resultMat : Mat 50000 128 :=
  wholeR (dinvK m c) (srcK m c) (LK m c) (aX m c) (aHd m c) (aWin m c) (aWhid m c) (aWz m c) (aWr m c) (aWc m c)
    (aBin m c) (aBhid m c) (aBz m c) (aBr m c) (aBc m c) (dstK m c)

/-- The common result, as the contents of the result buffer. -/
def G : Buf (Elt Ideal) ((c.tc : Thread Cert.KernelIdeal.nD Cert.KernelIdeal.τ).loc Cert.KernelIdeal.main_v47) :=
  fun i : Cert.KernelIdeal.S50000x128.Idx => resultMat m c (i 0) (i 1)

/-- The kernel program's result array is the common result. -/
theorem kernel_result (ρ : Dev Cert.KernelIdeal.nD → PrngReg) :
    Cert.KernelIdeal.Gen.W7 m ρ c (Proc.devRef .tc Cert.KernelIdeal.main_v47) = G m c := by
  funext i
  obtain ⟨p, q, rfl⟩ : ∃ (p : Fin 50000) (q : Fin 128), i = ix2 p q := ⟨i 0, i 1, eq_ix2 i⟩
  rw [result_value m ρ c p q,
    wholeK_eq_wholeR (dinvK m c) (srcK m c) (LK m c) (aX m c) (aHd m c) (aWin m c) (aWhid m c) (aWz m c) (aWr m c) (aWc m c)
      (aBin m c) (aBhid m c) (aBz m c) (aBr m c) (aBc m c) (dstK m c)
      (Cert.ReferenceIdeal.RefValue.dinv_real (ed m c)) (Cert.ReferenceIdeal.RefValue.dst_names_target (ed m c))]
  rfl

/-- The reference program's result array, from a memory that agrees with the kernel's on the arguments, is the common
    result. -/
theorem ref_result
    (m' : (ℓ : Loc Cert.ReferenceIdeal.nD Cert.ReferenceIdeal.τ Cert.ReferenceIdeal.sig) → Buf (Elt Ideal) ℓ)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v117 m' c = G m c := by
  obtain ⟨h0, h1, h2, h3, h4, h5, h6, h7, h8, h9, h10, h11, h12⟩ := hagree
  rw [Cert.ReferenceIdeal.Read.val_main_v117_eq, h0, h1, h2, h3, h4, h5, h6, h7, h8, h9, h10, h11, h12]
  funext i
  obtain ⟨p, q, rfl⟩ : ∃ (p : Fin 50000) (q : Fin 128), i = ix2 p q := ⟨i 0, i 1, eq_ix2 i⟩
  rw [Cert.ReferenceIdeal.RefValue.ref_gru]
  have hE := funext fun p : Fin 50000 => funext fun k : Fin 128 => Cert.ReferenceIdeal.RefValue.ref_embed
    (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) p k
  have hH := funext fun p : Fin 50000 => funext fun k : Fin 128 => Cert.ReferenceIdeal.RefValue.ref_hidden
    (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) p k
  rw [hE, hH]
  rfl

end Cert.Bridge

end
-- ==== Proof.lean ====
/-
  The certificate of the graph-convolution cell: a kernel program of four kernel regions among host operations
  (two products scaled by the reciprocal square-root degrees, a bias-and-clamp epilogue, a gated update) against
  its plain reference.

  The three frames are the programs' runs: the two kernel programs' are the generated frame certificates, the
  reference's is its generated run with the result dropped. The idealization rewrote no operation, so there is
  nothing to preserve. The algebraic claim: run from memories that agree on the arguments, the idealized kernel
  program ends with its result array at the gated update of the twice-convolved features — read off its regions and
  host stretches entry by entry — and so does the reference — read off its operations entry by entry —, the two
  arrangements of the degree scaling being one function because every degree factor is a nonnegative real.
-/
import proofs.«138680_j57123065037360_2_alg».proof.Defs
import proofs.«138680_j57123065037360_2_alg».proof.Proof.Gen.Kernel
import proofs.«138680_j57123065037360_2_alg».proof.Proof.Gen.Kernel.Frame
import proofs.«138680_j57123065037360_2_alg».proof.Proof.Gen.KernelIdeal
import proofs.«138680_j57123065037360_2_alg».proof.Proof.Gen.KernelIdeal.Frame
import proofs.«138680_j57123065037360_2_alg».proof.Proof.Gen.ReferenceIdeal
import proofs.«138680_j57123065037360_2_alg».proof.Proof.Gen.Pre_finite_inputs
import proofs.«138680_j57123065037360_2_alg».proof.Proof.Gen.ReferenceIdeal.Run
import proofs.«138680_j57123065037360_2_alg».proof.Proof.Gen.ReferenceIdeal.Read
import proofs.«138680_j57123065037360_2_alg».proof.Proof.KernelRun
import proofs.«138680_j57123065037360_2_alg».proof.Proof.Bridge
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Gen.frame m ρ

/-- The idealized kernel program's frame. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the common result. -/
theorem algebraic : Cert.algebraic_KernelIdeal_ReferenceIdeal := by
  intro m ρ m' ρ' _ hagree
  refine ⟨fun c => Cert.Bridge.G m c, ?_, ?_⟩
  · exact (θ_run Cert.KernelIdeal.defs _ _).mono
      (fun _ h c => ⟨(h c).1.trans (Cert.Bridge.kernel_result m c ρ), (h c).2⟩) (Cert.KernelIdeal.KRun.run (F := Ideal) m ρ)
  · exact (θ_run Cert.ReferenceIdeal.defs _ _).mono
      (fun _ h c => ⟨(h c).1.trans (Cert.Bridge.ref_result m c m' (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
